-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512x512 : Shape := ⟨3, ![64, 512, 512]⟩
abbrev S4x256x256 : Shape := ⟨3, ![4, 256, 256]⟩
abbrev S4x256 : Shape := ⟨2, ![4, 256]⟩
abbrev S256x256 : Shape := ⟨2, ![256, 256]⟩
abbrev S256 : Shape := ⟨1, ![256]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg1 : FVec F S64x512x512 .f32) (main_v48 : IVec S_ 1) (main_v50 : IVec S64x512x512 1) : IVec S_ 1 :=
  let main_cst_19 : FVec F S_ .f32 := constant S_ .f32 0x3F800000#32
  let main_v51 : FVec F S64x512x512 .f32 := broadcastInDim S64x512x512 ![] bcast_S_S64x512x512 main_cst_19
  let main_v52 : IVec S64x512x512 1 := cmpf .oeq main_arg1 main_v51
  let main_v53 : IVec S64x512x512 1 := ori main_v50 main_v52
  let main_c_20 : IVec S_ 1 := constantI S_ 1 1#1
  let main_v54 : IVec S_ 1 := (fun x v => Host.reduce IntOp.andi x v reducesTo_S64x512x512_S_d0_1_2 h_S_) main_v53 main_c_20
  let main_v55 : IVec S_ 1 := andi main_v48 main_v54
  main_v55

def fn_part2 {F : FTy → Type} [FloatOps F] (main_arg1 : FVec F S64x512x512 .f32) (main_arg7 : FVec F S4x256 .f32) (main_arg8 : FVec F S256x256 .f32) (main_arg9 : FVec F S256 .f32) (main_v33 : IVec S_ 1) : IVec S_ 1 :=
  let main_v34 : FVec F S4x256 .f32 := Host.absf main_arg7
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_cst_18 : FVec F S_ .f32 := constant S_ .f32 0x00000000#32
  let main_v49 : FVec F S64x512x512 .f32 := broadcastInDim S64x512x512 ![] bcast_S_S64x512x512 main_cst_18
  let main_v50 : IVec S64x512x512 1 := cmpf .oeq main_arg1 main_v49
  fn_part3 (F := F) main_arg1 main_v48 main_v50

def fn_part1 {F : FTy → Type} [FloatOps F] (main_arg1 : FVec F S64x512x512 .f32) (main_arg4 : FVec F S4x256x256 .f32) (main_arg5 : FVec F S4x256 .f32) (main_arg6 : FVec F S4x256x256 .f32) (main_arg7 : FVec F S4x256 .f32) (main_arg8 : FVec F S256x256 .f32) (main_arg9 : FVec F S256 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256x256 .f32 := Host.absf main_arg4
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256x256 .f32 := Host.absf main_arg6
  let main_cst_10 : FVec F S_ .f32 := constant S_ .f32 0x7F800000#32
  let main_v30 : FVec F S4x256x256 .f32 := broadcastInDim S4x256x256 ![] bcast_S_S4x256x256 main_cst_10
  let main_v31 : IVec S4x256x256 1 := cmpf .olt main_v29 main_v30
  let main_c_11 : IVec S_ 1 := constantI S_ 1 1#1
  let main_v32 : IVec S_ 1 := (fun x v => Host.reduce IntOp.andi x v reducesTo_S4x256x256_S_d0_1_2 h_S_) main_v31 main_c_11
  let main_v33 : IVec S_ 1 := andi main_v28 main_v32
  fn_part2 (F := F) main_arg1 main_arg7 main_arg8 main_arg9 main_v33

def fn {F : FTy → Type} [FloatOps F] (main_arg0 : FVec F S64x512x256 .f32) (main_arg1 : FVec F S64x512x512 .f32) (main_arg2 : FVec F S4x256x256 .f32) (main_arg3 : FVec F S4x256 .f32) (main_arg4 : FVec F S4x256x256 .f32) (main_arg5 : FVec F S4x256 .f32) (main_arg6 : FVec F S4x256x256 .f32) (main_arg7 : FVec F S4x256 .f32) (main_arg8 : FVec F S256x256 .f32) (main_arg9 : FVec F S256 .f32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x256 .f32 := Host.absf main_arg3
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg1 main_arg4 main_arg5 main_arg6 main_arg7 main_arg8 main_arg9 main_v13 main_v16
-- ==== Kernel.lean ====
abbrev S64x512x256 : Shape := ⟨3, ![64, 512, 256]⟩
abbrev S64x512x512 : Shape := ⟨3, ![64, 512, 512]⟩
abbrev S4x256x256 : Shape := ⟨3, ![4, 256, 256]⟩
abbrev S4x256 : Shape := ⟨2, ![4, 256]⟩
abbrev S256x256 : Shape := ⟨2, ![256, 256]⟩
abbrev S256 : Shape := ⟨1, ![256]⟩
abbrev S1x512x256 : Shape := ⟨3, ![1, 512, 256]⟩
abbrev S1x512x512 : Shape := ⟨3, ![1, 512, 512]⟩
abbrev S512x256 : Shape := ⟨2, ![512, 256]⟩
abbrev S512x512 : Shape := ⟨2, ![512, 512]⟩
abbrev S1x256x256 : Shape := ⟨3, ![1, 256, 256]⟩
abbrev S1x256 : Shape := ⟨2, ![1, 256]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S64x512x256, .f32⟩
  | .hbm, ⟨1, _⟩ => ⟨S64x512x512, .f32⟩
  | .hbm, ⟨2, _⟩ => ⟨S4x256x256, .f32⟩
  | .hbm, ⟨3, _⟩ => ⟨S4x256, .f32⟩
  | .hbm, ⟨4, _⟩ => ⟨S4x256x256, .f32⟩
  | .hbm, ⟨5, _⟩ => ⟨S4x256, .f32⟩
  | .hbm, ⟨6, _⟩ => ⟨S4x256x256, .f32⟩
  | .hbm, ⟨7, _⟩ => ⟨S4x256, .f32⟩
  | .hbm, ⟨8, _⟩ => ⟨S256x256, .f32⟩
  | .hbm, ⟨9, _⟩ => ⟨S256, .f32⟩
  | .hbm, ⟨10, _⟩ => ⟨S4x256x256, .f32⟩
  | .hbm, ⟨11, _⟩ => ⟨S4x256x256, .f32⟩
  | .hbm, ⟨12, _⟩ => ⟨S4x256x256, .f32⟩
  | .hbm, ⟨13, _⟩ => ⟨S256x256, .f32⟩
  | .hbm, ⟨14, _⟩ => ⟨S64x512x256, .f32⟩
  | .local _ .vmem, ⟨0, _⟩ => ⟨S1x512x256, .f32⟩
  | .local _ .vmem, ⟨1, _⟩ => ⟨S1x512x256, .f32⟩
  | .local _ .vmem, ⟨2, _⟩ => ⟨S1x512x512, .f32⟩
  | .local _ .vmem, ⟨3, _⟩ => ⟨S1x512x512, .f32⟩
  | .local _ .vmem, ⟨4, _⟩ => ⟨S4x256x256, .f32⟩
  | .local _ .vmem, ⟨5, _⟩ => ⟨S4x256, .f32⟩
  | .local _ .vmem, ⟨6, _⟩ => ⟨S4x256x256, .f32⟩
  | .local _ .vmem, ⟨7, _⟩ => ⟨S4x256, .f32⟩
  | .local _ .vmem, ⟨8, _⟩ => ⟨S4x256x256, .f32⟩
  | .local _ .vmem, ⟨9, _⟩ => ⟨S4x256, .f32⟩
  | .local _ .vmem, ⟨10, _⟩ => ⟨S256x256, .f32⟩
  | .local _ .vmem, ⟨11, _⟩ => ⟨S256, .f32⟩
  | .local _ .vmem, ⟨12, _⟩ => ⟨S1x512x256, .f32⟩
  | .local _ .vmem, ⟨13, _⟩ => ⟨S1x512x256, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S4x256x256_S4x256x256_0_2_1 : S4x256x256.Transposes [0, 2, 1] S4x256x256
  transposes_S256x256_S256x256_1_0 : S256x256.Transposes [1, 0] S256x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x512_d0_w32 : S512x512.Iotas .tc 32 [0]
  iota_S512x512_d1_w32 : S512x512.Iotas .tc 32 [1]
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  inb_S4x256_S1x256_0_0 : ∀ a, (![0, 0] : Fin 2 → Nat) a + S1x256.size a ≤ S4x256.size a
  h_S1x256 : 0 < S1x256.numel
  shapeCasts_S1x256_S256 : S1x256.ShapeCasts S256
  bitsLt_bf16_f32 : FTy.bits .bf16 < FTy.bits .f32
  shapeCasts_S256_S1x256 : S256.ShapeCasts S1x256
  broadcasts_S1x256_S512x256 : S1x256.Broadcasts S512x256
  reduces_S512x512_S512 : S512x512.Reduces [1] S512
  shapeCasts_S512_S512x1 : S512.ShapeCasts S512x1
  broadcasts_S512x1_S512x256 : S512x1.Broadcasts S512x256
  inb_S4x256x256_S1x256x256_1_0_0 : ∀ a, (![1, 0, 0] : Fin 3 → Nat) a + S1x256x256.size a ≤ S4x256x256.size a
  inb_S4x256_S1x256_1_0 : ∀ a, (![1, 0] : Fin 2 → Nat) a + S1x256.size a ≤ S4x256.size a
  inb_S4x256x256_S1x256x256_2_0_0 : ∀ a, (![2, 0, 0] : Fin 3 → Nat) a + S1x256x256.size a ≤ S4x256x256.size a
  inb_S4x256_S1x256_2_0 : ∀ a, (![2, 0] : Fin 2 → Nat) a + S1x256.size a ≤ S4x256.size a
  inb_S4x256x256_S1x256x256_3_0_0 : ∀ a, (![3, 0, 0] : Fin 3 → Nat) a + S1x256x256.size a ≤ S4x256x256.size a
  inb_S4x256_S1x256_3_0 : ∀ a, (![3, 0] : Fin 2 → Nat) a + S1x256.size a ≤ S4x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S512x256_S1x512x256 : S512x256.ShapeCasts S1x512x256
  dot_S512x256_S256x256_S512x256_1_0_0_1_n_n_wf : DotDims.WF S512x256 S256x256 S512x256 [1] [0] [0] [1] [] []
  dot_S512x256_S512x256_S512x512_1_1_0_0_n_n_wf : DotDims.WF S512x256 S512x256 S512x512 [1] [1] [0] [0] [] []
  dot_S512x512_S512x256_S512x256_1_0_0_1_n_n_wf : DotDims.WF S512x512 S512x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S64x512x256.size a
  hwx0_0 : ∀ i : grid0.Coords, EltTy.bits .f32 = 32 ∨ (Rect.block (s := S64x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x256.size a ≤ S4x256x256.size a
  hwx0_2 : ∀ i : grid0.Coords, EltTy.bits .f32 = 32 ∨ (Rect.block (s := S4x256x256) S4x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .f32 = 32 ∨ (Rect.block (s := S4x256) S4x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S4x256x256.size a
  hwx0_4 : ∀ i : grid0.Coords, EltTy.bits .f32 = 32 ∨ (Rect.block (s := S4x256x256) S4x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S4x256x256.size a
  hwx0_6 : ∀ i : grid0.Coords, EltTy.bits .f32 = 32 ∨ (Rect.block (s := S4x256x256) S4x256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256.size a ≤ S4x256.size a
  hwx0_7 : ∀ i : grid0.Coords, EltTy.bits .f32 = 32 ∨ (Rect.block (s := S4x256) S4x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512x256.size a ≤ S64x512x256.size a
  hwx0_10 : ∀ i : grid0.Coords, EltTy.bits .f32 = 32 ∨ (Rect.block (s := S64x512x256) S1x512x256.size (cc0_transform_10 i) (hinb0_10 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x512x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S64x512x512 : Shape := ⟨3, ![64, 512, 512]⟩
abbrev S4x256x256 : Shape := ⟨3, ![4, 256, 256]⟩
abbrev S4x256 : Shape := ⟨2, ![4, 256]⟩
abbrev S256x256 : Shape := ⟨2, ![256, 256]⟩
abbrev S256 : Shape := ⟨1, ![256]⟩
abbrev S512x512 : Shape := ⟨2, ![512, 512]⟩
abbrev S_ : Shape := ⟨0, ![]⟩
abbrev S1x512x512 : Shape := ⟨3, ![1, 512, 512]⟩
abbrev S1x256x256 : Shape := ⟨3, ![1, 256, 256]⟩
abbrev S1x256 : Shape := ⟨2, ![1, 256]⟩
abbrev S1x1x256 : Shape := ⟨3, ![1, 1, 256]⟩
abbrev S64x512 : Shape := ⟨2, ![64, 512]⟩
abbrev S64x512x1 : Shape := ⟨3, ![64, 512, 1]⟩

abbrev nBuf : Space → Nat
  | .hbm => 241
  | .vmem => 0
  | .smem => 0
  | _ => 0

abbrev hbmTy0_0 (i : Nat) : BufTy := match i % 128 with
  | 0 => ⟨S64x512x256, .f32⟩
  | 1 => ⟨S64x512x512, .f32⟩
  | 2 => ⟨S4x256x256, .f32⟩
  | 3 => ⟨S4x256, .f32⟩
  | 4 => ⟨S4x256x256, .f32⟩
  | 5 => ⟨S4x256, .f32⟩
  | 6 => ⟨S4x256x256, .f32⟩
  | 7 => ⟨S4x256, .f32⟩
  | 8 => ⟨S256x256, .f32⟩
  | 9 => ⟨S256, .f32⟩
  | 10 => ⟨S512x512, .i32⟩
  | 11 => ⟨S512x512, .i32⟩
  | 12 => ⟨S_, .i32⟩
  | 13 => ⟨S512x512, .i32⟩
  | 14 => ⟨S512x512, .i32⟩
  | 15 => ⟨S512x512, .i1⟩
  | 16 => ⟨S512x512, .f32⟩
  | 17 => ⟨S1x512x512, .f32⟩
  | 18 => ⟨S_, .f32⟩
  | 19 => ⟨S1x512x512, .f32⟩
  | 20 => ⟨S1x512x512, .i1⟩
  | 21 => ⟨S_, .f32⟩
  | 22 => ⟨S64x512x512, .i1⟩
  | 23 => ⟨S64x512x512, .f32⟩
  | 24 => ⟨S64x512x512, .f32⟩
  | 25 => ⟨S1x256x256, .f32⟩
  | 26 => ⟨S256x256, .f32⟩
  | 27 => ⟨S64x512x256, .f32⟩
  | 28 => ⟨S1x256, .f32⟩
  | 29 => ⟨S256, .f32⟩
  | 30 => ⟨S1x1x256, .f32⟩
  | 31 => ⟨S64x512x256, .f32⟩
  | 32 => ⟨S64x512x256, .f32⟩
  | 33 => ⟨S64x512x512, .f32⟩
  | 34 => ⟨S64x512x512, .f32⟩
  | 35 => ⟨S64x512x512, .f32⟩
  | 36 => ⟨S_, .f32⟩
  | 37 => ⟨S64x512x512, .f32⟩
  | 38 => ⟨S64x512x512, .f32⟩
  | 39 => ⟨S_, .f32⟩
  | 40 => ⟨S64x512x512, .f32⟩
  | 41 => ⟨S64x512x512, .f32⟩
  | 42 => ⟨S_, .f32⟩
  | 43 => ⟨S512x512, .f32⟩
  | 44 => ⟨S512x512, .f32⟩
  | 45 => ⟨S1x512x512, .f32⟩
  | 46 => ⟨S64x512x512, .f32⟩
  | 47 => ⟨S64x512x512, .f32⟩
  | 48 => ⟨S64x512x512, .f32⟩
  | 49 => ⟨S_, .f32⟩
  | 50 => ⟨S64x512, .f32⟩
  | 51 => ⟨S64x512x1, .f32⟩
  | 52 => ⟨S64x512x512, .f32⟩
  | 53 => ⟨S64x512x512, .f32⟩
  | 54 => ⟨S64x512x256, .f32⟩
  | 55 => ⟨S1x256x256, .f32⟩
  | 56 => ⟨S256x256, .f32⟩
  | 57 => ⟨S64x512x256, .f32⟩
  | 58 => ⟨S1x256, .f32⟩
  | 59 => ⟨S256, .f32⟩
  | 60 => ⟨S1x1x256, .f32⟩
  | 61 => ⟨S64x512x256, .f32⟩
  | 62 => ⟨S64x512x256, .f32⟩
  | 63 => ⟨S_, .f32⟩
  | 64 => ⟨S64x512x256, .f32⟩
  | 65 => ⟨S64x512x256, .f32⟩
  | 66 => ⟨S1x256x256, .f32⟩
  | 67 => ⟨S256x256, .f32⟩
  | 68 => ⟨S64x512x256, .f32⟩
  | 69 => ⟨S1x256, .f32⟩
  | 70 => ⟨S256, .f32⟩
  | 71 => ⟨S1x1x256, .f32⟩
  | 72 => ⟨S64x512x256, .f32⟩
  | 73 => ⟨S64x512x256, .f32⟩
  | 74 => ⟨S_, .f32⟩
  | 75 => ⟨S64x512x256, .f32⟩
  | 76 => ⟨S64x512x256, .f32⟩
  | 77 => ⟨S64x512x256, .f32⟩
  | 78 => ⟨S1x256x256, .f32⟩
  | 79 => ⟨S256x256, .f32⟩
  | 80 => ⟨S64x512x256, .f32⟩
  | 81 => ⟨S1x256, .f32⟩
  | 82 => ⟨S256, .f32⟩
  | 83 => ⟨S1x1x256, .f32⟩
  | 84 => ⟨S64x512x256, .f32⟩
  | 85 => ⟨S64x512x256, .f32⟩
  | 86 => ⟨S64x512x512, .f32⟩
  | 87 => ⟨S64x512x512, .f32⟩
  | 88 => ⟨S64x512x512, .f32⟩
  | 89 => ⟨S_, .f32⟩
  | 90 => ⟨S64x512x512, .f32⟩
  | 91 => ⟨S64x512x512, .f32⟩
  | 92 => ⟨S_, .f32⟩
  | 93 => ⟨S64x512x512, .f32⟩
  | 94 => ⟨S64x512x512, .f32⟩
  | 95 => ⟨S_, .f32⟩
  | 96 => ⟨S512x512, .f32⟩
  | 97 => ⟨S512x512, .f32⟩
  | 98 => ⟨S1x512x512, .f32⟩
  | 99 => ⟨S64x512x512, .f32⟩
  | 100 => ⟨S64x512x512, .f32⟩
  | 101 => ⟨S64x512x512, .f32⟩
  | 102 => ⟨S_, .f32⟩
  | 103 => ⟨S64x512, .f32⟩
  | 104 => ⟨S64x512x1, .f32⟩
  | 105 => ⟨S64x512x512, .f32⟩
  | 106 => ⟨S64x512x512, .f32⟩
  | 107 => ⟨S64x512x256, .f32⟩
  | 108 => ⟨S1x256x256, .f32⟩
  | 109 => ⟨S256x256, .f32⟩
  | 110 => ⟨S64x512x256, .f32⟩
  | 111 => ⟨S1x256, .f32⟩
  | 112 => ⟨S256, .f32⟩
  | 113 => ⟨S1x1x256, .f32⟩
  | 114 => ⟨S64x512x256, .f32⟩
  | 115 => ⟨S64x512x256, .f32⟩
  | 116 => ⟨S_, .f32⟩
  | 117 => ⟨S64x512x256, .f32⟩
  | 118 => ⟨S64x512x256, .f32⟩
  | 119 => ⟨S1x256x256, .f32⟩
  | 120 => ⟨S256x256, .f32⟩
  | 121 => ⟨S64x512x256, .f32⟩
  | 122 => ⟨S1x256, .f32⟩
  | 123 => ⟨S256, .f32⟩
  | 124 => ⟨S1x1x256, .f32⟩
  | 125 => ⟨S64x512x256, .f32⟩
  | 126 => ⟨S64x512x256, .f32⟩
  | 127 => ⟨S_, .f32⟩
  | _ => ⟨S64x512x256, .f32⟩

abbrev hbmTy0_1 (i : Nat) : BufTy := match i % 128 with
  | 0 => ⟨S64x512x256, .f32⟩
  | 1 => ⟨S64x512x256, .f32⟩
  | 2 => ⟨S64x512x256, .f32⟩
  | 3 => ⟨S1x256x256, .f32⟩
  | 4 => ⟨S256x256, .f32⟩
  | 5 => ⟨S64x512x256, .f32⟩
  | 6 => ⟨S1x256, .f32⟩
  | 7 => ⟨S256, .f32⟩
  | 8 => ⟨S1x1x256, .f32⟩
  | 9 => ⟨S64x512x256, .f32⟩
  | 10 => ⟨S64x512x256, .f32⟩
  | 11 => ⟨S64x512x512, .f32⟩
  | 12 => ⟨S64x512x512, .f32⟩
  | 13 => ⟨S64x512x512, .f32⟩
  | 14 => ⟨S_, .f32⟩
  | 15 => ⟨S64x512x512, .f32⟩
  | 16 => ⟨S64x512x512, .f32⟩
  | 17 => ⟨S_, .f32⟩
  | 18 => ⟨S64x512x512, .f32⟩
  | 19 => ⟨S64x512x512, .f32⟩
  | 20 => ⟨S_, .f32⟩
  | 21 => ⟨S512x512, .f32⟩
  | 22 => ⟨S512x512, .f32⟩
  | 23 => ⟨S1x512x512, .f32⟩
  | 24 => ⟨S64x512x512, .f32⟩
  | 25 => ⟨S64x512x512, .f32⟩
  | 26 => ⟨S64x512x512, .f32⟩
  | 27 => ⟨S_, .f32⟩
  | 28 => ⟨S64x512, .f32⟩
  | 29 => ⟨S64x512x1, .f32⟩
  | 30 => ⟨S64x512x512, .f32⟩
  | 31 => ⟨S64x512x512, .f32⟩
  | 32 => ⟨S64x512x256, .f32⟩
  | 33 => ⟨S1x256x256, .f32⟩
  | 34 => ⟨S256x256, .f32⟩
  | 35 => ⟨S64x512x256, .f32⟩
  | 36 => ⟨S1x256, .f32⟩
  | 37 => ⟨S256, .f32⟩
  | 38 => ⟨S1x1x256, .f32⟩
  | 39 => ⟨S64x512x256, .f32⟩
  | 40 => ⟨S64x512x256, .f32⟩
  | 41 => ⟨S_, .f32⟩
  | 42 => ⟨S64x512x256, .f32⟩
  | 43 => ⟨S64x512x256, .f32⟩
  | 44 => ⟨S1x256x256, .f32⟩
  | 45 => ⟨S256x256, .f32⟩
  | 46 => ⟨S64x512x256, .f32⟩
  | 47 => ⟨S1x256, .f32⟩
  | 48 => ⟨S256, .f32⟩
  | 49 => ⟨S1x1x256, .f32⟩
  | 50 => ⟨S64x512x256, .f32⟩
  | 51 => ⟨S64x512x256, .f32⟩
  | 52 => ⟨S_, .f32⟩
  | 53 => ⟨S64x512x256, .f32⟩
  | 54 => ⟨S64x512x256, .f32⟩
  | 55 => ⟨S64x512x256, .f32⟩
  | 56 => ⟨S1x256x256, .f32⟩
  | 57 => ⟨S256x256, .f32⟩
  | 58 => ⟨S64x512x256, .f32⟩
  | 59 => ⟨S1x256, .f32⟩
  | 60 => ⟨S256, .f32⟩
  | 61 => ⟨S1x1x256, .f32⟩
  | 62 => ⟨S64x512x256, .f32⟩
  | 63 => ⟨S64x512x256, .f32⟩
  | 64 => ⟨S64x512x512, .f32⟩
  | 65 => ⟨S64x512x512, .f32⟩
  | 66 => ⟨S64x512x512, .f32⟩
  | 67 => ⟨S_, .f32⟩
  | 68 => ⟨S64x512x512, .f32⟩
  | 69 => ⟨S64x512x512, .f32⟩
  | 70 => ⟨S_, .f32⟩
  | 71 => ⟨S64x512x512, .f32⟩
  | 72 => ⟨S64x512x512, .f32⟩
  | 73 => ⟨S_, .f32⟩
  | 74 => ⟨S512x512, .f32⟩
  | 75 => ⟨S512x512, .f32⟩
  | 76 => ⟨S1x512x512, .f32⟩
  | 77 => ⟨S64x512x512, .f32⟩
  | 78 => ⟨S64x512x512, .f32⟩
  | 79 => ⟨S64x512x512, .f32⟩
  | 80 => ⟨S_, .f32⟩
  | 81 => ⟨S64x512, .f32⟩
  | 82 => ⟨S64x512x1, .f32⟩
  | 83 => ⟨S64x512x512, .f32⟩
  | 84 => ⟨S64x512x512, .f32⟩
  | 85 => ⟨S64x512x256, .f32⟩
  | 86 => ⟨S1x256x256, .f32⟩
  | 87 => ⟨S256x256, .f32⟩
  | 88 => ⟨S64x512x256, .f32⟩
  | 89 => ⟨S1x256, .f32⟩
  | 90 => ⟨S256, .f32⟩
  | 91 => ⟨S1x1x256, .f32⟩
  | 92 => ⟨S64x512x256, .f32⟩
  | 93 => ⟨S64x512x256, .f32⟩
  | 94 => ⟨S_, .f32⟩
  | 95 => ⟨S64x512x256, .f32⟩
  | 96 => ⟨S64x512x256, .f32⟩
  | 97 => ⟨S1x256x256, .f32⟩
  | 98 => ⟨S256x256, .f32⟩
  | 99 => ⟨S64x512x256, .f32⟩
  | 100 => ⟨S1x256, .f32⟩
  | 101 => ⟨S256, .f32⟩
  | 102 => ⟨S1x1x256, .f32⟩
  | 103 => ⟨S64x512x256, .f32⟩
  | 104 => ⟨S64x512x256, .f32⟩
  | 105 => ⟨S_, .f32⟩
  | 106 => ⟨S64x512x256, .f32⟩
  | 107 => ⟨S64x512x256, .f32⟩
  | 108 => ⟨S64x512x256, .f32⟩
  | 109 => ⟨S64x512x256, .f32⟩
  | 110 => ⟨S1x1x256, .f32⟩
  | 111 => ⟨S64x512x256, .f32⟩
  | 112 => ⟨S64x512x256, .f32⟩
  | _ => ⟨S64x512x256, .f32⟩

abbrev hbmTy (i : Nat) : BufTy := match i / 128 with
  | 0 => hbmTy0_0 i
  | 1 => hbmTy0_1 i
  | _ => ⟨S64x512x256, .f32⟩

abbrev bufTy : (tb : Table) → Fin (tcTables nBuf tb) → BufTy
  | .hbm, ⟨i, _⟩ => hbmTy i
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call2_cst : Ref sig .tc := ⟨.hbm, 74, rfl⟩
abbrev main_call2_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_5 : Ref sig .tc := ⟨.hbm, 89, rfl⟩
abbrev main_v66 : Ref sig .tc := ⟨.hbm, 90, rfl⟩
abbrev main_v67 : Ref sig .tc := ⟨.hbm, 91, rfl⟩
abbrev main_cst_6 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_8 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call3_cst : Ref sig .tc := ⟨.hbm, 116, rfl⟩
abbrev main_call3_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_call4_cst : Ref sig .tc := ⟨.hbm, 127, rfl⟩
abbrev main_call4_v0 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_9 : Ref sig .tc := ⟨.hbm, 142, rfl⟩
abbrev main_v111 : Ref sig .tc := ⟨.hbm, 143, rfl⟩
abbrev main_v112 : Ref sig .tc := ⟨.hbm, 144, rfl⟩
abbrev main_cst_10 : Ref sig .tc := ⟨.hbm, 145, rfl⟩
abbrev main_v113 : Ref sig .tc := ⟨.hbm, 146, rfl⟩
abbrev main_v114 : Ref sig .tc := ⟨.hbm, 147, rfl⟩
abbrev main_cst_11 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_12 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_call5_cst : Ref sig .tc := ⟨.hbm, 169, rfl⟩
abbrev main_call5_v0 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_call6_cst : Ref sig .tc := ⟨.hbm, 180, rfl⟩
abbrev main_call6_v0 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_13 : Ref sig .tc := ⟨.hbm, 195, rfl⟩
abbrev main_v156 : Ref sig .tc := ⟨.hbm, 196, rfl⟩
abbrev main_v157 : Ref sig .tc := ⟨.hbm, 197, rfl⟩
abbrev main_cst_14 : Ref sig .tc := ⟨.hbm, 198, rfl⟩
abbrev main_v158 : Ref sig .tc := ⟨.hbm, 199, rfl⟩
abbrev main_v159 : Ref sig .tc := ⟨.hbm, 200, rfl⟩
abbrev main_cst_15 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_16 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_call7_cst : Ref sig .tc := ⟨.hbm, 222, rfl⟩
abbrev main_call7_v0 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_call8_cst : Ref sig .tc := ⟨.hbm, 233, rfl⟩
abbrev main_call8_v0 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1x512x512_S64x512x512_0_1_2 : S1x512x512.BroadcastsInDim S64x512x512 (![0, 1, 2] : Fin 3 → Fin S64x512x512.rank)
  bcast_S_S64x512x512 : S_.BroadcastsInDim S64x512x512 (![] : Fin 0 → Fin S64x512x512.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S256_S1x1x256_2 : S256.BroadcastsInDim S1x1x256 (![2] : Fin 1 → Fin S1x1x256.rank)
  bcast_S1x1x256_S64x512x256_0_1_2 : S1x1x256.BroadcastsInDim S64x512x256 (![0, 1, 2] : Fin 3 → Fin S64x512x256.rank)
  reducesTo_S64x512x512_S64x512_d2 : S64x512x512.ReducesTo [2] S64x512
  h_S_ : 0 < S_.numel
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S_S64x512x256 : S_.BroadcastsInDim S64x512x256 (![] : Fin 0 → Fin S64x512x256.rank)
  slices_S4x256x256_S1x256x256_1_0_0 : S4x256x256.Slices ![1, 0, 0] S1x256x256
  slices_S4x256_S1x256_1_0 : S4x256.Slices ![1, 0] S1x256
  slices_S4x256x256_S1x256x256_2_0_0 : S4x256x256.Slices ![2, 0, 0] S1x256x256
  slices_S4x256_S1x256_2_0 : S4x256.Slices ![2, 0] S1x256
  slices_S4x256x256_S1x256x256_3_0_0 : S4x256x256.Slices ![3, 0, 0] S1x256x256
  slices_S4x256_S1x256_3_0 : S4x256.Slices ![3, 0] S1x256
  dot_S64x512x256_S256x256_S64x512x256_2_1_01_0_n_n_wf : DotDims.WF S64x512x256 S256x256 S64x512x256 [2] [1] [0, 1] [0] [] []
  dot_S64x512x256_S64x512x256_S64x512x512_2_2_1_1_0_0_wf : DotDims.WF S64x512x256 S64x512x256 S64x512x512 [2] [2] [1] [1] [0] [0]
  dot_S64x512x512_S64x512x256_S64x512x256_2_1_1_2_0_0_wf : DotDims.WF S64x512x512 S64x512x256 S64x512x256 [2] [1] [1] [2] [0] [0]

variable [Facts₀]

def dot_S64x512x256_S256x256_S64x512x256_2_1_01_0_n_n : DotDims S64x512x256 S256x256 S64x512x256 where
  lhsContracting := [2]
  rhsContracting := [1]
  lhsNonContracting := [0, 1]
  rhsNonContracting := [0]
  lhsBatch := []
  rhsBatch := []
  wf := dot_S64x512x256_S256x256_S64x512x256_2_1_01_0_n_n_wf
def dot_S64x512x256_S64x512x256_S64x512x512_2_2_1_1_0_0 : DotDims S64x512x256 S64x512x256 S64x512x512 where
  lhsContracting := [2]
  rhsContracting := [2]
  lhsNonContracting := [1]
  rhsNonContracting := [1]
  lhsBatch := [0]
  rhsBatch := [0]
  wf := dot_S64x512x256_S64x512x256_S64x512x512_2_2_1_1_0_0_wf
def dot_S64x512x512_S64x512x256_S64x512x256_2_1_1_2_0_0 : DotDims S64x512x512 S64x512x256 S64x512x256 where
  lhsContracting := [2]
  rhsContracting := [1]
  lhsNonContracting := [1]
  rhsNonContracting := [2]
  lhsBatch := [0]
  rhsBatch := [0]
  wf := dot_S64x512x512_S64x512x256_S64x512x256_2_1_1_2_0_0_wf

class Facts : Prop extends Facts₀ where

variable [Facts]
-- ==== Proof.RefRunOps.lean ====
/-
  The reference program's operation list cut into six consecutive pieces — the prelude that builds the identity matrix
  and the adjacency matrix with its diagonal forced to one, the four layers, and the final affine map — with the fold of
  the operations' results over a concatenation (the fold over the second list started from the fold over the first), and,
  for each piece, the statement that a reference the piece does not write keeps its contents.
-/
import proofs.«156558_j6545530159683_2_alg».proof.Proof.RunOpsP

noncomputable section

namespace Cert.Gat.RefRun

open Cert.ReferenceIdeal Cert.ReferenceIdeal.Gen Idealize.ShloMosaic Idealize.ShloMosaic.TcCoe Idealize.SL.Sem Idealize.ShloMosaic.StableHlo

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

variable {F : FTy → Type} [FloatOps F]

/-- Piece 0: the prelude (operations 0 to 14). -/
abbrev p0 : List (HloOp τ sig (Elt F)) :=
  [ nullary main_v0 (iotaInDim S512x512 32 0),
    nullary main_v1 (iotaInDim S512x512 32 1),
    nullary main_c (constantI S_ 32 0#32),
    unary main_c main_v2 (broadcastInDim S512x512 ![] bcast_S_S512x512 : (⟨S_, .i32⟩ : BufTy).Contents (Elt F) → (⟨S512x512, .i32⟩ : BufTy).Contents (Elt F)),
    binary main_v0 main_v2 main_v3 (addi : (⟨S512x512, .i32⟩ : BufTy).Contents (Elt F) → (⟨S512x512, .i32⟩ : BufTy).Contents (Elt F) → (⟨S512x512, .i32⟩ : BufTy).Contents (Elt F)),
    binary main_v3 main_v1 main_v4 (cmpi .eq : (⟨S512x512, .i32⟩ : BufTy).Contents (Elt F) → (⟨S512x512, .i32⟩ : BufTy).Contents (Elt F) → (⟨S512x512, .i1⟩ : BufTy).Contents (Elt F)),
    unary main_v4 main_v5 (uitofp .f32 : (⟨S512x512, .i1⟩ : BufTy).Contents (Elt F) → (⟨S512x512, .f32⟩ : BufTy).Contents (Elt F)),
    unary main_v5 main_v6 (broadcastInDim S1x512x512 ![1, 2] bcast_S512x512_S1x512x512_1_2 : (⟨S512x512, .f32⟩ : BufTy).Contents (Elt F) → (⟨S1x512x512, .f32⟩ : BufTy).Contents (Elt F)),
    nullary main_cst (constant S_ .f32 0x00000000#32),
    unary main_cst main_v7 (broadcastInDim S1x512x512 ![] bcast_S_S1x512x512 : (⟨S_, .f32⟩ : BufTy).Contents (Elt F) → (⟨S1x512x512, .f32⟩ : BufTy).Contents (Elt F)),
    binary main_v6 main_v7 main_v8 (cmpf .ogt : (⟨S1x512x512, .f32⟩ : BufTy).Contents (Elt F) → (⟨S1x512x512, .f32⟩ : BufTy).Contents (Elt F) → (⟨S1x512x512, .i1⟩ : BufTy).Contents (Elt F)),
    nullary main_cst_0 (constant S_ .f32 0x3F800000#32),
    TRef.unary (TRef.of (T := ⟨S1x512x512, .i1⟩) main_v8) (TRef.of (T := ⟨S64x512x512, .i1⟩) main_call0_v0) (broadcastInDim S64x512x512 ![0, 1, 2] bcast_S1x512x512_S64x512x512_0_1_2),
    TRef.unary (TRef.of (T := ⟨S_, .f32⟩) main_cst_0) (TRef.of (T := ⟨S64x512x512, .f32⟩) main_call0_v1) (broadcastInDim S64x512x512 ![] bcast_S_S64x512x512),
    TRef.ternary (TRef.of (T := ⟨S64x512x512, .i1⟩) main_call0_v0) (TRef.of (T := ⟨S64x512x512, .f32⟩) main_call0_v1) (TRef.of (T := ⟨S64x512x512, .f32⟩) main_arg1) (TRef.of (T := ⟨S64x512x512, .f32⟩) main_v9) select ]

/-- The references piece 0 writes, in order. -/
abbrev wr0 : List (Ref sig .tc) :=
  [main_v0, main_v1, main_c, main_v2, main_v3, main_v4, main_v5, main_v6, main_cst, main_v7, main_v8, main_cst_0, main_call0_v0, main_call0_v1, main_v9]

/-- Piece 1: layer 0 (operations 15 to 67). -/
abbrev p1 : List (HloOp τ sig (Elt F)) :=
  [ unary main_arg2 main_v10 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v10 main_v11 rfl shapeCasts_S1x256x256_S256x256,
    binary main_arg0 main_v11 main_v12 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v13 ((extractStridedSlice S1x256 ![0, 0] · slices_S4x256_S1x256_0_0) : (⟨S4x256, .f32⟩ : BufTy).Contents (Elt F) → (⟨S1x256, .f32⟩ : BufTy).Contents (Elt F)),
    reshape main_v13 main_v14 rfl shapeCasts_S1x256_S256,
    unary main_v14 main_v15 (broadcastInDim S1x1x256 ![2] bcast_S256_S1x1x256_2 : (⟨S256, .f32⟩ : BufTy).Contents (Elt F) → (⟨S1x1x256, .f32⟩ : BufTy).Contents (Elt F)),
    unary main_v15 main_v16 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v12 main_v16 main_v17 (addf : (⟨S64x512x256, .f32⟩ : BufTy).Contents (Elt F) → (⟨S64x512x256, .f32⟩ : BufTy).Contents (Elt F) → (⟨S64x512x256, .f32⟩ : BufTy).Contents (Elt F)),
    binary main_v17 main_arg0 main_v18 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v18 main_v19 (Host.negf : (⟨S64x512x512, .f32⟩ : BufTy).Contents (Elt F) → (⟨S64x512x512, .f32⟩ : BufTy).Contents (Elt F)),
    unary main_v19 main_v20 (Host.exp : (⟨S64x512x512, .f32⟩ : BufTy).Contents (Elt F) → (⟨S64x512x512, .f32⟩ : BufTy).Contents (Elt F)),
    nullary main_cst_1 (constant S_ .f32 0x3F800000#32),
    unary main_cst_1 main_v21 (broadcastInDim S64x512x512 ![] bcast_S_S64x512x512 : (⟨S_, .f32⟩ : BufTy).Contents (Elt F) → (⟨S64x512x512, .f32⟩ : BufTy).Contents (Elt F)),
    binary main_v21 main_v20 main_v22 (addf : (⟨S64x512x512, .f32⟩ : BufTy).Contents (Elt F) → (⟨S64x512x512, .f32⟩ : BufTy).Contents (Elt F) → (⟨S64x512x512, .f32⟩ : BufTy).Contents (Elt F)),
    nullary main_cst_2 (constant S_ .f32 0x3F800000#32),
    unary main_cst_2 main_v23 (broadcastInDim S64x512x512 ![] bcast_S_S64x512x512 : (⟨S_, .f32⟩ : BufTy).Contents (Elt F) → (⟨S64x512x512, .f32⟩ : BufTy).Contents (Elt F)),
    binary main_v23 main_v22 main_v24 (Host.divf : (⟨S64x512x512, .f32⟩ : BufTy).Contents (Elt F) → (⟨S64x512x512, .f32⟩ : BufTy).Contents (Elt F) → (⟨S64x512x512, .f32⟩ : BufTy).Contents (Elt F)),
    nullary main_cst_3 (constant S_ .f32 0x3727C5AC#32),
    unary main_cst_3 main_v25 (broadcastInDim S512x512 ![] bcast_S_S512x512 : (⟨S_, .f32⟩ : BufTy).Contents (Elt F) → (⟨S512x512, .f32⟩ : BufTy).Contents (Elt F)),
    binary main_v25 main_v5 main_v26 (mulf : (⟨S512x512, .f32⟩ : BufTy).Contents (Elt F) → (⟨S512x512, .f32⟩ : BufTy).Contents (Elt F) → (⟨S512x512, .f32⟩ : BufTy).Contents (Elt F)),
    unary main_v26 main_v27 (broadcastInDim S1x512x512 ![1, 2] bcast_S512x512_S1x512x512_1_2 : (⟨S512x512, .f32⟩ : BufTy).Contents (Elt F) → (⟨S1x512x512, .f32⟩ : BufTy).Contents (Elt F)),
    unary main_v27 main_v28 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v24 main_v28 main_v29 (addf : (⟨S64x512x512, .f32⟩ : BufTy).Contents (Elt F) → (⟨S64x512x512, .f32⟩ : BufTy).Contents (Elt F) → (⟨S64x512x512, .f32⟩ : BufTy).Contents (Elt F)),
    binary main_v29 main_v9 main_v30 (mulf : (⟨S64x512x512, .f32⟩ : BufTy).Contents (Elt F) → (⟨S64x512x512, .f32⟩ : BufTy).Contents (Elt F) → (⟨S64x512x512, .f32⟩ : BufTy).Contents (Elt F)),
    nullary main_cst_4 (constant S_ .f32 0x00000000#32),
    binary main_v30 main_cst_4 main_v31 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v31 main_v32 (broadcastInDim S64x512x1 ![0, 1] bcast_S64x512_S64x512x1_0_1 : (⟨S64x512, .f32⟩ : BufTy).Contents (Elt F) → (⟨S64x512x1, .f32⟩ : BufTy).Contents (Elt F)),
    unary main_v32 main_v33 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v30 main_v33 main_v34 (Host.divf : (⟨S64x512x512, .f32⟩ : BufTy).Contents (Elt F) → (⟨S64x512x512, .f32⟩ : BufTy).Contents (Elt F) → (⟨S64x512x512, .f32⟩ : BufTy).Contents (Elt F)),
    binary main_v34 main_arg0 main_v35 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v36 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v36 main_v37 rfl shapeCasts_S1x256x256_S256x256,
    binary main_v35 main_v37 main_v38 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v39 ((extractStridedSlice S1x256 ![0, 0] · slices_S4x256_S1x256_0_0) : (⟨S4x256, .f32⟩ : BufTy).Contents (Elt F) → (⟨S1x256, .f32⟩ : BufTy).Contents (Elt F)),
    reshape main_v39 main_v40 rfl shapeCasts_S1x256_S256,
    unary main_v40 main_v41 (broadcastInDim S1x1x256 ![2] bcast_S256_S1x1x256_2 : (⟨S256, .f32⟩ : BufTy).Contents (Elt F) → (⟨S1x1x256, .f32⟩ : BufTy).Contents (Elt F)),
    unary main_v41 main_v42 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v38 main_v42 main_v43 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S64x512x256, .f32⟩) main_call1_v0) (broadcastInDim S64x512x256 ![] bcast_S_S64x512x256),
    TRef.binary (TRef.of (T := ⟨S64x512x256, .f32⟩) main_v43) (TRef.of (T := ⟨S64x512x256, .f32⟩) main_call1_v0) (TRef.of (T := ⟨S64x512x256, .f32⟩) main_v44) maximumf,
    unary main_arg6 main_v45 ((extractStridedSlice S1x256x256 ![0, 0, 0] · slices_S4x256x256_S1x256x256_0_0_0) : (⟨S4x256x256, .f32⟩ : BufTy).Contents (Elt F) → (⟨S1x256x256, .f32⟩ : BufTy).Contents (Elt F)),
    reshape main_v45 main_v46 rfl shapeCasts_S1x256x256_S256x256,
    binary main_v44 main_v46 main_v47 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v48 ((extractStridedSlice S1x256 ![0, 0] · slices_S4x256_S1x256_0_0) : (⟨S4x256, .f32⟩ : BufTy).Contents (Elt F) → (⟨S1x256, .f32⟩ : BufTy).Contents (Elt F)),
    reshape main_v48 main_v49 rfl shapeCasts_S1x256_S256,
    unary main_v49 main_v50 (broadcastInDim S1x1x256 ![2] bcast_S256_S1x1x256_2 : (⟨S256, .f32⟩ : BufTy).Contents (Elt F) → (⟨S1x1x256, .f32⟩ : BufTy).Contents (Elt F)),
    unary main_v50 main_v51 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v47 main_v51 main_v52 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S64x512x256, .f32⟩) main_call2_v0) (broadcastInDim S64x512x256 ![] bcast_S_S64x512x256),
    TRef.binary (TRef.of (T := ⟨S64x512x256, .f32⟩) main_v52) (TRef.of (T := ⟨S64x512x256, .f32⟩) main_call2_v0) (TRef.of (T := ⟨S64x512x256, .f32⟩) main_v53) maximumf,
    binary main_v53 main_arg0 main_v54 (addf : (⟨S64x512x256, .f32⟩ : BufTy).Contents (Elt F) → (⟨S64x512x256, .f32⟩ : BufTy).Contents (Elt F) → (⟨S64x512x256, .f32⟩ : BufTy).Contents (Elt F)) ]

/-- The references piece 1 writes, in order. -/
abbrev wr1 : List (Ref sig .tc) :=
  [main_v10, main_v11, main_v12, main_v13, main_v14, main_v15, main_v16, main_v17, main_v18, main_v19, main_v20, main_cst_1, main_v21, main_v22, main_cst_2, main_v23, main_v24, main_cst_3, main_v25, main_v26, main_v27, main_v28, main_v29, main_v30, main_cst_4, main_v31, main_v32, main_v33, main_v34, main_v35, main_v36, main_v37, main_v38, main_v39, main_v40, main_v41, main_v42, main_v43, main_call1_cst, main_call1_v0, main_v44, main_v45, main_v46, main_v47, main_v48, main_v49, main_v50, main_v51, main_v52, main_call2_cst, main_call2_v0, main_v53, main_v54]

/-- Piece 2: layer 1 (operations 68 to 120). -/
abbrev p2 : List (HloOp τ sig (Elt F)) :=
  [ unary main_arg2 main_v55 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v55 main_v56 rfl shapeCasts_S1x256x256_S256x256,
    binary main_v54 main_v56 main_v57 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v58 ((extractStridedSlice S1x256 ![1, 0] · slices_S4x256_S1x256_1_0) : (⟨S4x256, .f32⟩ : BufTy).Contents (Elt F) → (⟨S1x256, .f32⟩ : BufTy).Contents (Elt F)),
    reshape main_v58 main_v59 rfl shapeCasts_S1x256_S256,
    unary main_v59 main_v60 (broadcastInDim S1x1x256 ![2] bcast_S256_S1x1x256_2 : (⟨S256, .f32⟩ : BufTy).Contents (Elt F) → (⟨S1x1x256, .f32⟩ : BufTy).Contents (Elt F)),
    unary main_v60 main_v61 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v57 main_v61 main_v62 (addf : (⟨S64x512x256, .f32⟩ : BufTy).Contents (Elt F) → (⟨S64x512x256, .f32⟩ : BufTy).Contents (Elt F) → (⟨S64x512x256, .f32⟩ : BufTy).Contents (Elt F)),
    binary main_v62 main_v54 main_v63 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v63 main_v64 (Host.negf : (⟨S64x512x512, .f32⟩ : BufTy).Contents (Elt F) → (⟨S64x512x512, .f32⟩ : BufTy).Contents (Elt F)),
    unary main_v64 main_v65 (Host.exp : (⟨S64x512x512, .f32⟩ : BufTy).Contents (Elt F) → (⟨S64x512x512, .f32⟩ : BufTy).Contents (Elt F)),
    nullary main_cst_5 (constant S_ .f32 0x3F800000#32),
    unary main_cst_5 main_v66 (broadcastInDim S64x512x512 ![] bcast_S_S64x512x512 : (⟨S_, .f32⟩ : BufTy).Contents (Elt F) → (⟨S64x512x512, .f32⟩ : BufTy).Contents (Elt F)),
    binary main_v66 main_v65 main_v67 (addf : (⟨S64x512x512, .f32⟩ : BufTy).Contents (Elt F) → (⟨S64x512x512, .f32⟩ : BufTy).Contents (Elt F) → (⟨S64x512x512, .f32⟩ : BufTy).Contents (Elt F)),
    nullary main_cst_6 (constant S_ .f32 0x3F800000#32),
    unary main_cst_6 main_v68 (broadcastInDim S64x512x512 ![] bcast_S_S64x512x512 : (⟨S_, .f32⟩ : BufTy).Contents (Elt F) → (⟨S64x512x512, .f32⟩ : BufTy).Contents (Elt F)),
    binary main_v68 main_v67 main_v69 (Host.divf : (⟨S64x512x512, .f32⟩ : BufTy).Contents (Elt F) → (⟨S64x512x512, .f32⟩ : BufTy).Contents (Elt F) → (⟨S64x512x512, .f32⟩ : BufTy).Contents (Elt F)),
    nullary main_cst_7 (constant S_ .f32 0x3727C5AC#32),
    unary main_cst_7 main_v70 (broadcastInDim S512x512 ![] bcast_S_S512x512 : (⟨S_, .f32⟩ : BufTy).Contents (Elt F) → (⟨S512x512, .f32⟩ : BufTy).Contents (Elt F)),
    binary main_v70 main_v5 main_v71 (mulf : (⟨S512x512, .f32⟩ : BufTy).Contents (Elt F) → (⟨S512x512, .f32⟩ : BufTy).Contents (Elt F) → (⟨S512x512, .f32⟩ : BufTy).Contents (Elt F)),
    unary main_v71 main_v72 (broadcastInDim S1x512x512 ![1, 2] bcast_S512x512_S1x512x512_1_2 : (⟨S512x512, .f32⟩ : BufTy).Contents (Elt F) → (⟨S1x512x512, .f32⟩ : BufTy).Contents (Elt F)),
    unary main_v72 main_v73 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v69 main_v73 main_v74 (addf : (⟨S64x512x512, .f32⟩ : BufTy).Contents (Elt F) → (⟨S64x512x512, .f32⟩ : BufTy).Contents (Elt F) → (⟨S64x512x512, .f32⟩ : BufTy).Contents (Elt F)),
    binary main_v74 main_v9 main_v75 (mulf : (⟨S64x512x512, .f32⟩ : BufTy).Contents (Elt F) → (⟨S64x512x512, .f32⟩ : BufTy).Contents (Elt F) → (⟨S64x512x512, .f32⟩ : BufTy).Contents (Elt F)),
    nullary main_cst_8 (constant S_ .f32 0x00000000#32),
    binary main_v75 main_cst_8 main_v76 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v76 main_v77 (broadcastInDim S64x512x1 ![0, 1] bcast_S64x512_S64x512x1_0_1 : (⟨S64x512, .f32⟩ : BufTy).Contents (Elt F) → (⟨S64x512x1, .f32⟩ : BufTy).Contents (Elt F)),
    unary main_v77 main_v78 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v75 main_v78 main_v79 (Host.divf : (⟨S64x512x512, .f32⟩ : BufTy).Contents (Elt F) → (⟨S64x512x512, .f32⟩ : BufTy).Contents (Elt F) → (⟨S64x512x512, .f32⟩ : BufTy).Contents (Elt F)),
    binary main_v79 main_v54 main_v80 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v81 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v81 main_v82 rfl shapeCasts_S1x256x256_S256x256,
    binary main_v80 main_v82 main_v83 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v84 ((extractStridedSlice S1x256 ![1, 0] · slices_S4x256_S1x256_1_0) : (⟨S4x256, .f32⟩ : BufTy).Contents (Elt F) → (⟨S1x256, .f32⟩ : BufTy).Contents (Elt F)),
    reshape main_v84 main_v85 rfl shapeCasts_S1x256_S256,
    unary main_v85 main_v86 (broadcastInDim S1x1x256 ![2] bcast_S256_S1x1x256_2 : (⟨S256, .f32⟩ : BufTy).Contents (Elt F) → (⟨S1x1x256, .f32⟩ : BufTy).Contents (Elt F)),
    unary main_v86 main_v87 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v83 main_v87 main_v88 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x512x256, .f32⟩) main_call3_v0) (broadcastInDim S64x512x256 ![] bcast_S_S64x512x256),
    TRef.binary (TRef.of (T := ⟨S64x512x256, .f32⟩) main_v88) (TRef.of (T := ⟨S64x512x256, .f32⟩) main_call3_v0) (TRef.of (T := ⟨S64x512x256, .f32⟩) main_v89) maximumf,
    unary main_arg6 main_v90 ((extractStridedSlice S1x256x256 ![1, 0, 0] · slices_S4x256x256_S1x256x256_1_0_0) : (⟨S4x256x256, .f32⟩ : BufTy).Contents (Elt F) → (⟨S1x256x256, .f32⟩ : BufTy).Contents (Elt F)),
    reshape main_v90 main_v91 rfl shapeCasts_S1x256x256_S256x256,
    binary main_v89 main_v91 main_v92 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v93 ((extractStridedSlice S1x256 ![1, 0] · slices_S4x256_S1x256_1_0) : (⟨S4x256, .f32⟩ : BufTy).Contents (Elt F) → (⟨S1x256, .f32⟩ : BufTy).Contents (Elt F)),
    reshape main_v93 main_v94 rfl shapeCasts_S1x256_S256,
    unary main_v94 main_v95 (broadcastInDim S1x1x256 ![2] bcast_S256_S1x1x256_2 : (⟨S256, .f32⟩ : BufTy).Contents (Elt F) → (⟨S1x1x256, .f32⟩ : BufTy).Contents (Elt F)),
    unary main_v95 main_v96 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v92 main_v96 main_v97 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S64x512x256, .f32⟩) main_call4_v0) (broadcastInDim S64x512x256 ![] bcast_S_S64x512x256),
    TRef.binary (TRef.of (T := ⟨S64x512x256, .f32⟩) main_v97) (TRef.of (T := ⟨S64x512x256, .f32⟩) main_call4_v0) (TRef.of (T := ⟨S64x512x256, .f32⟩) main_v98) maximumf,
    binary main_v98 main_v54 main_v99 (addf : (⟨S64x512x256, .f32⟩ : BufTy).Contents (Elt F) → (⟨S64x512x256, .f32⟩ : BufTy).Contents (Elt F) → (⟨S64x512x256, .f32⟩ : BufTy).Contents (Elt F)) ]

/-- The references piece 2 writes, in order. -/
abbrev wr2 : List (Ref sig .tc) :=
  [main_v55, main_v56, main_v57, main_v58, main_v59, main_v60, main_v61, main_v62, main_v63, main_v64, main_v65, main_cst_5, main_v66, main_v67, main_cst_6, main_v68, main_v69, main_cst_7, main_v70, main_v71, main_v72, main_v73, main_v74, main_v75, main_cst_8, main_v76, main_v77, main_v78, main_v79, main_v80, main_v81, main_v82, main_v83, main_v84, main_v85, main_v86, main_v87, main_v88, main_call3_cst, main_call3_v0, main_v89, main_v90, main_v91, main_v92, main_v93, main_v94, main_v95, main_v96, main_v97, main_call4_cst, main_call4_v0, main_v98, main_v99]

/-- Piece 3: layer 2 (operations 121 to 173). -/
abbrev p3 : List (HloOp τ sig (Elt F)) :=
  [ unary main_arg2 main_v100 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v100 main_v101 rfl shapeCasts_S1x256x256_S256x256,
    binary main_v99 main_v101 main_v102 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v103 ((extractStridedSlice S1x256 ![2, 0] · slices_S4x256_S1x256_2_0) : (⟨S4x256, .f32⟩ : BufTy).Contents (Elt F) → (⟨S1x256, .f32⟩ : BufTy).Contents (Elt F)),
    reshape main_v103 main_v104 rfl shapeCasts_S1x256_S256,
    unary main_v104 main_v105 (broadcastInDim S1x1x256 ![2] bcast_S256_S1x1x256_2 : (⟨S256, .f32⟩ : BufTy).Contents (Elt F) → (⟨S1x1x256, .f32⟩ : BufTy).Contents (Elt F)),
    unary main_v105 main_v106 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v102 main_v106 main_v107 (addf : (⟨S64x512x256, .f32⟩ : BufTy).Contents (Elt F) → (⟨S64x512x256, .f32⟩ : BufTy).Contents (Elt F) → (⟨S64x512x256, .f32⟩ : BufTy).Contents (Elt F)),
    binary main_v107 main_v99 main_v108 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v108 main_v109 (Host.negf : (⟨S64x512x512, .f32⟩ : BufTy).Contents (Elt F) → (⟨S64x512x512, .f32⟩ : BufTy).Contents (Elt F)),
    unary main_v109 main_v110 (Host.exp : (⟨S64x512x512, .f32⟩ : BufTy).Contents (Elt F) → (⟨S64x512x512, .f32⟩ : BufTy).Contents (Elt F)),
    nullary main_cst_9 (constant S_ .f32 0x3F800000#32),
    unary main_cst_9 main_v111 (broadcastInDim S64x512x512 ![] bcast_S_S64x512x512 : (⟨S_, .f32⟩ : BufTy).Contents (Elt F) → (⟨S64x512x512, .f32⟩ : BufTy).Contents (Elt F)),
    binary main_v111 main_v110 main_v112 (addf : (⟨S64x512x512, .f32⟩ : BufTy).Contents (Elt F) → (⟨S64x512x512, .f32⟩ : BufTy).Contents (Elt F) → (⟨S64x512x512, .f32⟩ : BufTy).Contents (Elt F)),
    nullary main_cst_10 (constant S_ .f32 0x3F800000#32),
    unary main_cst_10 main_v113 (broadcastInDim S64x512x512 ![] bcast_S_S64x512x512 : (⟨S_, .f32⟩ : BufTy).Contents (Elt F) → (⟨S64x512x512, .f32⟩ : BufTy).Contents (Elt F)),
    binary main_v113 main_v112 main_v114 (Host.divf : (⟨S64x512x512, .f32⟩ : BufTy).Contents (Elt F) → (⟨S64x512x512, .f32⟩ : BufTy).Contents (Elt F) → (⟨S64x512x512, .f32⟩ : BufTy).Contents (Elt F)),
    nullary main_cst_11 (constant S_ .f32 0x3727C5AC#32),
    unary main_cst_11 main_v115 (broadcastInDim S512x512 ![] bcast_S_S512x512 : (⟨S_, .f32⟩ : BufTy).Contents (Elt F) → (⟨S512x512, .f32⟩ : BufTy).Contents (Elt F)),
    binary main_v115 main_v5 main_v116 (mulf : (⟨S512x512, .f32⟩ : BufTy).Contents (Elt F) → (⟨S512x512, .f32⟩ : BufTy).Contents (Elt F) → (⟨S512x512, .f32⟩ : BufTy).Contents (Elt F)),
    unary main_v116 main_v117 (broadcastInDim S1x512x512 ![1, 2] bcast_S512x512_S1x512x512_1_2 : (⟨S512x512, .f32⟩ : BufTy).Contents (Elt F) → (⟨S1x512x512, .f32⟩ : BufTy).Contents (Elt F)),
    unary main_v117 main_v118 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v114 main_v118 main_v119 (addf : (⟨S64x512x512, .f32⟩ : BufTy).Contents (Elt F) → (⟨S64x512x512, .f32⟩ : BufTy).Contents (Elt F) → (⟨S64x512x512, .f32⟩ : BufTy).Contents (Elt F)),
    binary main_v119 main_v9 main_v120 (mulf : (⟨S64x512x512, .f32⟩ : BufTy).Contents (Elt F) → (⟨S64x512x512, .f32⟩ : BufTy).Contents (Elt F) → (⟨S64x512x512, .f32⟩ : BufTy).Contents (Elt F)),
    nullary main_cst_12 (constant S_ .f32 0x00000000#32),
    binary main_v120 main_cst_12 main_v121 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v121 main_v122 (broadcastInDim S64x512x1 ![0, 1] bcast_S64x512_S64x512x1_0_1 : (⟨S64x512, .f32⟩ : BufTy).Contents (Elt F) → (⟨S64x512x1, .f32⟩ : BufTy).Contents (Elt F)),
    unary main_v122 main_v123 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v120 main_v123 main_v124 (Host.divf : (⟨S64x512x512, .f32⟩ : BufTy).Contents (Elt F) → (⟨S64x512x512, .f32⟩ : BufTy).Contents (Elt F) → (⟨S64x512x512, .f32⟩ : BufTy).Contents (Elt F)),
    binary main_v124 main_v99 main_v125 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v126 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v126 main_v127 rfl shapeCasts_S1x256x256_S256x256,
    binary main_v125 main_v127 main_v128 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v129 ((extractStridedSlice S1x256 ![2, 0] · slices_S4x256_S1x256_2_0) : (⟨S4x256, .f32⟩ : BufTy).Contents (Elt F) → (⟨S1x256, .f32⟩ : BufTy).Contents (Elt F)),
    reshape main_v129 main_v130 rfl shapeCasts_S1x256_S256,
    unary main_v130 main_v131 (broadcastInDim S1x1x256 ![2] bcast_S256_S1x1x256_2 : (⟨S256, .f32⟩ : BufTy).Contents (Elt F) → (⟨S1x1x256, .f32⟩ : BufTy).Contents (Elt F)),
    unary main_v131 main_v132 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v128 main_v132 main_v133 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S64x512x256, .f32⟩) main_call5_v0) (broadcastInDim S64x512x256 ![] bcast_S_S64x512x256),
    TRef.binary (TRef.of (T := ⟨S64x512x256, .f32⟩) main_v133) (TRef.of (T := ⟨S64x512x256, .f32⟩) main_call5_v0) (TRef.of (T := ⟨S64x512x256, .f32⟩) main_v134) maximumf,
    unary main_arg6 main_v135 ((extractStridedSlice S1x256x256 ![2, 0, 0] · slices_S4x256x256_S1x256x256_2_0_0) : (⟨S4x256x256, .f32⟩ : BufTy).Contents (Elt F) → (⟨S1x256x256, .f32⟩ : BufTy).Contents (Elt F)),
    reshape main_v135 main_v136 rfl shapeCasts_S1x256x256_S256x256,
    binary main_v134 main_v136 main_v137 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v138 ((extractStridedSlice S1x256 ![2, 0] · slices_S4x256_S1x256_2_0) : (⟨S4x256, .f32⟩ : BufTy).Contents (Elt F) → (⟨S1x256, .f32⟩ : BufTy).Contents (Elt F)),
    reshape main_v138 main_v139 rfl shapeCasts_S1x256_S256,
    unary main_v139 main_v140 (broadcastInDim S1x1x256 ![2] bcast_S256_S1x1x256_2 : (⟨S256, .f32⟩ : BufTy).Contents (Elt F) → (⟨S1x1x256, .f32⟩ : BufTy).Contents (Elt F)),
    unary main_v140 main_v141 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v137 main_v141 main_v142 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S64x512x256, .f32⟩) main_call6_v0) (broadcastInDim S64x512x256 ![] bcast_S_S64x512x256),
    TRef.binary (TRef.of (T := ⟨S64x512x256, .f32⟩) main_v142) (TRef.of (T := ⟨S64x512x256, .f32⟩) main_call6_v0) (TRef.of (T := ⟨S64x512x256, .f32⟩) main_v143) maximumf,
    binary main_v143 main_v99 main_v144 (addf : (⟨S64x512x256, .f32⟩ : BufTy).Contents (Elt F) → (⟨S64x512x256, .f32⟩ : BufTy).Contents (Elt F) → (⟨S64x512x256, .f32⟩ : BufTy).Contents (Elt F)) ]

/-- The references piece 3 writes, in order. -/
abbrev wr3 : List (Ref sig .tc) :=
  [main_v100, main_v101, main_v102, main_v103, main_v104, main_v105, main_v106, main_v107, main_v108, main_v109, main_v110, main_cst_9, main_v111, main_v112, main_cst_10, main_v113, main_v114, main_cst_11, main_v115, main_v116, main_v117, main_v118, main_v119, main_v120, main_cst_12, main_v121, main_v122, main_v123, main_v124, main_v125, main_v126, main_v127, main_v128, main_v129, main_v130, main_v131, main_v132, main_v133, main_call5_cst, main_call5_v0, main_v134, main_v135, main_v136, main_v137, main_v138, main_v139, main_v140, main_v141, main_v142, main_call6_cst, main_call6_v0, main_v143, main_v144]

/-- Piece 4: layer 3 (operations 174 to 226). -/
abbrev p4 : List (HloOp τ sig (Elt F)) :=
  [ unary main_arg2 main_v145 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v145 main_v146 rfl shapeCasts_S1x256x256_S256x256,
    binary main_v144 main_v146 main_v147 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg3 main_v148 ((extractStridedSlice S1x256 ![3, 0] · slices_S4x256_S1x256_3_0) : (⟨S4x256, .f32⟩ : BufTy).Contents (Elt F) → (⟨S1x256, .f32⟩ : BufTy).Contents (Elt F)),
    reshape main_v148 main_v149 rfl shapeCasts_S1x256_S256,
    unary main_v149 main_v150 (broadcastInDim S1x1x256 ![2] bcast_S256_S1x1x256_2 : (⟨S256, .f32⟩ : BufTy).Contents (Elt F) → (⟨S1x1x256, .f32⟩ : BufTy).Contents (Elt F)),
    unary main_v150 main_v151 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v147 main_v151 main_v152 (addf : (⟨S64x512x256, .f32⟩ : BufTy).Contents (Elt F) → (⟨S64x512x256, .f32⟩ : BufTy).Contents (Elt F) → (⟨S64x512x256, .f32⟩ : BufTy).Contents (Elt F)),
    binary main_v152 main_v144 main_v153 ((fun l r => Host.dotGeneral dot_S64x512x256_S64x512x256_S64x512x512_2_2_1_1_0_0 none l r) : (⟨S64x512x256, .f32⟩ : BufTy).Contents (Elt F) → (⟨S64x512x256, .f32⟩ : BufTy).Contents (Elt F) → (⟨S64x512x512, .f32⟩ : BufTy).Contents (Elt F)),
    unary main_v153 main_v154 (Host.negf : (⟨S64x512x512, .f32⟩ : BufTy).Contents (Elt F) → (⟨S64x512x512, .f32⟩ : BufTy).Contents (Elt F)),
    unary main_v154 main_v155 (Host.exp : (⟨S64x512x512, .f32⟩ : BufTy).Contents (Elt F) → (⟨S64x512x512, .f32⟩ : BufTy).Contents (Elt F)),
    nullary main_cst_13 (constant S_ .f32 0x3F800000#32),
    unary main_cst_13 main_v156 (broadcastInDim S64x512x512 ![] bcast_S_S64x512x512 : (⟨S_, .f32⟩ : BufTy).Contents (Elt F) → (⟨S64x512x512, .f32⟩ : BufTy).Contents (Elt F)),
    binary main_v156 main_v155 main_v157 (addf : (⟨S64x512x512, .f32⟩ : BufTy).Contents (Elt F) → (⟨S64x512x512, .f32⟩ : BufTy).Contents (Elt F) → (⟨S64x512x512, .f32⟩ : BufTy).Contents (Elt F)),
    nullary main_cst_14 (constant S_ .f32 0x3F800000#32),
    unary main_cst_14 main_v158 (broadcastInDim S64x512x512 ![] bcast_S_S64x512x512 : (⟨S_, .f32⟩ : BufTy).Contents (Elt F) → (⟨S64x512x512, .f32⟩ : BufTy).Contents (Elt F)),
    binary main_v158 main_v157 main_v159 (Host.divf : (⟨S64x512x512, .f32⟩ : BufTy).Contents (Elt F) → (⟨S64x512x512, .f32⟩ : BufTy).Contents (Elt F) → (⟨S64x512x512, .f32⟩ : BufTy).Contents (Elt F)),
    nullary main_cst_15 (constant S_ .f32 0x3727C5AC#32),
    unary main_cst_15 main_v160 (broadcastInDim S512x512 ![] bcast_S_S512x512 : (⟨S_, .f32⟩ : BufTy).Contents (Elt F) → (⟨S512x512, .f32⟩ : BufTy).Contents (Elt F)),
    binary main_v160 main_v5 main_v161 (mulf : (⟨S512x512, .f32⟩ : BufTy).Contents (Elt F) → (⟨S512x512, .f32⟩ : BufTy).Contents (Elt F) → (⟨S512x512, .f32⟩ : BufTy).Contents (Elt F)),
    unary main_v161 main_v162 (broadcastInDim S1x512x512 ![1, 2] bcast_S512x512_S1x512x512_1_2 : (⟨S512x512, .f32⟩ : BufTy).Contents (Elt F) → (⟨S1x512x512, .f32⟩ : BufTy).Contents (Elt F)),
    unary main_v162 main_v163 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v159 main_v163 main_v164 (addf : (⟨S64x512x512, .f32⟩ : BufTy).Contents (Elt F) → (⟨S64x512x512, .f32⟩ : BufTy).Contents (Elt F) → (⟨S64x512x512, .f32⟩ : BufTy).Contents (Elt F)),
    binary main_v164 main_v9 main_v165 (mulf : (⟨S64x512x512, .f32⟩ : BufTy).Contents (Elt F) → (⟨S64x512x512, .f32⟩ : BufTy).Contents (Elt F) → (⟨S64x512x512, .f32⟩ : BufTy).Contents (Elt F)),
    nullary main_cst_16 (constant S_ .f32 0x00000000#32),
    binary main_v165 main_cst_16 main_v166 ((fun x v => Host.reduceAdd x v reducesTo_S64x512x512_S64x512_d2 h_S_) : (⟨S64x512x512, .f32⟩ : BufTy).Contents (Elt F) → (⟨S_, .f32⟩ : BufTy).Contents (Elt F) → (⟨S64x512, .f32⟩ : BufTy).Contents (Elt F)),
    unary main_v166 main_v167 (broadcastInDim S64x512x1 ![0, 1] bcast_S64x512_S64x512x1_0_1 : (⟨S64x512, .f32⟩ : BufTy).Contents (Elt F) → (⟨S64x512x1, .f32⟩ : BufTy).Contents (Elt F)),
    unary main_v167 main_v168 (broadcastInDim S64x512x512 ![0, 1, 2] bcast_S64x512x1_S64x512x512_0_1_2 : (⟨S64x512x1, .f32⟩ : BufTy).Contents (Elt F) → (⟨S64x512x512, .f32⟩ : BufTy).Contents (Elt F)),
    binary main_v165 main_v168 main_v169 (Host.divf : (⟨S64x512x512, .f32⟩ : BufTy).Contents (Elt F) → (⟨S64x512x512, .f32⟩ : BufTy).Contents (Elt F) → (⟨S64x512x512, .f32⟩ : BufTy).Contents (Elt F)),
    binary main_v169 main_v144 main_v170 ((fun l r => Host.dotGeneral dot_S64x512x512_S64x512x256_S64x512x256_2_1_1_2_0_0 none l r) : (⟨S64x512x512, .f32⟩ : BufTy).Contents (Elt F) → (⟨S64x512x256, .f32⟩ : BufTy).Contents (Elt F) → (⟨S64x512x256, .f32⟩ : BufTy).Contents (Elt F)),
    unary main_arg4 main_v171 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v171 main_v172 rfl shapeCasts_S1x256x256_S256x256,
    binary main_v170 main_v172 main_v173 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg5 main_v174 ((extractStridedSlice S1x256 ![3, 0] · slices_S4x256_S1x256_3_0) : (⟨S4x256, .f32⟩ : BufTy).Contents (Elt F) → (⟨S1x256, .f32⟩ : BufTy).Contents (Elt F)),
    reshape main_v174 main_v175 rfl shapeCasts_S1x256_S256,
    unary main_v175 main_v176 (broadcastInDim S1x1x256 ![2] bcast_S256_S1x1x256_2 : (⟨S256, .f32⟩ : BufTy).Contents (Elt F) → (⟨S1x1x256, .f32⟩ : BufTy).Contents (Elt F)),
    unary main_v176 main_v177 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v173 main_v177 main_v178 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S64x512x256, .f32⟩) main_call7_v0) (broadcastInDim S64x512x256 ![] bcast_S_S64x512x256),
    TRef.binary (TRef.of (T := ⟨S64x512x256, .f32⟩) main_v178) (TRef.of (T := ⟨S64x512x256, .f32⟩) main_call7_v0) (TRef.of (T := ⟨S64x512x256, .f32⟩) main_v179) maximumf,
    unary main_arg6 main_v180 ((extractStridedSlice S1x256x256 ![3, 0, 0] · slices_S4x256x256_S1x256x256_3_0_0) : (⟨S4x256x256, .f32⟩ : BufTy).Contents (Elt F) → (⟨S1x256x256, .f32⟩ : BufTy).Contents (Elt F)),
    reshape main_v180 main_v181 rfl shapeCasts_S1x256x256_S256x256,
    binary main_v179 main_v181 main_v182 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg7 main_v183 ((extractStridedSlice S1x256 ![3, 0] · slices_S4x256_S1x256_3_0) : (⟨S4x256, .f32⟩ : BufTy).Contents (Elt F) → (⟨S1x256, .f32⟩ : BufTy).Contents (Elt F)),
    reshape main_v183 main_v184 rfl shapeCasts_S1x256_S256,
    unary main_v184 main_v185 (broadcastInDim S1x1x256 ![2] bcast_S256_S1x1x256_2 : (⟨S256, .f32⟩ : BufTy).Contents (Elt F) → (⟨S1x1x256, .f32⟩ : BufTy).Contents (Elt F)),
    unary main_v185 main_v186 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v182 main_v186 main_v187 (addf : (⟨S64x512x256, .f32⟩ : BufTy).Contents (Elt F) → (⟨S64x512x256, .f32⟩ : BufTy).Contents (Elt F) → (⟨S64x512x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S64x512x256, .f32⟩) main_call8_v0) (broadcastInDim S64x512x256 ![] bcast_S_S64x512x256),
    TRef.binary (TRef.of (T := ⟨S64x512x256, .f32⟩) main_v187) (TRef.of (T := ⟨S64x512x256, .f32⟩) main_call8_v0) (TRef.of (T := ⟨S64x512x256, .f32⟩) main_v188) maximumf,
    binary main_v188 main_v144 main_v189 (addf : (⟨S64x512x256, .f32⟩ : BufTy).Contents (Elt F) → (⟨S64x512x256, .f32⟩ : BufTy).Contents (Elt F) → (⟨S64x512x256, .f32⟩ : BufTy).Contents (Elt F)) ]

/-- The references piece 4 writes, in order. -/
abbrev wr4 : List (Ref sig .tc) :=
  [main_v145, main_v146, main_v147, main_v148, main_v149, main_v150, main_v151, main_v152, main_v153, main_v154, main_v155, main_cst_13, main_v156, main_v157, main_cst_14, main_v158, main_v159, main_cst_15, main_v160, main_v161, main_v162, main_v163, main_v164, main_v165, main_cst_16, main_v166, main_v167, main_v168, main_v169, main_v170, main_v171, main_v172, main_v173, main_v174, main_v175, main_v176, main_v177, main_v178, main_call7_cst, main_call7_v0, main_v179, main_v180, main_v181, main_v182, main_v183, main_v184, main_v185, main_v186, main_v187, main_call8_cst, main_call8_v0, main_v188, main_v189]

/-- Piece 5: the final affine map (operations 227 to 230). -/
abbrev p5 : List (HloOp τ sig (Elt F)) :=
  [ binary main_v189 main_arg8 main_v190 ((fun l r => Host.dotGeneral dot_S64x512x256_S256x256_S64x512x256_2_1_01_0_n_n none l r) : (⟨S64x512x256, .f32⟩ : BufTy).Contents (Elt F) → (⟨S256x256, .f32⟩ : BufTy).Contents (Elt F) → (⟨S64x512x256, .f32⟩ : BufTy).Contents (Elt F)),
    unary main_arg9 main_v191 (broadcastInDim S1x1x256 ![2] bcast_S256_S1x1x256_2 : (⟨S256, .f32⟩ : BufTy).Contents (Elt F) → (⟨S1x1x256, .f32⟩ : BufTy).Contents (Elt F)),
    unary main_v191 main_v192 (broadcastInDim S64x512x256 ![0, 1, 2] bcast_S1x1x256_S64x512x256_0_1_2 : (⟨S1x1x256, .f32⟩ : BufTy).Contents (Elt F) → (⟨S64x512x256, .f32⟩ : BufTy).Contents (Elt F)),
    binary main_v190 main_v192 main_v193 (addf : (⟨S64x512x256, .f32⟩ : BufTy).Contents (Elt F) → (⟨S64x512x256, .f32⟩ : BufTy).Contents (Elt F) → (⟨S64x512x256, .f32⟩ : BufTy).Contents (Elt F)) ]

/-- The references piece 5 writes, in order. -/
abbrev wr5 : List (Ref sig .tc) :=
  [main_v190, main_v191, main_v192, main_v193]

set_option maxRecDepth 8192 in
set_option maxHeartbeats 4000000 in
/-- The operation list is the six pieces in order. -/
theorem ops_split : (OpsP.ops : List (HloOp τ sig (Elt F))) = p0 ++ (p1 ++ (p2 ++ (p3 ++ (p4 ++ p5)))) := rfl

set_option maxRecDepth 8192 in
set_option maxHeartbeats 4000000 in
theorem writes0 : (p0 : List (HloOp τ sig (Elt F))).Forall fun op => op.writes ⊆ ((wr0).map (Proc.devRef (τ := τ) .tc)).toFinset := by
  simp only [List.Forall, nullary_writes, unary_writes, binary_writes, ternary_writes, reshape_writes, Finset.singleton_subset_iff, List.mem_toFinset, List.mem_map]
  repeat' apply And.intro
  all_goals exact ⟨_, by decide, rfl⟩

/-- A reference piece 0 does not write keeps its contents. -/
theorem frame0 (W : Valuation τ sig (Elt F)) {r : Ref sig .tc} (hr : r ∉ wr0) :
    after p0 W (Proc.devRef .tc r) = W (Proc.devRef .tc r) := after_of_writes_sub p0 W writes0 hr

set_option maxRecDepth 8192 in
set_option maxHeartbeats 4000000 in
theorem writes1 : (p1 : List (HloOp τ sig (Elt F))).Forall fun op => op.writes ⊆ ((wr1).map (Proc.devRef (τ := τ) .tc)).toFinset := by
  simp only [List.Forall, nullary_writes, unary_writes, binary_writes, ternary_writes, reshape_writes, Finset.singleton_subset_iff, List.mem_toFinset, List.mem_map]
  repeat' apply And.intro
  all_goals exact ⟨_, by decide, rfl⟩

/-- A reference piece 1 does not write keeps its contents. -/
theorem frame1 (W : Valuation τ sig (Elt F)) {r : Ref sig .tc} (hr : r ∉ wr1) :
    after p1 W (Proc.devRef .tc r) = W (Proc.devRef .tc r) := after_of_writes_sub p1 W writes1 hr

set_option maxRecDepth 8192 in
set_option maxHeartbeats 4000000 in
theorem writes2 : (p2 : List (HloOp τ sig (Elt F))).Forall fun op => op.writes ⊆ ((wr2).map (Proc.devRef (τ := τ) .tc)).toFinset := by
  simp only [List.Forall, nullary_writes, unary_writes, binary_writes, ternary_writes, reshape_writes, Finset.singleton_subset_iff, List.mem_toFinset, List.mem_map]
  repeat' apply And.intro
  all_goals exact ⟨_, by decide, rfl⟩

/-- A reference piece 2 does not write keeps its contents. -/
theorem frame2 (W : Valuation τ sig (Elt F)) {r : Ref sig .tc} (hr : r ∉ wr2) :
    after p2 W (Proc.devRef .tc r) = W (Proc.devRef .tc r) := after_of_writes_sub p2 W writes2 hr

set_option maxRecDepth 8192 in
set_option maxHeartbeats 4000000 in
theorem writes3 : (p3 : List (HloOp τ sig (Elt F))).Forall fun op => op.writes ⊆ ((wr3).map (Proc.devRef (τ := τ) .tc)).toFinset := by
  simp only [List.Forall, nullary_writes, unary_writes, binary_writes, ternary_writes, reshape_writes, Finset.singleton_subset_iff, List.mem_toFinset, List.mem_map]
  repeat' apply And.intro
  all_goals exact ⟨_, by decide, rfl⟩

/-- A reference piece 3 does not write keeps its contents. -/
theorem frame3 (W : Valuation τ sig (Elt F)) {r : Ref sig .tc} (hr : r ∉ wr3) :
    after p3 W (Proc.devRef .tc r) = W (Proc.devRef .tc r) := after_of_writes_sub p3 W writes3 hr

set_option maxRecDepth 8192 in
set_option maxHeartbeats 4000000 in
theorem writes4 : (p4 : List (HloOp τ sig (Elt F))).Forall fun op => op.writes ⊆ ((wr4).map (Proc.devRef (τ := τ) .tc)).toFinset := by
  simp only [List.Forall, nullary_writes, unary_writes, binary_writes, ternary_writes, reshape_writes, Finset.singleton_subset_iff, List.mem_toFinset, List.mem_map]
  repeat' apply And.intro
  all_goals exact ⟨_, by decide, rfl⟩

/-- A reference piece 4 does not write keeps its contents. -/
theorem frame4 (W : Valuation τ sig (Elt F)) {r : Ref sig .tc} (hr : r ∉ wr4) :
    after p4 W (Proc.devRef .tc r) = W (Proc.devRef .tc r) := after_of_writes_sub p4 W writes4 hr

set_option maxRecDepth 8192 in
set_option maxHeartbeats 4000000 in
theorem writes5 : (p5 : List (HloOp τ sig (Elt F))).Forall fun op => op.writes ⊆ ((wr5).map (Proc.devRef (τ := τ) .tc)).toFinset := by
  simp only [List.Forall, nullary_writes, unary_writes, binary_writes, ternary_writes, reshape_writes, Finset.singleton_subset_iff, List.mem_toFinset, List.mem_map]
  repeat' apply And.intro
  all_goals exact ⟨_, by decide, rfl⟩

/-- A reference piece 5 does not write keeps its contents. -/
theorem frame5 (W : Valuation τ sig (Elt F)) {r : Ref sig .tc} (hr : r ∉ wr5) :
    after p5 W (Proc.devRef .tc r) = W (Proc.devRef .tc r) := after_of_writes_sub p5 W writes5 hr

end Cert.Gat.RefRun

end
-- ==== Proof.RefRunBase.lean ====
/-
  What every piece of the reference program leaves unchanged: the ten argument buffers, the identity matrix and the
  adjacency matrix with its diagonal forced to one.  The prelude establishes these facts, every later piece preserves
  them, because it writes none of these references.
-/
import proofs.«156558_j6545530159683_2_alg».proof.Proof.RefRunOps
import proofs.«156558_j6545530159683_2_alg».proof.Proof.ReadP

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

/-- The contents `W` agree with the launch contents `V` on the arguments, and hold the identity matrix and the adjacency
    matrix with its diagonal forced to one, as functions of `V`'s arguments. -/
structure Base (V W : Valuation τ sig (Elt F)) : Prop where
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)
  a9 : W (Proc.devRef .tc main_arg9) = V (Proc.devRef .tc main_arg9)
  v5 : W (Proc.devRef .tc main_v5) = ReadP.val_main_v5 (F := F)
  v9 : W (Proc.devRef .tc main_v9) = ReadP.val_main_v9 (F := F) (V (Proc.devRef .tc main_arg1))

set_option maxRecDepth 8192 in
set_option maxHeartbeats 4000000 in
/-- After the prelude. -/
theorem base0 (V : Valuation τ sig (Elt F)) : Base V (after p0 V) where
  a0 := frame0 V (by decide)
  a1 := frame0 V (by decide)
  a2 := frame0 V (by decide)
  a3 := frame0 V (by decide)
  a4 := frame0 V (by decide)
  a5 := frame0 V (by decide)
  a6 := frame0 V (by decide)
  a7 := frame0 V (by decide)
  a8 := frame0 V (by decide)
  a9 := frame0 V (by decide)
  v5 := by after_results_simp <;> rfl
  v9 := by after_results_simp <;> rfl

/-- Piece 1 preserves them. -/
theorem base1 {V W : Valuation τ sig (Elt F)} (h : Base V W) : Base V (after p1 W) where
  a0 := (frame1 W (by decide)).trans h.a0
  a1 := (frame1 W (by decide)).trans h.a1
  a2 := (frame1 W (by decide)).trans h.a2
  a3 := (frame1 W (by decide)).trans h.a3
  a4 := (frame1 W (by decide)).trans h.a4
  a5 := (frame1 W (by decide)).trans h.a5
  a6 := (frame1 W (by decide)).trans h.a6
  a7 := (frame1 W (by decide)).trans h.a7
  a8 := (frame1 W (by decide)).trans h.a8
  a9 := (frame1 W (by decide)).trans h.a9
  v5 := (frame1 W (by decide)).trans h.v5
  v9 := (frame1 W (by decide)).trans h.v9

/-- Piece 2 preserves them. -/
theorem base2 {V W : Valuation τ sig (Elt F)} (h : Base V W) : Base V (after p2 W) where
  a0 := (frame2 W (by decide)).trans h.a0
  a1 := (frame2 W (by decide)).trans h.a1
  a2 := (frame2 W (by decide)).trans h.a2
  a3 := (frame2 W (by decide)).trans h.a3
  a4 := (frame2 W (by decide)).trans h.a4
  a5 := (frame2 W (by decide)).trans h.a5
  a6 := (frame2 W (by decide)).trans h.a6
  a7 := (frame2 W (by decide)).trans h.a7
  a8 := (frame2 W (by decide)).trans h.a8
  a9 := (frame2 W (by decide)).trans h.a9
  v5 := (frame2 W (by decide)).trans h.v5
  v9 := (frame2 W (by decide)).trans h.v9

/-- Piece 3 preserves them. -/
theorem base3 {V W : Valuation τ sig (Elt F)} (h : Base V W) : Base V (after p3 W) where
  a0 := (frame3 W (by decide)).trans h.a0
  a1 := (frame3 W (by decide)).trans h.a1
  a2 := (frame3 W (by decide)).trans h.a2
  a3 := (frame3 W (by decide)).trans h.a3
  a4 := (frame3 W (by decide)).trans h.a4
  a5 := (frame3 W (by decide)).trans h.a5
  a6 := (frame3 W (by decide)).trans h.a6
  a7 := (frame3 W (by decide)).trans h.a7
  a8 := (frame3 W (by decide)).trans h.a8
  a9 := (frame3 W (by decide)).trans h.a9
  v5 := (frame3 W (by decide)).trans h.v5
  v9 := (frame3 W (by decide)).trans h.v9

/-- Piece 4 preserves them. -/
theorem base4 {V W : Valuation τ sig (Elt F)} (h : Base V W) : Base V (after p4 W) where
  a0 := (frame4 W (by decide)).trans h.a0
  a1 := (frame4 W (by decide)).trans h.a1
  a2 := (frame4 W (by decide)).trans h.a2
  a3 := (frame4 W (by decide)).trans h.a3
  a4 := (frame4 W (by decide)).trans h.a4
  a5 := (frame4 W (by decide)).trans h.a5
  a6 := (frame4 W (by decide)).trans h.a6
  a7 := (frame4 W (by decide)).trans h.a7
  a8 := (frame4 W (by decide)).trans h.a8
  a9 := (frame4 W (by decide)).trans h.a9
  v5 := (frame4 W (by decide)).trans h.v5
  v9 := (frame4 W (by decide)).trans h.v9

/-- Piece 5 preserves them. -/
theorem base5 {V W : Valuation τ sig (Elt F)} (h : Base V W) : Base V (after p5 W) where
  a0 := (frame5 W (by decide)).trans h.a0
  a1 := (frame5 W (by decide)).trans h.a1
  a2 := (frame5 W (by decide)).trans h.a2
  a3 := (frame5 W (by decide)).trans h.a3
  a4 := (frame5 W (by decide)).trans h.a4
  a5 := (frame5 W (by decide)).trans h.a5
  a6 := (frame5 W (by decide)).trans h.a6
  a7 := (frame5 W (by decide)).trans h.a7
  a8 := (frame5 W (by decide)).trans h.a8
  a9 := (frame5 W (by decide)).trans h.a9
  v5 := (frame5 W (by decide)).trans h.v5
  v9 := (frame5 W (by decide)).trans h.v9

end Cert.Gat.RefRun

end
-- ==== Proof.RefRunL1.lean ====
/-
  Layer 0 of the reference program: from contents that hold the arguments, the identity matrix, the masked adjacency
  matrix, the piece's fold leaves the layer's output, the composed value of its operations.
-/
import proofs.«156558_j6545530159683_2_alg».proof.Proof.RefRunBase

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem val1 {V W : Valuation τ sig (Elt F)} (h : Base V W) :
    after p1 W (Proc.devRef .tc main_v54) = ReadP.val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  simp only [h.a0, h.a2, h.a3, h.a4, h.a5, h.a6, h.a7, h.v5, h.v9]
  rfl

end Cert.Gat.RefRun

end
-- ==== Proof.RefRunL2.lean ====
/-
  Layer 1 of the reference program: from contents that hold the arguments, the identity matrix, the masked adjacency
  matrix and the previous layer's output, the piece's fold leaves the layer's output, the composed value of its operations.
-/
import proofs.«156558_j6545530159683_2_alg».proof.Proof.RefRunBase

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem val2 {V W : Valuation τ sig (Elt F)} (h : Base V W)
    (hp : W (Proc.devRef .tc main_v54) = ReadP.val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    after p2 W (Proc.devRef .tc main_v99) = ReadP.val_main_v99 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  simp only [hp, h.a2, h.a3, h.a4, h.a5, h.a6, h.a7, h.v5, h.v9]
  rfl

end Cert.Gat.RefRun

end
-- ==== Proof.RefRunL3.lean ====
/-
  Layer 2 of the reference program: from contents that hold the arguments, the identity matrix, the masked adjacency
  matrix and the previous layer's output, the piece's fold leaves the layer's output, the composed value of its operations.
-/
import proofs.«156558_j6545530159683_2_alg».proof.Proof.RefRunBase

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem val3 {V W : Valuation τ sig (Elt F)} (h : Base V W)
    (hp : W (Proc.devRef .tc main_v99) = ReadP.val_main_v99 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    after p3 W (Proc.devRef .tc main_v144) = ReadP.val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  simp only [hp, h.a2, h.a3, h.a4, h.a5, h.a6, h.a7, h.v5, h.v9]
  rfl

end Cert.Gat.RefRun

end
-- ==== Proof.RefRunL4.lean ====
/-
  Layer 3 of the reference program: from contents that hold the arguments, the identity matrix, the masked adjacency
  matrix and the previous layer's output, the piece's fold leaves the layer's output, the composed value of its operations.
-/
import proofs.«156558_j6545530159683_2_alg».proof.Proof.RefRunBase

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 8000000 in
theorem val4 {V W : Valuation τ sig (Elt F)} (h : Base V W)
    (hp : W (Proc.devRef .tc main_v144) = ReadP.val_main_v144 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    after p4 W (Proc.devRef .tc main_v189) = ReadP.val_main_v189 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  after_results_simp
  simp only [hp, h.a2, h.a3, h.a4, h.a5, h.a6, h.a7, h.v5, h.v9]
  rfl

end Cert.Gat.RefRun

end
-- ==== Proof.RefRun.lean ====
/-
  The reference program's run.  Its operation list is six consecutive pieces; the fold of the operations' results over
  the whole list is the folds over the pieces in turn, and each piece leaves, from contents that hold what it reads, the
  composed value of its operations.  Chaining the six: the result buffer ends at the value of the last operation as a
  function of the arguments' launch contents, and the arguments are unchanged.
-/
import proofs.«156558_j6545530159683_2_alg».proof.Proof.RefRunL1
import proofs.«156558_j6545530159683_2_alg».proof.Proof.RefRunL2
import proofs.«156558_j6545530159683_2_alg».proof.Proof.RefRunL3
import proofs.«156558_j6545530159683_2_alg».proof.Proof.RefRunL4

noncomputable section

namespace Cert.Gat.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The final affine map. -/
theorem val5 {V W : Valuation τ sig (Elt F)} (h : Base V W)
    (hp : W (Proc.devRef .tc main_v189) = ReadP.val_main_v189 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    after p5 W (Proc.devRef .tc main_v193) = ReadP.val_main_v193 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  simp only [hp, h.a8, h.a9]
  rfl

/-- The fold over the whole list is the folds over the six pieces in turn. -/
theorem after_ops_eq (V : Valuation τ sig (Elt F)) :
    after (OpsP.ops : List (HloOp τ sig (Elt F))) V = after p5 (after p4 (after p3 (after p2 (after p1 (after p0 V))))) := by
  rw [ops_split, after_append, after_append, after_append, after_append, after_append]

/-- After all the operations: the result and the arguments. -/
theorem after_ops (V : Valuation τ sig (Elt F)) :
    after (OpsP.ops : List (HloOp τ sig (Elt F))) V (Proc.devRef .tc main_v193) = ReadP.val_main_v193 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))
      ∧ Base V (after (OpsP.ops : List (HloOp τ sig (Elt F))) V) := by
  rw [after_ops_eq]
  have b0 := base0 V
  have b1 := base1 b0
  have b2 := base2 b1
  have b3 := base3 b2
  have b4 := base4 b3
  exact ⟨val5 b4 (val4 b3 (val3 b2 (val2 b1 (val1 b0)))), base5 b4⟩

set_option maxRecDepth 8192 in
set_option maxHeartbeats 4000000 in
/-- On every device, from any memory with zero counters: every weakly fair execution of the reference program
    terminates with the result buffer at the last operation's value of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193) = ReadP.val_main_v193 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      have k := after_ops (F := F) (launchContents m c)
      exact ⟨(h c main_v193).trans k.1, (h c main_arg0).trans k.2.a0, (h c main_arg1).trans k.2.a1, (h c main_arg2).trans k.2.a2, (h c main_arg3).trans k.2.a3, (h c main_arg4).trans k.2.a4, (h c main_arg5).trans k.2.a5, (h c main_arg6).trans k.2.a6, (h c main_arg7).trans k.2.a7, (h c main_arg8).trans k.2.a8, (h c main_arg9).trans k.2.a9⟩)
    (run_seq OpsP.scopedRefs_eq OpsP.scopedSems_eq defs main (fun _ => OpsP.ops) OpsP.main_eq (fun _ => OpsP.ops_sub) m ρ)

end Cert.Gat.RefRun

end
-- ==== Proof.GatSpec.lean ====
/-
  The dense graph-attention network both programs compute, written once as plain functions of index families over the
  extended reals.  One batch element is a node-feature matrix `X : 512 × 256` and an adjacency matrix `A : 512 × 512`.
  A layer forms queries `lin X Wa ba`, scores every pair of nodes by the logistic of the inner product of a query
  row with a feature row, masks the scores with the adjacency matrix (its diagonal forced to one) and adds a small
  constant on the diagonal, normalises each row of the masked scores by its sum while aggregating the feature rows,
  and passes the aggregate through two affine maps with a rectifier each, adding the layer's input back.  Four layers
  are followed by one affine map.

  The two programs differ in exactly two places, and this file keeps both spellings side by side:
  * the masked score is `s · a + ε·[i = j]` in one and `(s + ε·[i = j]) · a` in the other (`maskK`, `maskR`);
  * one divides the aggregated row by the row sum (`aggK`), the other divides each masked score first (`aggR`).
  Everything else (`lin`, `relu`, `diag1`, `score`, `tail`) is shared.  The literals stay as their binary words here; what
  they denote is used only where the two spellings are proved equal.
-/
import Idealize.ShloMosaic.PureOps.Ideal

noncomputable section

namespace Cert.Gat

open Idealize.ShloMosaic

/-- The word of `1.0`. -/
abbrev w1 : EReal := Ideal.ofBits .f32 0x3F800000#32
/-- The word of `0.0`. -/
abbrev w0 : EReal := Ideal.ofBits .f32 0x00000000#32
/-- The word of the small diagonal constant (the single-precision value nearest `1e-5`). -/
abbrev wE : EReal := Ideal.ofBits .f32 0x3727C5AC#32

/-- An `a × b` family of extended reals. -/
abbrev Mat (a b : ℕ) := Fin a → Fin b → EReal

/-- Affine map on rows: `(lin X W b) i e = (∑ d, X i d · W e d) + b e` (`W` is indexed output first). -/
def lin {n : ℕ} (X : Mat n 256) (W : Mat 256 256) (b : Fin 256 → EReal) : Mat n 256 :=
  fun i e => (∑ d : Fin 256, X i d * W e d) + b e

/-- The rectifier against the zero word. -/
def relu (z : EReal) : EReal := max z w0

/-- The adjacency matrix with its diagonal forced to the word of one. -/
def diag1 (A : Mat 512 512) : Mat 512 512 := fun i j => if i = j then w1 else A i j

/-- The logistic function spelt with the word of one: `1.0 / (1.0 + exp (-z))`. -/
def sigW (z : EReal) : EReal := Ideal.div w1 (w1 + Ideal.exp (-z))

/-- Pair scores under a squashing function `sg`: `sg (∑ d, q i d · X j d)` with `q = lin X Wa ba`. -/
def score (sg : EReal → EReal) (X : Mat 512 256) (Wa : Mat 256 256) (ba : Fin 256 → EReal) : Mat 512 512 :=
  fun i j => sg (∑ d : Fin 256, lin X Wa ba i d * X j d)

/-- Masked scores, first spelling: multiply by the adjacency entry, then add the diagonal constant. -/
def maskK (S A : Mat 512 512) : Mat 512 512 :=
  fun i j => S i j * diag1 A i j + (if i = j then wE else w0)

/-- Masked scores, second spelling: add the constant times the identity matrix's entry, then multiply by the adjacency entry. -/
def maskR (S A : Mat 512 512) : Mat 512 512 :=
  fun i j => (S i j + wE * (if i = j then (1 : EReal) else 0)) * diag1 A i j

/-- Aggregation, first spelling: the weighted sum of feature rows divided by the row sum of the weights. -/
def aggK (P : Mat 512 512) (X : Mat 512 256) : Mat 512 256 :=
  fun i d => Ideal.div (∑ j : Fin 512, P i j * X j d) (∑ j : Fin 512, P i j)

/-- Aggregation, second spelling: each weight divided by its row sum (taken from the zero word), then the weighted sum. -/
def aggR (P : Mat 512 512) (X : Mat 512 256) : Mat 512 256 :=
  fun i d => ∑ j : Fin 512, Ideal.div (P i j) (w0 + ∑ j' : Fin 512, P i j') * X j d

/-- The rest of a layer: two affine maps, each followed by the rectifier, and the residual connection. -/
def tail (G X : Mat 512 256) (W0 : Mat 256 256) (b0 : Fin 256 → EReal) (W1 : Mat 256 256) (b1 : Fin 256 → EReal) : Mat 512 256 :=
  fun i e => relu (lin (fun i e => relu (lin G W0 b0 i e)) W1 b1 i e) + X i e

/-- One layer, first spelling. -/
def layerK (X : Mat 512 256) (A : Mat 512 512) (Wa : Mat 256 256) (ba : Fin 256 → EReal)
    (W0 : Mat 256 256) (b0 : Fin 256 → EReal) (W1 : Mat 256 256) (b1 : Fin 256 → EReal) : Mat 512 256 :=
  tail (aggK (maskK (score Ideal.logistic X Wa ba) A) X) X W0 b0 W1 b1

/-- One layer, second spelling. -/
def layerR (X : Mat 512 256) (A : Mat 512 512) (Wa : Mat 256 256) (ba : Fin 256 → EReal)
    (W0 : Mat 256 256) (b0 : Fin 256 → EReal) (W1 : Mat 256 256) (b1 : Fin 256 → EReal) : Mat 512 256 :=
  tail (aggR (maskR (score sigW X Wa ba) A) X) X W0 b0 W1 b1

/-- The whole network for one batch element, first spelling: four layers (weights of layer `l` at `Wa l`, …), then an affine map. -/
def netK (X : Mat 512 256) (A : Mat 512 512) (Wa : Fin 4 → Mat 256 256) (ba : Fin 4 → Fin 256 → EReal)
    (W0 : Fin 4 → Mat 256 256) (b0 : Fin 4 → Fin 256 → EReal) (W1 : Fin 4 → Mat 256 256) (b1 : Fin 4 → Fin 256 → EReal)
    (Wf : Mat 256 256) (bf : Fin 256 → EReal) : Mat 512 256 :=
  lin (layerK (layerK (layerK (layerK X A (Wa 0) (ba 0) (W0 0) (b0 0) (W1 0) (b1 0))
    A (Wa 1) (ba 1) (W0 1) (b0 1) (W1 1) (b1 1)) A (Wa 2) (ba 2) (W0 2) (b0 2) (W1 2) (b1 2))
    A (Wa 3) (ba 3) (W0 3) (b0 3) (W1 3) (b1 3)) Wf bf

/-- The whole network for one batch element, second spelling. -/
def netR (X : Mat 512 256) (A : Mat 512 512) (Wa : Fin 4 → Mat 256 256) (ba : Fin 4 → Fin 256 → EReal)
    (W0 : Fin 4 → Mat 256 256) (b0 : Fin 4 → Fin 256 → EReal) (W1 : Fin 4 → Mat 256 256) (b1 : Fin 4 → Fin 256 → EReal)
    (Wf : Mat 256 256) (bf : Fin 256 → EReal) : Mat 512 256 :=
  lin (layerR (layerR (layerR (layerR X A (Wa 0) (ba 0) (W0 0) (b0 0) (W1 0) (b1 0))
    A (Wa 1) (ba 1) (W0 1) (b0 1) (W1 1) (b1 1)) A (Wa 2) (ba 2) (W0 2) (b0 2) (W1 2) (b1 2))
    A (Wa 3) (ba 3) (W0 3) (b0 3) (W1 3) (b1 3)) Wf bf

end Cert.Gat

end
-- ==== Proof.KerMat.lean ====
/-
  The three matrix products of one attention layer, read at an index over the extended reals.  Each accumulates into
  the zero splat, so an entry is the plain sum over the shared axis of the products of the operands' entries:
  * rows times a square weight matrix, [512,256] x [256,256]: entry (i, e) is the sum over k of lhs(i,k) * rhs(k,e);
  * rows against rows, [512,256] x [512,256] contracted on the feature axis of both: entry (i, j) is the sum over k
    of lhs(i,k) * rhs(j,k);
  * weights times rows, [512,512] x [512,256]: entry (i, e) is the sum over k of lhs(i,k) * rhs(k,e).
  The contraction index of each is a one-axis index, re-indexed to its single coordinate.
-/
import proofs.«156558_j6545530159683_2_alg».proof.Proof.Gen.KernelIdeal.Frame
import Idealize.ShloMosaic.Lib.ValueIdx
import Idealize.ShloMosaic.PureOps.Ideal.Laws

noncomputable section

namespace Cert.Gat.Ker

open Idealize.ShloMosaic Idealize.ShloMosaic.ValueIdx Cert.KernelIdeal Cert.KernelIdeal.Gen
open scoped BigOperators

/-- Rows times a square matrix. -/
abbrev D1 := dot_S512x256_S256x256_S512x256_1_0_0_1_n_n
/-- Rows against rows, contracted on the last axis of both. -/
abbrev D2 := dot_S512x256_S512x256_S512x512_1_1_0_0_n_n
/-- A square weight matrix times rows. -/
abbrev D3 := dot_S512x512_S512x256_S512x256_1_0_0_1_n_n

/-! ## Rows times a square matrix -/

theorem D1_lhs0 (j : S512x256.Idx) (q : D1.contr.Idx) : (D1.lhsIdx j q 0).val = (j 0).val := by
  unfold DotDims.lhsIdx
  rw [dif_neg (show ¬(0 : Fin S512x256.rank) ∈ D1.lhsBatch by decide), dif_pos (show (0 : Fin S512x256.rank) ∈ D1.lhsNonContracting by decide)]
  rfl
theorem D1_lhs1 (j : S512x256.Idx) (q : D1.contr.Idx) : (D1.lhsIdx j q 1).val = (q ⟨0, by decide⟩).val :=
  D1.lhsIdx_val_of_single rfl j q
theorem D1_rhs0 (j : S512x256.Idx) (q : D1.contr.Idx) : (D1.rhsIdx j q 0).val = (q ⟨0, by decide⟩).val :=
  D1.rhsIdx_val_of_single rfl j q
theorem D1_rhs1 (j : S512x256.Idx) (q : D1.contr.Idx) : (D1.rhsIdx j q 1).val = (j 1).val := by
  unfold DotDims.rhsIdx
  rw [dif_neg (show ¬(1 : Fin S256x256.rank) ∈ D1.rhsBatch by decide), dif_pos (show (1 : Fin S256x256.rank) ∈ D1.rhsNonContracting by decide)]
  rfl

/-- Entry (i, e) of rows times a square matrix, into the zero splat: the sum over the shared axis. -/
theorem matmul1_apply {φ₁ φ₂ : FTy} (lhs : FVec Ideal S512x256 φ₁) (rhs : FVec Ideal S256x256 φ₂) (i : Fin 512) (e : Fin 256) :
    matmul D1 none lhs rhs (constant (F := Ideal) S512x256 .f32 0x00000000#32) (ix2 i e)
      = ∑ k : Fin 256, lhs (ix2 i k) * rhs (ix2 k e) := by
  refine (Ideal.matmul_constant_zero_apply D1 none lhs rhs (ix2 i e)).trans ?_
  rw [← Equiv.sum_comp (contrEquiv1 D1 256 rfl rfl).symm]
  refine Finset.sum_congr rfl fun k _ => ?_
  have hk := contrEquiv1_symm_val D1 256 rfl rfl k
  have el : D1.lhsIdx (ix2 i e) ((contrEquiv1 D1 256 rfl rfl).symm k) = ix2 i k := funext fun a => Fin.ext (by
    match a with
    | ⟨0, _⟩ => exact D1_lhs0 _ _
    | ⟨1, _⟩ => exact (D1_lhs1 _ _).trans hk)
  have er : D1.rhsIdx (ix2 i e) ((contrEquiv1 D1 256 rfl rfl).symm k) = ix2 k e := funext fun a => Fin.ext (by
    match a with
    | ⟨0, _⟩ => exact (D1_rhs0 _ _).trans hk
    | ⟨1, _⟩ => exact D1_rhs1 _ _)
  rw [el, er]

/-! ## Rows against rows -/

theorem D2_lhs0 (j : S512x512.Idx) (q : D2.contr.Idx) : (D2.lhsIdx j q 0).val = (j 0).val := by
  unfold DotDims.lhsIdx
  rw [dif_neg (show ¬(0 : Fin S512x256.rank) ∈ D2.lhsBatch by decide), dif_pos (show (0 : Fin S512x256.rank) ∈ D2.lhsNonContracting by decide)]
  rfl
theorem D2_lhs1 (j : S512x512.Idx) (q : D2.contr.Idx) : (D2.lhsIdx j q 1).val = (q ⟨0, by decide⟩).val :=
  D2.lhsIdx_val_of_single rfl j q
theorem D2_rhs0 (j : S512x512.Idx) (q : D2.contr.Idx) : (D2.rhsIdx j q 0).val = (j 1).val := by
  unfold DotDims.rhsIdx
  rw [dif_neg (show ¬(0 : Fin S512x256.rank) ∈ D2.rhsBatch by decide), dif_pos (show (0 : Fin S512x256.rank) ∈ D2.rhsNonContracting by decide)]
  rfl
theorem D2_rhs1 (j : S512x512.Idx) (q : D2.contr.Idx) : (D2.rhsIdx j q 1).val = (q ⟨0, by decide⟩).val :=
  D2.rhsIdx_val_of_single rfl j q

/-- Entry (i, j) of rows against rows, into the zero splat: the inner product of row i of the left with row j of the right. -/
theorem matmul2_apply {φ₁ φ₂ : FTy} (lhs : FVec Ideal S512x256 φ₁) (rhs : FVec Ideal S512x256 φ₂) (i j : Fin 512) :
    matmul D2 none lhs rhs (constant (F := Ideal) S512x512 .f32 0x00000000#32) (ix2 i j)
      = ∑ k : Fin 256, lhs (ix2 i k) * rhs (ix2 j k) := by
  refine (Ideal.matmul_constant_zero_apply D2 none lhs rhs (ix2 i j)).trans ?_
  rw [← Equiv.sum_comp (contrEquiv1 D2 256 rfl rfl).symm]
  refine Finset.sum_congr rfl fun k _ => ?_
  have hk := contrEquiv1_symm_val D2 256 rfl rfl k
  have el : D2.lhsIdx (ix2 i j) ((contrEquiv1 D2 256 rfl rfl).symm k) = ix2 i k := funext fun a => Fin.ext (by
    match a with
    | ⟨0, _⟩ => exact D2_lhs0 _ _
    | ⟨1, _⟩ => exact (D2_lhs1 _ _).trans hk)
  have er : D2.rhsIdx (ix2 i j) ((contrEquiv1 D2 256 rfl rfl).symm k) = ix2 j k := funext fun a => Fin.ext (by
    match a with
    | ⟨0, _⟩ => exact D2_rhs0 _ _
    | ⟨1, _⟩ => exact (D2_rhs1 _ _).trans hk)
  rw [el, er]

/-! ## A square weight matrix times rows -/

theorem D3_lhs0 (j : S512x256.Idx) (q : D3.contr.Idx) : (D3.lhsIdx j q 0).val = (j 0).val := by
  unfold DotDims.lhsIdx
  rw [dif_neg (show ¬(0 : Fin S512x512.rank) ∈ D3.lhsBatch by decide), dif_pos (show (0 : Fin S512x512.rank) ∈ D3.lhsNonContracting by decide)]
  rfl
theorem D3_lhs1 (j : S512x256.Idx) (q : D3.contr.Idx) : (D3.lhsIdx j q 1).val = (q ⟨0, by decide⟩).val :=
  D3.lhsIdx_val_of_single rfl j q
theorem D3_rhs0 (j : S512x256.Idx) (q : D3.contr.Idx) : (D3.rhsIdx j q 0).val = (q ⟨0, by decide⟩).val :=
  D3.rhsIdx_val_of_single rfl j q
theorem D3_rhs1 (j : S512x256.Idx) (q : D3.contr.Idx) : (D3.rhsIdx j q 1).val = (j 1).val := by
  unfold DotDims.rhsIdx
  rw [dif_neg (show ¬(1 : Fin S512x256.rank) ∈ D3.rhsBatch by decide), dif_pos (show (1 : Fin S512x256.rank) ∈ D3.rhsNonContracting by decide)]
  rfl

/-- Entry (i, e) of a square weight matrix times rows, into the zero splat: the weighted sum of the rows' entries in column e. -/
theorem matmul3_apply {φ₁ φ₂ : FTy} (lhs : FVec Ideal S512x512 φ₁) (rhs : FVec Ideal S512x256 φ₂) (i : Fin 512) (e : Fin 256) :
    matmul D3 none lhs rhs (constant (F := Ideal) S512x256 .f32 0x00000000#32) (ix2 i e)
      = ∑ k : Fin 512, lhs (ix2 i k) * rhs (ix2 k e) := by
  refine (Ideal.matmul_constant_zero_apply D3 none lhs rhs (ix2 i e)).trans ?_
  rw [← Equiv.sum_comp (contrEquiv1 D3 512 rfl rfl).symm]
  refine Finset.sum_congr rfl fun k _ => ?_
  have hk := contrEquiv1_symm_val D3 512 rfl rfl k
  have el : D3.lhsIdx (ix2 i e) ((contrEquiv1 D3 512 rfl rfl).symm k) = ix2 i k := funext fun a => Fin.ext (by
    match a with
    | ⟨0, _⟩ => exact D3_lhs0 _ _
    | ⟨1, _⟩ => exact (D3_lhs1 _ _).trans hk)
  have er : D3.rhsIdx (ix2 i e) ((contrEquiv1 D3 512 rfl rfl).symm k) = ix2 k e := funext fun a => Fin.ext (by
    match a with
    | ⟨0, _⟩ => exact (D3_rhs0 _ _).trans hk
    | ⟨1, _⟩ => exact D3_rhs1 _ _)
  rw [el, er]

end Cert.Gat.Ker

end
-- ==== Proof.KerLayer.lean ====
/-
  One attention layer as a function of vectors, split into its stages, and each stage read at an index over the
  extended reals.  A stage is the literal sequence of vector operations the kernel runs: an affine map on rows
  (a product into the zero splat plus a bias row spread over the rows), the pair scores (the logistic of rows against
  rows), the masking (times the adjacency entries, plus the diagonal constant), the aggregation (weights times rows,
  divided by the row sums kept as a column), and the two rectified affine maps with the residual.  Narrowing a vector
  to the shorter format is the identity on extended reals, so it disappears from every reading.
  The generated payloads are compositions of these stages by definitional unfolding.
-/
import proofs.«156558_j6545530159683_2_alg».proof.Proof.KerMat
import Idealize.ShloMosaic.Lib.ValueLayout
import Idealize.ShloMosaic.Lib.Pipeline.Value

noncomputable section

namespace Cert.Gat.Ker

open Idealize.ShloMosaic Idealize.ShloMosaic.ValueIdx Cert.KernelIdeal Cert.KernelIdeal.Gen
open scoped BigOperators

section Defs
variable {F : FTy → Type} [FloatOps F]

/-- Affine map on rows: the narrowed rows times the narrowed weight matrix, plus the bias spread over the rows. -/
def kLin (xb : FVec F S512x256 .bf16) (w : FVec F S256x256 .f32) (b : FVec F S256 .f32) : FVec F S512x256 .f32 :=
  addf (matmul dot_S512x256_S256x256_S512x256_1_0_0_1_n_n none xb (truncf .bf16 w bitsLt_bf16_f32) (constant S512x256 .f32 0x00000000#32))
    (broadcastTo S512x256 (shapeCast S1x256 b shapeCasts_S256_S1x256) broadcasts_S1x256_S512x256)

/-- Pair scores: the logistic of the narrowed queries against the narrowed rows. -/
def kScore (q : FVec F S512x256 .f32) (xb : FVec F S512x256 .bf16) : FVec F S512x512 .f32 :=
  logistic (matmul dot_S512x256_S512x256_S512x512_1_1_0_0_n_n none (truncf .bf16 q bitsLt_bf16_f32) xb (constant S512x512 .f32 0x00000000#32))

/-- Masking: times the adjacency entries, plus the diagonal constant. -/
def kMask (s a' ee : FVec F S512x512 .f32) : FVec F S512x512 .f32 := addf (mulf s a') ee

/-- Aggregation: the narrowed weights times the narrowed rows, divided by the weights' row sums kept as a column. -/
def kAgg (m : FVec F S512x512 .f32) (xb : FVec F S512x256 .bf16) : FVec F S512x256 .f32 :=
  divf (matmul dot_S512x512_S512x256_S512x256_1_0_0_1_n_n none (truncf .bf16 m bitsLt_bf16_f32) xb (constant S512x256 .f32 0x00000000#32))
    (broadcastTo S512x256 (shapeCast S512x1 (multiReduction .add [1] S512 m 0x00000000#32 reduces_S512x512_S512 (.inl rfl) rfl) shapeCasts_S512_S512x1) broadcasts_S512x1_S512x256)

/-- The rectifier against the zero word. -/
def kRelu (z : FVec F S512x256 .f32) : FVec F S512x256 .f32 :=
  maximumf z (broadcast S512x256 (Scalar.ofBits .f32 0x00000000#32))

/-- Two rectified affine maps and the residual. -/
def kTail (g x : FVec F S512x256 .f32) (w0 : FVec F S256x256 .f32) (b0 : FVec F S256 .f32) (w1 : FVec F S256x256 .f32) (b1 : FVec F S256 .f32) : FVec F S512x256 .f32 :=
  addf (kRelu (kLin (truncf .bf16 (kRelu (kLin (truncf .bf16 g bitsLt_bf16_f32) w0 b0)) bitsLt_bf16_f32) w1 b1)) x

/-- One layer from the narrowed rows `xb` and the rows `x` themselves (the residual). -/
def kLayerB (x : FVec F S512x256 .f32) (xb : FVec F S512x256 .bf16) (a' ee : FVec F S512x512 .f32) (wa : FVec F S256x256 .f32) (ba : FVec F S256 .f32)
    (w0 : FVec F S256x256 .f32) (b0 : FVec F S256 .f32) (w1 : FVec F S256x256 .f32) (b1 : FVec F S256 .f32) : FVec F S512x256 .f32 :=
  kTail (kAgg (kMask (kScore (kLin xb wa ba) xb) a' ee) xb) x w0 b0 w1 b1

/-- One layer. -/
def kLayer (x : FVec F S512x256 .f32) (a' ee : FVec F S512x512 .f32) (wa : FVec F S256x256 .f32) (ba : FVec F S256 .f32)
    (w0 : FVec F S256x256 .f32) (b0 : FVec F S256 .f32) (w1 : FVec F S256x256 .f32) (b1 : FVec F S256 .f32) : FVec F S512x256 .f32 :=
  kLayerB x (truncf .bf16 x bitsLt_bf16_f32) a' ee wa ba w0 b0 w1 b1

/-! ## The generated payloads are these stages -/

theorem pay10_eq (v0 : Vec F S1x512x256 .f32) : k0_pay10 v0 = truncf .bf16 (k0_pay2 v0) bitsLt_bf16_f32 := rfl

theorem pay11_eq (v0 : Vec F S1x512x256 .f32) (v12 : Vec F S1x256x256 .f32) (v14 : Vec F S1x256 .f32) :
    k0_pay11 v0 v12 v14
      = kScore (kLin (truncf .bf16 (k0_pay2 v0) bitsLt_bf16_f32) (shapeCast S256x256 v12 shapeCasts_S1x256x256_S256x256) (shapeCast S256 v14 shapeCasts_S1x256_S256))
          (truncf .bf16 (k0_pay2 v0) bitsLt_bf16_f32) := rfl

theorem pay12_eq (v1 : FVec F S512x256 .f32) (v8 v11 : FVec F S512x512 .f32) (v17 : FVec F S256x256 .f32) (v19 : FVec F S256 .f32)
    (v21 : FVec F S256x256 .f32) (v23 : FVec F S256 .f32) (v24 : FVec F S512x256 .bf16) (v32 : FVec F S512x512 .f32) :
    k0_pay12 v1 v8 v11 v17 v19 v21 v23 v24 v32 = kTail (kAgg (kMask v32 v8 v11) v24) v1 v17 v19 v21 v23 := rfl

theorem pay18_eq (v1 : FVec F S512x256 .f32) (v8 v11 : FVec F S512x512 .f32) (v17 : FVec F S256x256 .f32) (v19 : FVec F S256 .f32)
    (v21 : FVec F S256x256 .f32) (v23 : FVec F S256 .f32) (v24 : FVec F S512x256 .bf16) (v32 : FVec F S512x512 .f32) :
    k0_pay18 v1 v8 v11 v17 v19 v21 v23 v24 v32 = truncf .bf16 (k0_pay12 v1 v8 v11 v17 v19 v21 v23 v24 v32) bitsLt_bf16_f32 := rfl

theorem pay19_eq (v58 : Vec F S1x256x256 .f32) :
    k0_pay19 v58 = truncf .bf16 (shapeCast S256x256 v58 shapeCasts_S1x256x256_S256x256) bitsLt_bf16_f32 := rfl

/-- The first layer, assembled from its two payloads. -/
theorem layer0_eq (v0 : Vec F S1x512x256 .f32) (v8 v11 : FVec F S512x512 .f32) (v12 : Vec F S1x256x256 .f32) (v14 : Vec F S1x256 .f32)
    (v17 : FVec F S256x256 .f32) (v19 : FVec F S256 .f32) (v21 : FVec F S256x256 .f32) (v23 : FVec F S256 .f32) :
    k0_pay12 (k0_pay2 v0) v8 v11 v17 v19 v21 v23 (k0_pay10 v0) (k0_pay11 v0 v12 v14)
      = kLayer (k0_pay2 v0) v8 v11 (shapeCast S256x256 v12 shapeCasts_S1x256x256_S256x256) (shapeCast S256 v14 shapeCasts_S1x256_S256) v17 v19 v21 v23 := rfl

/-- The second layer: its payload takes the narrowed rows and the narrowed first weight matrix ready made. -/
theorem pay20_eq (v8 v11 : FVec F S512x512 .f32) (v57 : FVec F S512x256 .f32) (v61 : FVec F S256 .f32) (v63 : FVec F S256x256 .f32) (v65 : FVec F S256 .f32)
    (v67 : FVec F S256x256 .f32) (v69 : FVec F S256 .f32) (wa : FVec F S256x256 .f32) :
    k0_pay20 v8 v11 v57 v61 v63 v65 v67 v69 (truncf .bf16 v57 bitsLt_bf16_f32) (truncf .bf16 wa bitsLt_bf16_f32)
      = kLayer v57 v8 v11 wa v61 v63 v65 v67 v69 := rfl

/-- The third layer: its payload casts the last weight matrix and bias itself. -/
theorem pay25_eq (v8 v11 : FVec F S512x512 .f32) (v103 : FVec F S512x256 .f32) (v105 : FVec F S256x256 .f32) (v107 : FVec F S256 .f32)
    (v109 : FVec F S256x256 .f32) (v111 : FVec F S256 .f32) (v112 : Vec F S1x256x256 .f32) (v114 : Vec F S1x256 .f32) :
    k0_pay25 v8 v11 v103 v105 v107 v109 v111 v112 v114
      = kLayer v103 v8 v11 v105 v107 v109 v111 (shapeCast S256x256 v112 shapeCasts_S1x256x256_S256x256) (shapeCast S256 v114 shapeCasts_S1x256_S256) := rfl

/-- The fourth layer, narrowed at the end: its payload casts the last two weight matrices and biases itself. -/
theorem pay28_eq (v8 v11 : FVec F S512x512 .f32) (v149 : FVec F S512x256 .f32) (v151 : FVec F S256x256 .f32) (v153 : FVec F S256 .f32)
    (v154 : Vec F S1x256x256 .f32) (v156 : Vec F S1x256 .f32) (v158 : Vec F S1x256x256 .f32) (v160 : Vec F S1x256 .f32) :
    k0_pay28 v8 v11 v149 v151 v153 v154 v156 v158 v160
      = truncf .bf16 (kLayer v149 v8 v11 v151 v153 (shapeCast S256x256 v154 shapeCasts_S1x256x256_S256x256) (shapeCast S256 v156 shapeCasts_S1x256_S256)
          (shapeCast S256x256 v158 shapeCasts_S1x256x256_S256x256) (shapeCast S256 v160 shapeCasts_S1x256_S256)) bitsLt_bf16_f32 := rfl

/-- The final affine map, viewed with a leading unit axis. -/
theorem pay1_eq (v196 : FVec F S512x256 .bf16) (v197 : Vec F S256x256 .f32) (v201 : Vec F S256 .f32) :
    k0_pay1 v196 v197 v201
      = shapeCast S1x512x256 (kLin v196 (shapeCast S256x256 v197 shapeCasts_S256x256_S256x256) v201) shapeCasts_S512x256_S1x512x256 := rfl

end Defs

/-! ## The stages read at an index -/

/-- A length-a vector viewed as an [a, 1] column reads its entry at the row. -/
theorem col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread over b lanes reads, at (p, c), its entry at row p. -/
theorem colSpread_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The affine map at (i, e): the sum over the shared axis plus the bias entry. -/
theorem kLin_apply (xb : FVec Ideal S512x256 .bf16) (w : FVec Ideal S256x256 .f32) (b : FVec Ideal S256 .f32) (i : Fin 512) (e : Fin 256) :
    kLin xb w b (ix2 i e) = (∑ k : Fin 256, xb (ix2 i k) * w (ix2 k e)) + b (ix1 e) := by
  unfold kLin
  refine (addf_apply _ _ _).trans ?_
  refine congrArg₂ (· + ·) ?_ ?_
  · exact matmul1_apply xb (truncf .bf16 w bitsLt_bf16_f32) i e
  · exact (broadcastTo_1b_ab_apply _ broadcasts_S1x256_S512x256 i e).trans (shapeCast_a_1a_apply b shapeCasts_S256_S1x256 0 e)

/-- The pair score at (i, j): the logistic of the inner product of query row i with row j. -/
theorem kScore_apply (q : FVec Ideal S512x256 .f32) (xb : FVec Ideal S512x256 .bf16) (i j : Fin 512) :
    kScore q xb (ix2 i j) = Ideal.logistic (∑ k : Fin 256, q (ix2 i k) * xb (ix2 j k)) := by
  unfold kScore
  exact congrArg Ideal.logistic (matmul2_apply (truncf .bf16 q bitsLt_bf16_f32) xb i j)

/-- The masked score at (i, j). -/
theorem kMask_apply (s a' ee : FVec Ideal S512x512 .f32) (i j : Fin 512) :
    kMask s a' ee (ix2 i j) = s (ix2 i j) * a' (ix2 i j) + ee (ix2 i j) := rfl

/-- The lane sum of a [512,512] vector at row i: the sum of the row's entries. -/
theorem rowSum_apply (m : FVec Ideal S512x512 .f32) (i : Fin 512) :
    multiReduction .add [1] S512 m 0x00000000#32 reduces_S512x512_S512 (.inl rfl) rfl (ix1 i) = ∑ k : Fin 512, m (ix2 i k) := by
  refine (Ideal.multiReduction_add_single m 0x00000000#32 reduces_S512x512_S512 (.inl rfl) rfl (ix1 i)).trans ?_
  refine Finset.sum_congr rfl fun k _ => congrArg m ?_
  funext a
  match a with
  | ⟨0, _⟩ => rfl
  | ⟨1, _⟩ => rfl

/-- The aggregate at (i, e): the weighted sum of the rows' entries in column e, divided by the weights' row sum. -/
theorem kAgg_apply (m : FVec Ideal S512x512 .f32) (xb : FVec Ideal S512x256 .bf16) (i : Fin 512) (e : Fin 256) :
    kAgg m xb (ix2 i e) = Ideal.div (∑ k : Fin 512, m (ix2 i k) * xb (ix2 k e)) (∑ k : Fin 512, m (ix2 i k)) := by
  unfold kAgg
  refine (divf_apply _ _ _).trans ?_
  refine congrArg₂ Ideal.div ?_ ?_
  · exact matmul3_apply (truncf .bf16 m bitsLt_bf16_f32) xb i e
  · exact ((colSpread_apply _ broadcasts_S512x1_S512x256 i e).trans (col_apply _ shapeCasts_S512_S512x1 i 0)).trans (rowSum_apply m i)

/-- The rectifier at an index. -/
theorem kRelu_apply (z : FVec Ideal S512x256 .f32) (j : S512x256.Idx) : kRelu z j = max (z j) (Ideal.ofBits .f32 0x00000000#32) := rfl

/-- The tail at (i, e). -/
theorem kTail_apply (g x : FVec Ideal S512x256 .f32) (w0 : FVec Ideal S256x256 .f32) (b0 : FVec Ideal S256 .f32) (w1 : FVec Ideal S256x256 .f32) (b1 : FVec Ideal S256 .f32)
    (i : Fin 512) (e : Fin 256) :
    kTail g x w0 b0 w1 b1 (ix2 i e)
      = max ((∑ k : Fin 256, max ((∑ d : Fin 256, g (ix2 i d) * w0 (ix2 d k)) + b0 (ix1 k)) (Ideal.ofBits .f32 0x00000000#32) * w1 (ix2 k e)) + b1 (ix1 e))
          (Ideal.ofBits .f32 0x00000000#32) + x (ix2 i e) := by
  unfold kTail
  refine (addf_apply _ _ _).trans ?_
  refine congrArg (· + x (ix2 i e)) ?_
  refine (kRelu_apply _ _).trans ?_
  refine congrArg (max · (Ideal.ofBits .f32 0x00000000#32)) ?_
  refine (kLin_apply _ w1 b1 i e).trans ?_
  refine congrArg (· + b1 (ix1 e)) ?_
  refine Finset.sum_congr rfl fun k _ => congrArg (· * w1 (ix2 k e)) ?_
  refine (kRelu_apply _ _).trans ?_
  exact congrArg (max · (Ideal.ofBits .f32 0x00000000#32)) (kLin_apply _ w0 b0 i k)

end Cert.Gat.Ker

end
-- ==== Proof.KerIO.lean ====
/-
  The kernel's inputs as it reads them: the identity mask (a comparison of the row and column counters), the adjacency
  block with its diagonal forced to the word of one, the diagonal constant, and the loads of the input blocks — a whole
  block reads the block itself, the slice at offset l of a stack of four reads the l-th matrix or row.
-/
import proofs.«156558_j6545530159683_2_alg».proof.Proof.Gen.KernelIdeal.Frame
import Idealize.ShloMosaic.Lib.ValueIdx
import Idealize.ShloMosaic.Lib.ValueLayout
import Idealize.ShloMosaic.Lib.Pipeline.Value

noncomputable section

namespace Cert.Gat.Ker

open Idealize.ShloMosaic Idealize.ShloMosaic.ValueIdx Cert.KernelIdeal Cert.KernelIdeal.Gen

/-! ## The identity mask -/

/-- Two counters below 2^32 have the same 32-bit word exactly when they are equal. -/
theorem ofNat32_eq_iff {a b : ℕ} (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · intro h; rw [h]

/-- The mask's bit at (i, j) is set exactly on the diagonal. -/
theorem eye_apply (i j : Fin 512) : k0_pay3 (ix2 i j) = if i = j then 1#1 else 0#1 := by
  unfold k0_pay3
  show IntOp.cmpi .eq (iota .tc S512x512 32 [0] iota_S512x512_d0_w32 (ix2 i j)) (iota .tc S512x512 32 [1] iota_S512x512_d1_w32 (ix2 i j)) = _
  rw [iota_single_apply, iota_single_apply]
  show BitVec.ofBool (BitVec.ofNat 32 i.val == BitVec.ofNat 32 j.val) = _
  have hi : i.val < 2 ^ 32 := by have := i.isLt; omega
  have hj : j.val < 2 ^ 32 := by have := j.isLt; omega
  by_cases h : i = j
  · subst h; rw [if_pos rfl, beq_self_eq_true]; rfl
  · rw [if_neg h]
    have hne : ¬ BitVec.ofNat 32 i.val = BitVec.ofNat 32 j.val := fun hh => h (Fin.ext ((ofNat32_eq_iff hi hj).mp hh))
    rw [beq_eq_false_iff_ne.mpr hne]; rfl

/-- The adjacency block with its diagonal forced to the word of one, at (i, j). -/
theorem adj_apply {F : FTy → Type} [FloatOps F] (v2 : Vec F S1x512x512 .f32) (i j : Fin 512) :
    k0_pay4 v2 (ix2 i j) = if i = j then FloatOps.ofBits .f32 0x3F800000#32 else v2 (ix3 (0 : Fin 1) i j) := by
  unfold k0_pay4
  show Scalar.select (k0_pay3 (ix2 i j)) (Scalar.ofBits .f32 0x3F800000#32) (shapeCast S512x512 v2 shapeCasts_S1x512x512_S512x512 (ix2 i j)) = _
  rw [eye_apply, shapeCast_1ab_ab_apply]
  by_cases h : i = j
  · rw [if_pos h, if_pos h, select_one]
  · rw [if_neg h, if_neg h, select_zero]

/-- The diagonal constant at (i, j). -/
theorem eps_apply {F : FTy → Type} [FloatOps F] (i j : Fin 512) :
    k0_pay5 (F := F) (ix2 i j) = if i = j then FloatOps.ofBits .f32 0x3727C5AC#32 else FloatOps.ofBits .f32 0x00000000#32 := by
  unfold k0_pay5
  show Scalar.select (k0_pay3 (ix2 i j)) (Scalar.ofBits .f32 0x3727C5AC#32) (Scalar.ofBits .f32 0x00000000#32) = _
  rw [eye_apply]
  by_cases h : i = j
  · rw [if_pos h, if_pos h, select_one]
  · rw [if_neg h, if_neg h, select_zero]

/-! ## The loads -/

theorem zeros3 : (![0, 0, 0] : Fin 3 → ℕ) = fun _ => 0 := by
  funext a; match a with | ⟨0, _⟩ => rfl | ⟨1, _⟩ => rfl | ⟨2, _⟩ => rfl
theorem zeros2 : (![0, 0] : Fin 2 → ℕ) = fun _ => 0 := by
  funext a; match a with | ⟨0, _⟩ => rfl | ⟨1, _⟩ => rfl
theorem zeros1 : (![0] : Fin 1 → ℕ) = fun _ => 0 := by
  funext a; match a with | ⟨0, _⟩ => rfl

variable {α : Type}

/-- The slice at offset o of a stack of four matrices reads, at (0, d, e), the stack at (l, d, e) with l = o. -/
theorem ldMat_apply {Val : EltTy → Type} {t : EltTy} (x : S4x256x256.Idx → Val t) (o : ℕ) (l : Fin 4) (hl : l.val = o)
    (inb : ∀ a, (![o, 0, 0] : Fin 3 → ℕ) a + S1x256x256.size a ≤ S4x256x256.size a) (d e : Fin 256) :
    View.ld x (Rect.unit (s := S4x256x256) ![o, 0, 0] S1x256x256.size inb) (ix3 (0 : Fin 1) d e) = x (ix3 l d e) := by
  show x _ = x _
  refine congrArg x (funext fun a => Fin.ext ?_)
  match a with
  | ⟨0, _⟩ => show o + 1 * 0 = l.val; omega
  | ⟨1, _⟩ => show 0 + 1 * d.val = d.val; omega
  | ⟨2, _⟩ => show 0 + 1 * e.val = e.val; omega

/-- The slice at offset o of a stack of four rows reads, at (0, e), the stack at (l, e) with l = o. -/
theorem ldRow_apply {Val : EltTy → Type} {t : EltTy} (x : S4x256.Idx → Val t) (o : ℕ) (l : Fin 4) (hl : l.val = o)
    (inb : ∀ a, (![o, 0] : Fin 2 → ℕ) a + S1x256.size a ≤ S4x256.size a) (e : Fin 256) :
    View.ld x (Rect.unit (s := S4x256) ![o, 0] S1x256.size inb) (ix2 (0 : Fin 1) e) = x (ix2 l e) := by
  show x _ = x _
  refine congrArg x (funext fun a => Fin.ext ?_)
  match a with
  | ⟨0, _⟩ => show o + 1 * 0 = l.val; omega
  | ⟨1, _⟩ => show 0 + 1 * e.val = e.val; omega

end Cert.Gat.Ker

end
-- ==== Proof.KerValue.lean ====
/-
  The kernel's output block read at an index is the network of the shared specification, first spelling.
  Each stage of a layer, read at an index, is the specification's function of the same name once its vector inputs
  are read as index families; four layers and the final affine map chain.  The weight matrices reach the kernel already
  transposed, so a weight family is read with its two indices exchanged.
-/
import proofs.«156558_j6545530159683_2_alg».proof.Proof.KerLayer
import proofs.«156558_j6545530159683_2_alg».proof.Proof.KerIO
import proofs.«156558_j6545530159683_2_alg».proof.Proof.GatSpec

noncomputable section

namespace Cert.Gat.Ker

open Idealize.ShloMosaic Idealize.ShloMosaic.ValueIdx Cert.KernelIdeal Cert.KernelIdeal.Gen
open scoped BigOperators

/-! ## The stages against the specification -/

/-- Pair scores. -/
theorem kScore_spec {xb : FVec Ideal S512x256 .bf16} {wa : FVec Ideal S256x256 .f32} {ba : FVec Ideal S256 .f32}
    {X : Mat 512 256} {Wa : Mat 256 256} {Ba : Fin 256 → EReal}
    (hx : ∀ i d, xb (ix2 i d) = X i d) (hwa : ∀ e d, wa (ix2 d e) = Wa e d) (hba : ∀ e, ba (ix1 e) = Ba e) (i j : Fin 512) :
    kScore (kLin xb wa ba) xb (ix2 i j) = score Ideal.logistic X Wa Ba i j := by
  rw [kScore_apply]
  simp only [kLin_apply, hx, hwa, hba]
  rfl

/-- Masked scores. -/
theorem kMask_spec {s a' ee : FVec Ideal S512x512 .f32} {S A : Mat 512 512}
    (hs : ∀ i j, s (ix2 i j) = S i j) (ha : ∀ i j, a' (ix2 i j) = diag1 A i j)
    (he : ∀ i j, ee (ix2 i j) = if i = j then wE else w0) (i j : Fin 512) :
    kMask s a' ee (ix2 i j) = maskK S A i j := by
  rw [kMask_apply, hs, ha, he]
  rfl

/-- Aggregation. -/
theorem kAgg_spec {m : FVec Ideal S512x512 .f32} {xb : FVec Ideal S512x256 .bf16} {P : Mat 512 512} {X : Mat 512 256}
    (hm : ∀ i j, m (ix2 i j) = P i j) (hx : ∀ i d, xb (ix2 i d) = X i d) (i : Fin 512) (d : Fin 256) :
    kAgg m xb (ix2 i d) = aggK P X i d := by
  rw [kAgg_apply]
  simp only [hm, hx]
  rfl

/-- The two rectified affine maps and the residual. -/
theorem kTail_spec {g x : FVec Ideal S512x256 .f32} {u0 : FVec Ideal S256x256 .f32} {c0 : FVec Ideal S256 .f32} {u1 : FVec Ideal S256x256 .f32} {c1 : FVec Ideal S256 .f32}
    {G X : Mat 512 256} {W0 : Mat 256 256} {B0 : Fin 256 → EReal} {W1 : Mat 256 256} {B1 : Fin 256 → EReal}
    (hg : ∀ i d, g (ix2 i d) = G i d) (hx : ∀ i d, x (ix2 i d) = X i d)
    (hw0 : ∀ e d, u0 (ix2 d e) = W0 e d) (hb0 : ∀ e, c0 (ix1 e) = B0 e) (hw1 : ∀ e d, u1 (ix2 d e) = W1 e d) (hb1 : ∀ e, c1 (ix1 e) = B1 e)
    (i : Fin 512) (e : Fin 256) :
    kTail g x u0 c0 u1 c1 (ix2 i e) = tail G X W0 B0 W1 B1 i e := by
  rw [kTail_apply]
  simp only [hg, hx, hw0, hb0, hw1, hb1]
  rfl

/-- One layer. -/
theorem kLayer_spec {x : FVec Ideal S512x256 .f32} {a' ee : FVec Ideal S512x512 .f32} {wa : FVec Ideal S256x256 .f32} {ba : FVec Ideal S256 .f32}
    {u0 : FVec Ideal S256x256 .f32} {c0 : FVec Ideal S256 .f32} {u1 : FVec Ideal S256x256 .f32} {c1 : FVec Ideal S256 .f32}
    {X : Mat 512 256} {A : Mat 512 512} {Wa : Mat 256 256} {Ba : Fin 256 → EReal} {W0 : Mat 256 256} {B0 : Fin 256 → EReal} {W1 : Mat 256 256} {B1 : Fin 256 → EReal}
    (hx : ∀ i d, x (ix2 i d) = X i d) (ha : ∀ i j, a' (ix2 i j) = diag1 A i j) (he : ∀ i j, ee (ix2 i j) = if i = j then wE else w0)
    (hwa : ∀ e d, wa (ix2 d e) = Wa e d) (hba : ∀ e, ba (ix1 e) = Ba e)
    (hw0 : ∀ e d, u0 (ix2 d e) = W0 e d) (hb0 : ∀ e, c0 (ix1 e) = B0 e) (hw1 : ∀ e d, u1 (ix2 d e) = W1 e d) (hb1 : ∀ e, c1 (ix1 e) = B1 e)
    (i : Fin 512) (e : Fin 256) :
    kLayer x a' ee wa ba u0 c0 u1 c1 (ix2 i e) = layerK X A Wa Ba W0 B0 W1 B1 i e := by
  have hxb : ∀ i d, (truncf .bf16 x bitsLt_bf16_f32 : FVec Ideal S512x256 .bf16) (ix2 i d) = X i d := fun i d => hx i d
  unfold kLayer kLayerB layerK
  exact kTail_spec (fun i d => kAgg_spec (fun i j => kMask_spec (fun i j => kScore_spec hxb hwa hba i j) ha he i j) hxb i d) hx hw0 hb0 hw1 hb1 i e

/-! ## The weights and biases as the kernel reads them -/

/-- Slice l of a stack of four matrices, with its unit axis dropped, at (d, e). -/
theorem matW (x : Vec Ideal S4x256x256 .f32) (o : ℕ) (l : Fin 4) (hl : l.val = o)
    (inb : ∀ a, (![o, 0, 0] : Fin 3 → ℕ) a + S1x256x256.size a ≤ S4x256x256.size a) (e d : Fin 256) :
    shapeCast S256x256 (View.ld x (Rect.unit (s := S4x256x256) ![o, 0, 0] S1x256x256.size inb)) shapeCasts_S1x256x256_S256x256 (ix2 d e) = x (ix3 l d e) :=
  (shapeCast_1ab_ab_apply _ shapeCasts_S1x256x256_S256x256 d e).trans (ldMat_apply x o l hl inb d e)

/-- Slice l of a stack of four rows, with its unit axis dropped, at e. -/
theorem rowB (x : Vec Ideal S4x256 .f32) (o : ℕ) (l : Fin 4) (hl : l.val = o)
    (inb : ∀ a, (![o, 0] : Fin 2 → ℕ) a + S1x256.size a ≤ S4x256.size a) (e : Fin 256) :
    shapeCast S256 (View.ld x (Rect.unit (s := S4x256) ![o, 0] S1x256.size inb)) shapeCasts_S1x256_S256 (ix1 e) = x (ix2 l e) :=
  (shapeCast_1a_a_apply _ shapeCasts_S1x256_S256 e).trans (ldRow_apply x o l hl inb e)

section SmallPayloads
variable {F : FTy → Type} [FloatOps F]
theorem pay6_eq (v : Vec F S1x256x256 .f32) : k0_pay6 v = shapeCast S256x256 v shapeCasts_S1x256x256_S256x256 := rfl
theorem pay7_eq (v : Vec F S1x256 .f32) : k0_pay7 v = shapeCast S256 v shapeCasts_S1x256_S256 := rfl
theorem pay8_eq (v : Vec F S1x256x256 .f32) : k0_pay8 v = shapeCast S256x256 v shapeCasts_S1x256x256_S256x256 := rfl
theorem pay9_eq (v : Vec F S1x256 .f32) : k0_pay9 v = shapeCast S256 v shapeCasts_S1x256_S256 := rfl
theorem pay13_eq (v : Vec F S1x256 .f32) : k0_pay13 v = shapeCast S256 v shapeCasts_S1x256_S256 := rfl
theorem pay14_eq (v : Vec F S1x256x256 .f32) : k0_pay14 v = shapeCast S256x256 v shapeCasts_S1x256x256_S256x256 := rfl
theorem pay15_eq (v : Vec F S1x256 .f32) : k0_pay15 v = shapeCast S256 v shapeCasts_S1x256_S256 := rfl
theorem pay16_eq (v : Vec F S1x256x256 .f32) : k0_pay16 v = shapeCast S256x256 v shapeCasts_S1x256x256_S256x256 := rfl
theorem pay17_eq (v : Vec F S1x256 .f32) : k0_pay17 v = shapeCast S256 v shapeCasts_S1x256_S256 := rfl
theorem pay21_eq (v : Vec F S1x256x256 .f32) : k0_pay21 v = shapeCast S256x256 v shapeCasts_S1x256x256_S256x256 := rfl
theorem pay22_eq (v : Vec F S1x256 .f32) : k0_pay22 v = shapeCast S256 v shapeCasts_S1x256_S256 := rfl
theorem pay23_eq (v : Vec F S1x256x256 .f32) : k0_pay23 v = shapeCast S256x256 v shapeCasts_S1x256x256_S256x256 := rfl
theorem pay24_eq (v : Vec F S1x256 .f32) : k0_pay24 v = shapeCast S256 v shapeCasts_S1x256_S256 := rfl
theorem pay26_eq (v : Vec F S1x256x256 .f32) : k0_pay26 v = shapeCast S256x256 v shapeCasts_S1x256x256_S256x256 := rfl
theorem pay27_eq (v : Vec F S1x256 .f32) : k0_pay27 v = shapeCast S256 v shapeCasts_S1x256_S256 := rfl
end SmallPayloads

/-! ## The output block -/

theorem kernel_block
    (x0 : Vec Ideal S1x512x256 .f32) (x1 : Vec Ideal S1x512x512 .f32) (x2 : Vec Ideal S4x256x256 .f32) (x3 : Vec Ideal S4x256 .f32)
    (x4 : Vec Ideal S4x256x256 .f32) (x5 : Vec Ideal S4x256 .f32) (x6 : Vec Ideal S4x256x256 .f32) (x7 : Vec Ideal S4x256 .f32)
    (x8 : Vec Ideal S256x256 .f32) (x9 : Vec Ideal S256 .f32) (i : Fin 512) (e : Fin 256) :
    Cert.KernelIdeal.Gen.out0_10 (F := Ideal) x0 x1 x2 x3 x4 x5 x6 x7 x8 x9 (ix3 (0 : Fin 1) i e)
      = Cert.Gat.netK (fun i d => x0 (ix3 (0 : Fin 1) i d)) (fun i j => x1 (ix3 (0 : Fin 1) i j))
          (fun l e d => x2 (ix3 l d e)) (fun l e => x3 (ix2 l e))
          (fun l e d => x4 (ix3 l d e)) (fun l e => x5 (ix2 l e))
          (fun l e d => x6 (ix3 l d e)) (fun l e => x7 (ix2 l e))
          (fun e d => x8 (ix2 d e)) (fun e => x9 (ix1 e)) i e := by
  -- the inputs as the kernel reads them
  have hX : ∀ i d, k0_pay2 (View.ld x0 r0_0) (ix2 i d) = x0 (ix3 (0 : Fin 1) i d) := fun i d => by
    rw [View.ld_unit_zero zeros3]; exact shapeCast_1ab_ab_apply x0 _ i d
  have hA : ∀ i j, k0_pay4 (View.ld x1 r0_1) (ix2 i j) = diag1 (fun i j => x1 (ix3 (0 : Fin 1) i j)) i j := fun i j => by
    rw [View.ld_unit_zero zeros3]; exact adj_apply x1 i j
  have hE : ∀ i j, k0_pay5 (F := Ideal) (ix2 i j) = if i = j then wE else w0 := fun i j => eps_apply i j
  unfold out0_10
  rw [View.canon_unit_zero zeros3]
  simp only [pay1_eq, pay28_eq, pay25_eq, pay18_eq, pay19_eq, layer0_eq, pay20_eq, pay6_eq, pay7_eq, pay8_eq, pay9_eq,
    pay13_eq, pay14_eq, pay15_eq, pay16_eq, pay17_eq, pay21_eq, pay22_eq, pay23_eq, pay24_eq, pay26_eq, pay27_eq]
  rw [shapeCast_ab_1ab_apply, kLin_apply]
  unfold netK lin
  refine congrArg₂ (· + ·) (Finset.sum_congr rfl fun k _ => congrArg₂ (· * ·) ?_ ?_) ?_
  · refine kLayer_spec (fun i d => kLayer_spec (fun i d => kLayer_spec (fun i d => kLayer_spec hX hA hE
        (matW x2 0 0 rfl _) (rowB x3 0 0 rfl _) (matW x4 0 0 rfl _) (rowB x5 0 0 rfl _) (matW x6 0 0 rfl _) (rowB x7 0 0 rfl _) i d) hA hE
        (matW x2 1 1 rfl _) (rowB x3 1 1 rfl _) (matW x4 1 1 rfl _) (rowB x5 1 1 rfl _) (matW x6 1 1 rfl _) (rowB x7 1 1 rfl _) i d) hA hE
        (matW x2 2 2 rfl _) (rowB x3 2 2 rfl _) (matW x4 2 2 rfl _) (rowB x5 2 2 rfl _) (matW x6 2 2 rfl _) (rowB x7 2 2 rfl _) i d) hA hE
        (matW x2 3 3 rfl _) (rowB x3 3 3 rfl _) (matW x4 3 3 rfl _) (rowB x5 3 3 rfl _) (matW x6 3 3 rfl _) (rowB x7 3 3 rfl _) i k
  · rw [View.ld_unit_zero zeros2, shapeCast_self]
  · rw [View.ld_unit_zero zeros1]

end Cert.Gat.Ker

end
-- ==== Proof.GatKernelRun.lean ====
/-
  From what one grid point writes to the whole result array.

  The call has one grid point per batch element.  At point `t` the feature window and the adjacency window hold batch
  element `t` of their arrays, the eight weight windows hold their whole arrays (four of them the transposed copies the
  wrapper makes before the call), and the output window writes back batch element `t` of the result.  So what point `t`
  writes is the network of batch element `t`, and since the 64 blocks tile the result array, the array ends holding,
  at `(b, p, e)`, the network of batch element `b` at `(p, e)`.
-/
import proofs.«156558_j6545530159683_2_alg».proof.Proof.Gen.KernelIdeal.Value
import proofs.«156558_j6545530159683_2_alg».proof.Proof.GatSpec
import proofs.«156558_j6545530159683_2_alg».proof.Proof.KerValue
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Gat.KRun

open Cert.KernelIdeal Cert.KernelIdeal.Gen Cert.KernelIdeal.Value

variable (m : (ℓ : Loc nD τ sig) → Buf (Elt Ideal) ℓ) (ρ : Dev nD → PrngReg)

/-- The network of every batch element, as one function of the ten argument arrays: at `(b, p, e)` the first spelling
    of the network on batch element `b` of the features and of the adjacency. -/
def G (a0 : S64x512x256.Idx → EReal) (a1 : S64x512x512.Idx → EReal) (a2 : S4x256x256.Idx → EReal) (a3 : S4x256.Idx → EReal)
    (a4 : S4x256x256.Idx → EReal) (a5 : S4x256.Idx → EReal) (a6 : S4x256x256.Idx → EReal) (a7 : S4x256.Idx → EReal)
    (a8 : S256x256.Idx → EReal) (a9 : S256.Idx → EReal) (b : Fin 64) (p : Fin 512) (e : Fin 256) : EReal :=
  Cert.Gat.netK (fun i d => a0 (ix3 b i d)) (fun i j => a1 (ix3 b i j))
    (fun l e d => a2 (ix3 l e d)) (fun l e => a3 (ix2 l e))
    (fun l e d => a4 (ix3 l e d)) (fun l e => a5 (ix2 l e))
    (fun l e d => a6 (ix3 l e d)) (fun l e => a7 (ix2 l e))
    (fun e d => a8 (ix2 e d)) (fun e => a9 (ix1 e)) p e

/-- The same as an array. -/
def GA (a0 : S64x512x256.Idx → EReal) (a1 : S64x512x512.Idx → EReal) (a2 : S4x256x256.Idx → EReal) (a3 : S4x256.Idx → EReal)
    (a4 : S4x256x256.Idx → EReal) (a5 : S4x256.Idx → EReal) (a6 : S4x256x256.Idx → EReal) (a7 : S4x256.Idx → EReal)
    (a8 : S256x256.Idx → EReal) (a9 : S256.Idx → EReal) : S64x512x256.Idx → EReal :=
  fun i => G a0 a1 a2 a3 a4 a5 a6 a7 a8 a9 (i 0) (i 1) (i 2)

/-! ## The arrays the wrapper transposes before the call -/

theorem V_v0 (c : Dev nD) : (V m c main_v0 : S4x256x256.Idx → EReal)
    = transpose S4x256x256 [0, 2, 1] (m ((c : Thread nD τ).loc main_arg2)) transposes_S4x256x256_S4x256x256_0_2_1 := by
  dsimp only [Gen.V, Gen.hostOps0]; after_results

theorem V_v1 (c : Dev nD) : (V m c main_v1 : S4x256x256.Idx → EReal)
    = transpose S4x256x256 [0, 2, 1] (m ((c : Thread nD τ).loc main_arg4)) transposes_S4x256x256_S4x256x256_0_2_1 := by
  dsimp only [Gen.V, Gen.hostOps0]; after_results

theorem V_v2 (c : Dev nD) : (V m c main_v2 : S4x256x256.Idx → EReal)
    = transpose S4x256x256 [0, 2, 1] (m ((c : Thread nD τ).loc main_arg6)) transposes_S4x256x256_S4x256x256_0_2_1 := by
  dsimp only [Gen.V, Gen.hostOps0]; after_results

theorem V_v3 (c : Dev nD) : (V m c main_v3 : S256x256.Idx → EReal)
    = transpose S256x256 [1, 0] (m ((c : Thread nD τ).loc main_arg8)) transposes_S256x256_S256x256_1_0 := by
  dsimp only [Gen.V, Gen.hostOps0]; after_results

/-- A stack of transposed matrices read at an index. -/
theorem tr3 (x : S4x256x256.Idx → EReal) (l : Fin 4) (d e : Fin 256) :
    transpose S4x256x256 [0, 2, 1] x transposes_S4x256x256_S4x256x256_0_2_1 (ix3 l d e) = x (ix3 l e d) :=
  transpose_ix3_021_apply x _ l d e

/-- A transposed matrix read at an index. -/
theorem tr2 (x : S256x256.Idx → EReal) (d e : Fin 256) :
    transpose S256x256 [1, 0] x transposes_S256x256_S256x256_1_0 (ix2 d e) = x (ix2 e d) :=
  transpose_ix2_apply x _ d e

/-! ## Where each window's block sits -/

/-- The block indices of the eleven windows at every grid point, decided over the grid: the feature, adjacency and
    output windows move along the batch axis with the point, every other index is zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 1) = 0)
    ∧ (win0_10.index t (0 : Fin 3) = t.val ∧ win0_10.index t (1 : Fin 3) = 0 ∧ win0_10.index t (2 : Fin 3) = 0) :=
  (by decide +kernel : ∀ t : Fin grid0.N, _)

/-- The batch element of a grid point. -/
def bOf (t : Fin cfg0.N) : Fin 64 := ⟨t.val, by have h := t.isLt; have hN : cfg0.N = 64 := N_0; omega⟩

theorem blk0 (c : Dev nD) (t : Fin cfg0.N) (p : Fin 512) (d : Fin 256) :
    (iblk m c 0 t : Vec Ideal S1x512x256 .f32) (ix3 (0 : Fin 1) p d) = V m c main_arg0 (ix3 (bOf t) p d) := by
  obtain ⟨⟨e0, e1, e2⟩, -⟩ := idx_facts t
  show V m c main_arg0 (((cfg0.win 0).blk t).view.emb (ix3 (0 : Fin 1) p d)) = V m c main_arg0 (ix3 (bOf t) p d)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 256 + 1 * d.val = d.val; omega

theorem blk1 (c : Dev nD) (t : Fin cfg0.N) (p q : Fin 512) :
    (iblk m c 1 t : Vec Ideal S1x512x512 .f32) (ix3 (0 : Fin 1) p q) = V m c main_arg1 (ix3 (bOf t) p q) := by
  obtain ⟨-, ⟨e0, e1, e2⟩, -⟩ := idx_facts t
  show V m c main_arg1 (((cfg0.win 1).blk t).view.emb (ix3 (0 : Fin 1) p q)) = V m c main_arg1 (ix3 (bOf t) p q)
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 512 + 1 * q.val = q.val; omega

theorem blk2 (c : Dev nD) (t : Fin cfg0.N) (l : Fin 4) (d e : Fin 256) :
    (iblk m c 2 t : Vec Ideal S4x256x256 .f32) (ix3 l d e) = V m c main_v0 (ix3 l d e) := by
  obtain ⟨-, -, ⟨e0, e1, e2⟩, -⟩ := idx_facts t
  show V m c main_v0 (((cfg0.win 2).blk t).view.emb (ix3 l d e)) = V m c main_v0 (ix3 l d e)
  refine congrArg (V m c main_v0) (funext fun a => Fin.ext ?_)
  match a with
  | ⟨0, _⟩ => show win0_2.index t (0 : Fin 3) * 4 + 1 * l.val = l.val; omega
  | ⟨1, _⟩ => show win0_2.index t (1 : Fin 3) * 256 + 1 * d.val = d.val; omega
  | ⟨2, _⟩ => show win0_2.index t (2 : Fin 3) * 256 + 1 * e.val = e.val; omega

theorem blk3 (c : Dev nD) (t : Fin cfg0.N) (l : Fin 4) (e : Fin 256) :
    (iblk m c 3 t : Vec Ideal S4x256 .f32) (ix2 l e) = V m c main_arg3 (ix2 l e) := by
  obtain ⟨-, -, -, ⟨e0, e1⟩, -⟩ := idx_facts t
  show V m c main_arg3 (((cfg0.win 3).blk t).view.emb (ix2 l e)) = V m c main_arg3 (ix2 l e)
  refine congrArg (V m c main_arg3) (funext fun a => Fin.ext ?_)
  match a with
  | ⟨0, _⟩ => show win0_3.index t (0 : Fin 2) * 4 + 1 * l.val = l.val; omega
  | ⟨1, _⟩ => show win0_3.index t (1 : Fin 2) * 256 + 1 * e.val = e.val; omega

theorem blk4 (c : Dev nD) (t : Fin cfg0.N) (l : Fin 4) (d e : Fin 256) :
    (iblk m c 4 t : Vec Ideal S4x256x256 .f32) (ix3 l d e) = V m c main_v1 (ix3 l d e) := by
  obtain ⟨-, -, -, -, ⟨e0, e1, e2⟩, -⟩ := idx_facts t
  show V m c main_v1 (((cfg0.win 4).blk t).view.emb (ix3 l d e)) = V m c main_v1 (ix3 l d e)
  refine congrArg (V m c main_v1) (funext fun a => Fin.ext ?_)
  match a with
  | ⟨0, _⟩ => show win0_4.index t (0 : Fin 3) * 4 + 1 * l.val = l.val; omega
  | ⟨1, _⟩ => show win0_4.index t (1 : Fin 3) * 256 + 1 * d.val = d.val; omega
  | ⟨2, _⟩ => show win0_4.index t (2 : Fin 3) * 256 + 1 * e.val = e.val; omega

theorem blk5 (c : Dev nD) (t : Fin cfg0.N) (l : Fin 4) (e : Fin 256) :
    (iblk m c 5 t : Vec Ideal S4x256 .f32) (ix2 l e) = V m c main_arg5 (ix2 l e) := by
  obtain ⟨-, -, -, -, -, ⟨e0, e1⟩, -⟩ := idx_facts t
  show V m c main_arg5 (((cfg0.win 5).blk t).view.emb (ix2 l e)) = V m c main_arg5 (ix2 l e)
  refine congrArg (V m c main_arg5) (funext fun a => Fin.ext ?_)
  match a with
  | ⟨0, _⟩ => show win0_5.index t (0 : Fin 2) * 4 + 1 * l.val = l.val; omega
  | ⟨1, _⟩ => show win0_5.index t (1 : Fin 2) * 256 + 1 * e.val = e.val; omega

theorem blk6 (c : Dev nD) (t : Fin cfg0.N) (l : Fin 4) (d e : Fin 256) :
    (iblk m c 6 t : Vec Ideal S4x256x256 .f32) (ix3 l d e) = V m c main_v2 (ix3 l d e) := by
  obtain ⟨-, -, -, -, -, -, ⟨e0, e1, e2⟩, -⟩ := idx_facts t
  show V m c main_v2 (((cfg0.win 6).blk t).view.emb (ix3 l d e)) = V m c main_v2 (ix3 l d e)
  refine congrArg (V m c main_v2) (funext fun a => Fin.ext ?_)
  match a with
  | ⟨0, _⟩ => show win0_6.index t (0 : Fin 3) * 4 + 1 * l.val = l.val; omega
  | ⟨1, _⟩ => show win0_6.index t (1 : Fin 3) * 256 + 1 * d.val = d.val; omega
  | ⟨2, _⟩ => show win0_6.index t (2 : Fin 3) * 256 + 1 * e.val = e.val; omega

theorem blk7 (c : Dev nD) (t : Fin cfg0.N) (l : Fin 4) (e : Fin 256) :
    (iblk m c 7 t : Vec Ideal S4x256 .f32) (ix2 l e) = V m c main_arg7 (ix2 l e) := by
  obtain ⟨-, -, -, -, -, -, -, ⟨e0, e1⟩, -⟩ := idx_facts t
  show V m c main_arg7 (((cfg0.win 7).blk t).view.emb (ix2 l e)) = V m c main_arg7 (ix2 l e)
  refine congrArg (V m c main_arg7) (funext fun a => Fin.ext ?_)
  match a with
  | ⟨0, _⟩ => show win0_7.index t (0 : Fin 2) * 4 + 1 * l.val = l.val; omega
  | ⟨1, _⟩ => show win0_7.index t (1 : Fin 2) * 256 + 1 * e.val = e.val; omega

theorem blk8 (c : Dev nD) (t : Fin cfg0.N) (d e : Fin 256) :
    (iblk m c 8 t : Vec Ideal S256x256 .f32) (ix2 d e) = V m c main_v3 (ix2 d e) := by
  obtain ⟨-, -, -, -, -, -, -, -, ⟨e0, e1⟩, -⟩ := idx_facts t
  show V m c main_v3 (((cfg0.win 8).blk t).view.emb (ix2 d e)) = V m c main_v3 (ix2 d e)
  refine congrArg (V m c main_v3) (funext fun a => Fin.ext ?_)
  match a with
  | ⟨0, _⟩ => show win0_8.index t (0 : Fin 2) * 256 + 1 * d.val = d.val; omega
  | ⟨1, _⟩ => show win0_8.index t (1 : Fin 2) * 256 + 1 * e.val = e.val; omega

theorem blk9 (c : Dev nD) (t : Fin cfg0.N) (e : Fin 256) :
    (iblk m c 9 t : Vec Ideal S256 .f32) (ix1 e) = V m c main_arg9 (ix1 e) := by
  obtain ⟨-, -, -, -, -, -, -, -, -, e0, -⟩ := idx_facts t
  show V m c main_arg9 (((cfg0.win 9).blk t).view.emb (ix1 e)) = V m c main_arg9 (ix1 e)
  refine congrArg (V m c main_arg9) (funext fun a => Fin.ext ?_)
  match a with
  | ⟨0, _⟩ => show win0_9.index t (0 : Fin 1) * 256 + 1 * e.val = e.val; omega

/-- Where an element of the output window's block at point `t` sits in the result array. -/
theorem emb10 (t : Fin cfg0.N) (p : Fin 512) (e : Fin 256) :
    ((cfg0.win 10).blk t).view.emb (ix3 (0 : Fin 1) p e) = ix3 (bOf t) p e := by
  obtain ⟨-, -, -, -, -, -, -, -, -, -, e0, e1, e2⟩ := idx_facts t
  refine funext fun a => Fin.ext ?_
  match a with
  | ⟨0, _⟩ => show win0_10.index t (0 : Fin 3) * 1 + 1 * 0 = t.val; omega
  | ⟨1, _⟩ => show win0_10.index t (1 : Fin 3) * 512 + 1 * p.val = p.val; omega
  | ⟨2, _⟩ => show win0_10.index t (2 : Fin 3) * 256 + 1 * e.val = e.val; omega

/-! ## What a point writes, the cover, the array -/

/-- The array the kernel's run leaves, in terms of the arrays as the call finds them: the network on the argument arrays
    (the four transposed copies read back through the transposition). -/
abbrev GV (c : Dev nD) : S64x512x256.Idx → EReal :=
  GA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- What point `t` writes back is block `t` of that array. -/
theorem flushed_eq (c : Dev nD) (t : Fin cfg0.N) :
    (dats m 0 c).flushed 10 t = ((cfg0.win 10).blk t).view.read (Elt Ideal) (GV m c) := by
  rw [Value.flushed10]
  funext y
  obtain ⟨u, p, e, rfl⟩ : ∃ (u : Fin 1) (p : Fin 512) (e : Fin 256), y = ix3 u p e := ⟨y 0, y 1, y 2, eq_ix3 y⟩
  obtain rfl : u = 0 := Subsingleton.elim _ _
  show out0_10 (iblk m c 0 t) (iblk m c 1 t) (iblk m c 2 t) (iblk m c 3 t) (iblk m c 4 t) (iblk m c 5 t) (iblk m c 6 t)
      (iblk m c 7 t) (iblk m c 8 t) (iblk m c 9 t) (ix3 (0 : Fin 1) p e)
    = GV m c (((cfg0.win 10).blk t).view.emb (ix3 (0 : Fin 1) p e))
  rw [emb10 t p e]
  refine (Cert.Gat.Ker.kernel_block (iblk m c 0 t) (iblk m c 1 t) (iblk m c 2 t) (iblk m c 3 t) (iblk m c 4 t) (iblk m c 5 t)
    (iblk m c 6 t) (iblk m c 7 t) (iblk m c 8 t) (iblk m c 9 t) p e).trans ?_
  show _ = G _ _ _ _ _ _ _ _ _ _ (bOf t) p e
  unfold G
  have t2 : ∀ (l : Fin 4) (d e : Fin 256), transpose S4x256x256 [0, 2, 1] (m ((c : Thread nD τ).loc main_arg2))
      transposes_S4x256x256_S4x256x256_0_2_1 (ix3 l d e) = m ((c : Thread nD τ).loc main_arg2) (ix3 l e d) := fun l d e => tr3 _ l d e
  have t4 : ∀ (l : Fin 4) (d e : Fin 256), transpose S4x256x256 [0, 2, 1] (m ((c : Thread nD τ).loc main_arg4))
      transposes_S4x256x256_S4x256x256_0_2_1 (ix3 l d e) = m ((c : Thread nD τ).loc main_arg4) (ix3 l e d) := fun l d e => tr3 _ l d e
  have t6 : ∀ (l : Fin 4) (d e : Fin 256), transpose S4x256x256 [0, 2, 1] (m ((c : Thread nD τ).loc main_arg6))
      transposes_S4x256x256_S4x256x256_0_2_1 (ix3 l d e) = m ((c : Thread nD τ).loc main_arg6) (ix3 l e d) := fun l d e => tr3 _ l d e
  have t8 : ∀ (d e : Fin 256), transpose S256x256 [1, 0] (m ((c : Thread nD τ).loc main_arg8))
      transposes_S256x256_S256x256_1_0 (ix2 d e) = m ((c : Thread nD τ).loc main_arg8) (ix2 e d) := fun d e => tr2 _ d e
  simp only [t2, t4, t6, t8, blk0 m c t, blk1 m c t, blk2 m c t, blk3 m c t, blk4 m c t, blk5 m c t, blk6 m c t, blk7 m c t, blk8 m c t, blk9 m c t,
    V_v0 m c, V_v1 m c, V_v2 m c, V_v3 m c,
    V_main_arg0 m c, V_main_arg1 m c, V_main_arg3 m c, V_main_arg5 m c, V_main_arg7 m c, V_main_arg9 m c]

/-- Every index of the result array is in the block of the point of its batch element. -/
theorem cover (i : S64x512x256.Idx) :
    ∃ t : Fin cfg0.N, (cfg0.win 10).flush t = true ∧ i ∈ ((cfg0.win 10).blk t).view.set := by
  have hN : cfg0.N = 64 := N_0
  have h0 : (i 0).val < 64 := (i 0).isLt
  have h1 : (i 1).val < 512 := (i 1).isLt
  have h2 : (i 2).val < 256 := (i 2).isLt
  let t : Fin cfg0.N := ⟨(i 0).val, by rw [hN]; exact h0⟩
  obtain ⟨-, -, -, -, -, -, -, -, -, -, e0, e1, e2⟩ := idx_facts t
  refine ⟨t, flush0_10 t, ?_⟩
  show i ∈ ((View.whole main_v4).slice (win0_10.rect t)).set
  rw [View.set_slice_whole, Rect.mem_set_unit]
  intro a
  match a with
  | ⟨0, _⟩ => show win0_10.index t (0 : Fin 3) * 1 ≤ (i 0).val ∧ (i 0).val < win0_10.index t (0 : Fin 3) * 1 + 1
              rw [e0]; show (i 0).val * 1 ≤ (i 0).val ∧ (i 0).val < (i 0).val * 1 + 1; omega
  | ⟨1, _⟩ => show win0_10.index t (1 : Fin 3) * 512 ≤ (i 1).val ∧ (i 1).val < win0_10.index t (1 : Fin 3) * 512 + 512
              omega
  | ⟨2, _⟩ => show win0_10.index t (2 : Fin 3) * 256 ≤ (i 2).val ∧ (i 2).val < win0_10.index t (2 : Fin 3) * 256 + 256
              omega

/-- The result array after the run. -/
theorem final (c : Dev nD) : (dats m 0 c).arrAt 10 cfg0.N = GV m c :=
  (dats m 0 c).arrAt_eq_of_cover 10 (GV m c) (fun t _ => flushed_eq m c t) cover

/-- The kernel's run: the result array holds the network of every batch element, the arguments are unchanged. -/
theorem run : θ_run defs (onTc (τ := τ) (main (F := Ideal))) ⟨m, fun _ => 0, ρ⟩ fun r => ∀ c : Dev nD,
      r.2.mem ((c : Thread nD τ).loc main_v4) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.Gat.KRun

end
-- ==== Proof.RefCommon.lean ====
/-
  The two arrays every layer of the reference shares, read at an index: the identity matrix built from two iotas and a
  comparison, and the adjacency array with its diagonal forced to the word of one.
-/
import proofs.«156558_j6545530159683_2_alg».proof.Proof.ReadP
import proofs.«156558_j6545530159683_2_alg».proof.Proof.GatSpec
import Idealize.ShloMosaic.Lib.ValueIdx
import Idealize.ShloMosaic.PureOps.Ideal.Laws

noncomputable section

namespace Cert.Gat.Ref

open Idealize.ShloMosaic Idealize.ShloMosaic.ValueIdx Cert.ReferenceIdeal Cert.ReferenceIdeal.ReadP

/-- Two row/column numbers below 512 have the same 32-bit word exactly when they are equal. -/
theorem ofNat32_inj (i j : Fin 512) : BitVec.ofNat 32 i.val = BitVec.ofNat 32 j.val ↔ i = j := by
  constructor
  · intro h
    have h' := congrArg BitVec.toNat h
    rw [BitVec.toNat_ofNat, BitVec.toNat_ofNat] at h'
    have hi := i.isLt
    have hj := j.isLt
    exact Fin.ext (by omega)
  · intro h; rw [h]

/-- The identity matrix: the conversion of the bit `row + 0 = column` is one on the diagonal and zero off it. -/
theorem eye_at (i j : Fin 512) :
    val_main_v5 (F := Ideal) (ix2 i j) = if i = j then (1 : EReal) else 0 := by
  rw [val_main_v5_apply, val_main_v4_apply, val_main_v3_apply, val_main_v2_apply, val_main_c_apply, val_main_v0_apply,
    val_main_v1_apply]
  show (((IntOp.cmpi .eq (IntOp.addi (BitVec.ofNat 32 i.val) 0#32) (BitVec.ofNat 32 j.val)).toNat : ℝ) : EReal) = _
  have h : IntOp.cmpi .eq (IntOp.addi (BitVec.ofNat 32 i.val) 0#32) (BitVec.ofNat 32 j.val)
      = if i = j then 1#1 else 0#1 := by
    unfold IntOp.cmpi IntOp.addi
    rw [BitVec.add_zero]
    by_cases hij : i = j
    · rw [if_pos hij, hij]; simp
    · rw [if_neg hij]
      have hne : BitVec.ofNat 32 i.val ≠ BitVec.ofNat 32 j.val := fun h => hij ((ofNat32_inj i j).mp h)
      show BitVec.ofBool (BitVec.ofNat 32 i.val == BitVec.ofNat 32 j.val) = 0#1
      rw [beq_false_of_ne hne]
      rfl
  rw [h]
  by_cases hij : i = j
  · rw [if_pos hij, if_pos hij]; simp
  · rw [if_neg hij, if_neg hij]; simp

/-- The adjacency array after the select on `identity > 0.0`: the word of one on the diagonal, the input elsewhere. -/
theorem adj_at (x1 : (⟨S64x512x512, .f32⟩ : BufTy).Contents (Elt Ideal)) (b : Fin 64) (i j : Fin 512) :
    val_main_v9 (F := Ideal) x1 (ix3 b i j) = Cert.Gat.diag1 (fun i j => x1 (ix3 b i j)) i j := by
  rw [val_main_v9_apply, val_main_call0_v0_apply, val_main_v8_apply, val_main_v6_apply, val_main_v7_apply,
    val_main_cst_apply, val_main_call0_v1_apply, val_main_cst_0_apply]
  have hidx : idx_main_v6 (idx_main_call0_v0 (ix3 b i j)) = ix2 i j :=
    funext fun a => by match a with | ⟨0, _⟩ => rfl | ⟨1, _⟩ => rfl
  rw [hidx, eye_at]
  unfold Cert.Gat.diag1
  by_cases hij : i = j
  · rw [if_pos hij, if_pos hij]
    have hc : FloatOps.cmpf (F := Ideal) (φ := .f32) .ogt (1 : EReal) (FloatOps.ofBits .f32 0x00000000#32) = 1#1 := by
      show Ideal.cmp .ogt (1 : EReal) (Ideal.ofBits .f32 0x00000000#32) = 1#1
      rw [Ideal.ofBits_zero_f32]; simp [Ideal.cmp]
    rw [hc]; rfl
  · rw [if_neg hij, if_neg hij]
    have hc : FloatOps.cmpf (F := Ideal) (φ := .f32) .ogt (0 : EReal) (FloatOps.ofBits .f32 0x00000000#32) = 0#1 := by
      show Ideal.cmp .ogt (0 : EReal) (Ideal.ofBits .f32 0x00000000#32) = 0#1
      rw [Ideal.ofBits_zero_f32]; simp [Ideal.cmp]
    rw [hc]; rfl

end Cert.Gat.Ref

end
-- ==== Proof.RefLayer0.lean ====
/-
  Layer 0 of the reference (operations %10 to %54) read at an index, stage by stage, and its value as the second
  spelling of a layer (`Cert.Gat.layerR`) of the input features.
-/
import proofs.«156558_j6545530159683_2_alg».proof.Proof.ReadP
import proofs.«156558_j6545530159683_2_alg».proof.Proof.GatSpec
import proofs.«156558_j6545530159683_2_alg».proof.Proof.RefCommon
import Idealize.ShloMosaic.Lib.ValueIdx
import Idealize.ShloMosaic.PureOps.Ideal.Laws

noncomputable section

namespace Cert.Gat.Ref.L0

open Idealize.ShloMosaic Idealize.ShloMosaic.ValueIdx Cert.ReferenceIdeal Cert.ReferenceIdeal.ReadP

variable (x0 : (⟨S64x512x256, .f32⟩ : BufTy).Contents (Elt Ideal)) (x1 : (⟨S64x512x512, .f32⟩ : BufTy).Contents (Elt Ideal)) (x2 : (⟨S4x256x256, .f32⟩ : BufTy).Contents (Elt Ideal)) (x3 : (⟨S4x256, .f32⟩ : BufTy).Contents (Elt Ideal)) (x4 : (⟨S4x256x256, .f32⟩ : BufTy).Contents (Elt Ideal)) (x5 : (⟨S4x256, .f32⟩ : BufTy).Contents (Elt Ideal)) (x6 : (⟨S4x256x256, .f32⟩ : BufTy).Contents (Elt Ideal)) (x7 : (⟨S4x256, .f32⟩ : BufTy).Contents (Elt Ideal))

/-- The layer's slice of a weight array, reshaped to a matrix, read at an index. -/
theorem wa_at (e d : Fin 256) : val_main_v11 (F := Ideal) x2 (ix2 e d) = x2 (ix3 (0 : Fin 4) e d) := by
  rw [val_main_v11_apply, val_main_v10_apply]
  refine congrArg x2 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem ba_at (b : Fin 64) (i : Fin 512) (e : Fin 256) : val_main_v16 (F := Ideal) x3 (ix3 b i e) = x3 (ix2 (0 : Fin 4) e) := by
  rw [val_main_v16_apply, val_main_v15_apply, val_main_v14_apply, val_main_v13_apply]
  refine congrArg x3 (funext fun a => Fin.ext ?_)
  have he := e.isLt
  match a with
  | ⟨0, _⟩ => rfl
  | ⟨1, _⟩ => show e.val % 256 = e.val; omega

/-- The queries: the affine map of the layer's input. -/
theorem q_at (b : Fin 64) (i : Fin 512) (e : Fin 256) :
    val_main_v17 (F := Ideal) x0 x2 x3 (ix3 b i e) = Cert.Gat.lin (fun i d => x0 (ix3 b i d)) (fun e d => x2 (ix3 (0 : Fin 4) e d)) (fun e => x3 (ix2 (0 : Fin 4) e)) i e := by
  rw [val_main_v17_apply, val_main_v12_apply, ba_at, Ideal.addf_def]
  unfold Cert.Gat.lin
  refine congrArg (· + _) (Finset.sum_congr rfl fun k _ => ?_)
  have hl : lidx_main_v12 (ix3 b i e) k = ix3 b i k := funext fun a => by match a with | ⟨0, _⟩ => rfl | ⟨1, _⟩ => rfl | ⟨2, _⟩ => rfl
  have hr : ridx_main_v12 (ix3 b i e) k = ix2 e k := funext fun a => by match a with | ⟨0, _⟩ => rfl | ⟨1, _⟩ => rfl
  rw [hl, hr, wa_at] <;> rfl

/-- The pair scores before squashing: the inner product of a query row with a feature row. -/
theorem s_at (b : Fin 64) (i j : Fin 512) :
    val_main_v18 (F := Ideal) x0 x2 x3 (ix3 b i j) = ∑ d : Fin 256, Cert.Gat.lin (fun i d => x0 (ix3 b i d)) (fun e d => x2 (ix3 (0 : Fin 4) e d)) (fun e => x3 (ix2 (0 : Fin 4) e)) i d * x0 (ix3 b j d) := by
  rw [val_main_v18_apply]
  refine Finset.sum_congr rfl fun k _ => ?_
  have hl : lidx_main_v18 (ix3 b i j) k = ix3 b i k := funext fun a => by match a with | ⟨0, _⟩ => rfl | ⟨1, _⟩ => rfl | ⟨2, _⟩ => rfl
  have hr : ridx_main_v18 (ix3 b i j) k = ix3 b j k := funext fun a => by match a with | ⟨0, _⟩ => rfl | ⟨1, _⟩ => rfl | ⟨2, _⟩ => rfl
  rw [hl, hr, q_at]

/-- The squashed scores: negate, exponential, add the word of one, divide the word of one by it. -/
theorem sig_at (b : Fin 64) (i j : Fin 512) :
    val_main_v24 (F := Ideal) x0 x2 x3 (ix3 b i j) = Cert.Gat.score Cert.Gat.sigW (fun i d => x0 (ix3 b i d)) (fun e d => x2 (ix3 (0 : Fin 4) e d)) (fun e => x3 (ix2 (0 : Fin 4) e)) i j := by
  rw [val_main_v24_apply, val_main_v23_apply, val_main_cst_2_apply, val_main_v22_apply, val_main_v21_apply, val_main_cst_1_apply, val_main_v20_apply, val_main_v19_apply, s_at] <;> rfl

/-- The diagonal constant times the identity matrix, broadcast over the batch. -/
theorem eps_at (b : Fin 64) (i j : Fin 512) :
    val_main_v28 (F := Ideal) (ix3 b i j) = Cert.Gat.wE * (if i = j then (1 : EReal) else 0) := by
  rw [val_main_v28_apply, val_main_v27_apply, val_main_v26_apply, val_main_v25_apply, val_main_cst_3_apply]
  have hidx : idx_main_v27 (idx_main_v28 (ix3 b i j)) = ix2 i j := funext fun a => by match a with | ⟨0, _⟩ => rfl | ⟨1, _⟩ => rfl
  rw [hidx, Cert.Gat.Ref.eye_at] <;> rfl

/-- The masked scores. -/
theorem mask_at (b : Fin 64) (i j : Fin 512) :
    val_main_v30 (F := Ideal) x0 x1 x2 x3 (ix3 b i j) = (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) i j := by
  rw [val_main_v30_apply, val_main_v29_apply, sig_at, eps_at, Cert.Gat.Ref.adj_at] <;> rfl

/-- The row sums of the masked scores, taken from the zero word. -/
theorem rowsum_at (b : Fin 64) (i : Fin 512) :
    val_main_v31 (F := Ideal) x0 x1 x2 x3 (ix2 b i) = Cert.Gat.w0 + ∑ k : Fin 512, (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) i k := by
  rw [val_main_v31_apply, val_main_cst_4_apply]
  refine congrArg (Cert.Gat.w0 + ·) (Finset.sum_congr rfl fun k _ => ?_)
  have hidx : idx_main_v31 (ix2 b i) k = ix3 b i k := funext fun a => by match a with | ⟨0, _⟩ => rfl | ⟨1, _⟩ => rfl | ⟨2, _⟩ => rfl
  rw [hidx, mask_at]

/-- The normalised scores: each masked score divided by its row's sum. -/
theorem norm_at (b : Fin 64) (i j : Fin 512) :
    val_main_v34 (F := Ideal) x0 x1 x2 x3 (ix3 b i j) = Ideal.div ((Cert.Gat.maskR (Cert.Gat.score Cert.Gat.sigW (fun i d => x0 (ix3 b i d)) (fun e d => x2 (ix3 (0 : Fin 4) e d)) (fun e => x3 (ix2 (0 : Fin 4) e))) (fun i j => x1 (ix3 b i j))) i j) (Cert.Gat.w0 + ∑ k : Fin 512, (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) i k) := by
  rw [val_main_v34_apply, val_main_v33_apply, val_main_v32_apply, mask_at]
  have hidx : idx_main_v32 (idx_main_v33 (ix3 b i j)) = ix2 b i := funext fun a => by match a with | ⟨0, _⟩ => rfl | ⟨1, _⟩ => rfl
  rw [hidx, rowsum_at] <;> rfl

/-- The aggregate: the normalised scores times the feature rows. -/
theorem agg_at (b : Fin 64) (i : Fin 512) (d : Fin 256) :
    val_main_v35 (F := Ideal) x0 x1 x2 x3 (ix3 b i d) = (Cert.Gat.aggR (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) (fun i d => x0 (ix3 b i d))) i d := by
  rw [val_main_v35_apply]
  unfold Cert.Gat.aggR
  refine Finset.sum_congr rfl fun k _ => ?_
  have hl : lidx_main_v35 (ix3 b i d) k = ix3 b i k := funext fun a => by match a with | ⟨0, _⟩ => rfl | ⟨1, _⟩ => rfl | ⟨2, _⟩ => rfl
  have hr : ridx_main_v35 (ix3 b i d) k = ix3 b k d := funext fun a => by match a with | ⟨0, _⟩ => rfl | ⟨1, _⟩ => rfl | ⟨2, _⟩ => rfl
  rw [hl, hr, norm_at]

/-- The layer's slice of a weight array, reshaped to a matrix, read at an index. -/
theorem w0_at (e d : Fin 256) : val_main_v37 (F := Ideal) x4 (ix2 e d) = x4 (ix3 (0 : Fin 4) e d) := by
  rw [val_main_v37_apply, val_main_v36_apply]
  refine congrArg x4 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b0_at (b : Fin 64) (i : Fin 512) (e : Fin 256) : val_main_v42 (F := Ideal) x5 (ix3 b i e) = x5 (ix2 (0 : Fin 4) e) := by
  rw [val_main_v42_apply, val_main_v41_apply, val_main_v40_apply, val_main_v39_apply]
  refine congrArg x5 (funext fun a => Fin.ext ?_)
  have he := e.isLt
  match a with
  | ⟨0, _⟩ => rfl
  | ⟨1, _⟩ => show e.val % 256 = e.val; omega

/-- The first affine map of the layer's tail, on the aggregate. -/
theorem z0_at (b : Fin 64) (i : Fin 512) (e : Fin 256) :
    val_main_v43 (F := Ideal) x0 x1 x2 x3 x4 x5 (ix3 b i e) = Cert.Gat.lin (Cert.Gat.aggR (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) (fun i d => x0 (ix3 b i d))) (fun e d => x4 (ix3 (0 : Fin 4) e d)) (fun e => x5 (ix2 (0 : Fin 4) e)) i e := by
  rw [val_main_v43_apply, val_main_v38_apply, b0_at, Ideal.addf_def]
  unfold Cert.Gat.lin
  refine congrArg (· + _) (Finset.sum_congr rfl fun k _ => ?_)
  have hl : lidx_main_v38 (ix3 b i e) k = ix3 b i k := funext fun a => by match a with | ⟨0, _⟩ => rfl | ⟨1, _⟩ => rfl | ⟨2, _⟩ => rfl
  have hr : ridx_main_v38 (ix3 b i e) k = ix2 e k := funext fun a => by match a with | ⟨0, _⟩ => rfl | ⟨1, _⟩ => rfl
  rw [hl, hr, w0_at, agg_at] <;> rfl

/-- The first rectifier. -/
theorem h0_at (b : Fin 64) (i : Fin 512) (e : Fin 256) :
    val_main_v44 (F := Ideal) x0 x1 x2 x3 x4 x5 (ix3 b i e) = Cert.Gat.relu (Cert.Gat.lin (Cert.Gat.aggR (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) (fun i d => x0 (ix3 b i d))) (fun e d => x4 (ix3 (0 : Fin 4) e d)) (fun e => x5 (ix2 (0 : Fin 4) e)) i e) := by
  rw [val_main_v44_apply, val_main_call1_v0_apply, val_main_call1_cst_apply, z0_at, Ideal.maximumf_def, Ideal.ofBits_def] <;> rfl

/-- The layer's slice of a weight array, reshaped to a matrix, read at an index. -/
theorem w1_at (e d : Fin 256) : val_main_v46 (F := Ideal) x6 (ix2 e d) = x6 (ix3 (0 : Fin 4) e d) := by
  rw [val_main_v46_apply, val_main_v45_apply]
  refine congrArg x6 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b1_at (b : Fin 64) (i : Fin 512) (e : Fin 256) : val_main_v51 (F := Ideal) x7 (ix3 b i e) = x7 (ix2 (0 : Fin 4) e) := by
  rw [val_main_v51_apply, val_main_v50_apply, val_main_v49_apply, val_main_v48_apply]
  refine congrArg x7 (funext fun a => Fin.ext ?_)
  have he := e.isLt
  match a with
  | ⟨0, _⟩ => rfl
  | ⟨1, _⟩ => show e.val % 256 = e.val; omega

/-- The second affine map of the layer's tail. -/
theorem z1_at (b : Fin 64) (i : Fin 512) (e : Fin 256) :
    val_main_v52 (F := Ideal) x0 x1 x2 x3 x4 x5 x6 x7 (ix3 b i e) = Cert.Gat.lin (fun i e => Cert.Gat.relu (Cert.Gat.lin (Cert.Gat.aggR (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) (fun i d => x0 (ix3 b i d))) (fun e d => x4 (ix3 (0 : Fin 4) e d)) (fun e => x5 (ix2 (0 : Fin 4) e)) i e)) (fun e d => x6 (ix3 (0 : Fin 4) e d)) (fun e => x7 (ix2 (0 : Fin 4) e)) i e := by
  rw [val_main_v52_apply, val_main_v47_apply, b1_at, Ideal.addf_def]
  unfold Cert.Gat.lin
  refine congrArg (· + _) (Finset.sum_congr rfl fun k _ => ?_)
  have hl : lidx_main_v47 (ix3 b i e) k = ix3 b i k := funext fun a => by match a with | ⟨0, _⟩ => rfl | ⟨1, _⟩ => rfl | ⟨2, _⟩ => rfl
  have hr : ridx_main_v47 (ix3 b i e) k = ix2 e k := funext fun a => by match a with | ⟨0, _⟩ => rfl | ⟨1, _⟩ => rfl
  rw [hl, hr, w1_at, h0_at] <;> rfl

/-- The second rectifier. -/
theorem h1_at (b : Fin 64) (i : Fin 512) (e : Fin 256) :
    val_main_v53 (F := Ideal) x0 x1 x2 x3 x4 x5 x6 x7 (ix3 b i e) = Cert.Gat.relu (Cert.Gat.lin (fun i e => Cert.Gat.relu (Cert.Gat.lin (Cert.Gat.aggR (Cert.Gat.maskR (Cert.Gat.score Cert.Gat.sigW (fun i d => x0 (ix3 b i d)) (fun e d => x2 (ix3 (0 : Fin 4) e d)) (fun e => x3 (ix2 (0 : Fin 4) e))) (fun i j => x1 (ix3 b i j))) (fun i d => x0 (ix3 b i d))) (fun e d => x4 (ix3 (0 : Fin 4) e d)) (fun e => x5 (ix2 (0 : Fin 4) e)) i e)) (fun e d => x6 (ix3 (0 : Fin 4) e d)) (fun e => x7 (ix2 (0 : Fin 4) e)) i e) := by
  rw [val_main_v53_apply, val_main_call2_v0_apply, val_main_call2_cst_apply, z1_at, Ideal.maximumf_def, Ideal.ofBits_def] <;> rfl

/-- THE LAYER: its value at an index is the second spelling of a layer of its input. -/
theorem layer_at (b : Fin 64) (i : Fin 512) (e : Fin 256) :
    val_main_v54 (F := Ideal) x0 x1 x2 x3 x4 x5 x6 x7 (ix3 b i e) = Cert.Gat.layerR (fun i d => x0 (ix3 b i d)) (fun i j => x1 (ix3 b i j)) (fun e d => x2 (ix3 (0 : Fin 4) e d)) (fun e => x3 (ix2 (0 : Fin 4) e)) (fun e d => x4 (ix3 (0 : Fin 4) e d)) (fun e => x5 (ix2 (0 : Fin 4) e)) (fun e d => x6 (ix3 (0 : Fin 4) e d)) (fun e => x7 (ix2 (0 : Fin 4) e)) i e := by
  rw [val_main_v54_apply, h1_at, Ideal.addf_def] <;> rfl

end Cert.Gat.Ref.L0

end
-- ==== Proof.RefLayer1.lean ====
/-
  Layer 1 of the reference (operations %55 to %99) read at an index, stage by stage, and its value as the second
  spelling of a layer (`Cert.Gat.layerR`) of the previous layer's value.
-/
import proofs.«156558_j6545530159683_2_alg».proof.Proof.ReadP
import proofs.«156558_j6545530159683_2_alg».proof.Proof.GatSpec
import proofs.«156558_j6545530159683_2_alg».proof.Proof.RefCommon
import Idealize.ShloMosaic.Lib.ValueIdx
import Idealize.ShloMosaic.PureOps.Ideal.Laws

noncomputable section

namespace Cert.Gat.Ref.L1

open Idealize.ShloMosaic Idealize.ShloMosaic.ValueIdx Cert.ReferenceIdeal Cert.ReferenceIdeal.ReadP

variable (x0 : (⟨S64x512x256, .f32⟩ : BufTy).Contents (Elt Ideal)) (x1 : (⟨S64x512x512, .f32⟩ : BufTy).Contents (Elt Ideal)) (x2 : (⟨S4x256x256, .f32⟩ : BufTy).Contents (Elt Ideal)) (x3 : (⟨S4x256, .f32⟩ : BufTy).Contents (Elt Ideal)) (x4 : (⟨S4x256x256, .f32⟩ : BufTy).Contents (Elt Ideal)) (x5 : (⟨S4x256, .f32⟩ : BufTy).Contents (Elt Ideal)) (x6 : (⟨S4x256x256, .f32⟩ : BufTy).Contents (Elt Ideal)) (x7 : (⟨S4x256, .f32⟩ : BufTy).Contents (Elt Ideal))

/-- The layer's slice of a weight array, reshaped to a matrix, read at an index. -/
theorem wa_at (e d : Fin 256) : val_main_v56 (F := Ideal) x2 (ix2 e d) = x2 (ix3 (1 : Fin 4) e d) := by
  rw [val_main_v56_apply, val_main_v55_apply]
  refine congrArg x2 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem ba_at (b : Fin 64) (i : Fin 512) (e : Fin 256) : val_main_v61 (F := Ideal) x3 (ix3 b i e) = x3 (ix2 (1 : Fin 4) e) := by
  rw [val_main_v61_apply, val_main_v60_apply, val_main_v59_apply, val_main_v58_apply]
  refine congrArg x3 (funext fun a => Fin.ext ?_)
  have he := e.isLt
  match a with
  | ⟨0, _⟩ => rfl
  | ⟨1, _⟩ => show e.val % 256 = e.val; omega

/-- The queries: the affine map of the layer's input. -/
theorem q_at (b : Fin 64) (i : Fin 512) (e : Fin 256) :
    val_main_v62 (F := Ideal) x0 x1 x2 x3 x4 x5 x6 x7 (ix3 b i e) = Cert.Gat.lin (fun i d => (val_main_v54 (F := Ideal) x0 x1 x2 x3 x4 x5 x6 x7) (ix3 b i d)) (fun e d => x2 (ix3 (1 : Fin 4) e d)) (fun e => x3 (ix2 (1 : Fin 4) e)) i e := by
  rw [val_main_v62_apply, val_main_v57_apply, ba_at, Ideal.addf_def]
  unfold Cert.Gat.lin
  refine congrArg (· + _) (Finset.sum_congr rfl fun k _ => ?_)
  have hl : lidx_main_v57 (ix3 b i e) k = ix3 b i k := funext fun a => by match a with | ⟨0, _⟩ => rfl | ⟨1, _⟩ => rfl | ⟨2, _⟩ => rfl
  have hr : ridx_main_v57 (ix3 b i e) k = ix2 e k := funext fun a => by match a with | ⟨0, _⟩ => rfl | ⟨1, _⟩ => rfl
  rw [hl, hr, wa_at] <;> rfl

/-- The pair scores before squashing: the inner product of a query row with a feature row. -/
theorem s_at (b : Fin 64) (i j : Fin 512) :
    val_main_v63 (F := Ideal) x0 x1 x2 x3 x4 x5 x6 x7 (ix3 b i j) = ∑ d : Fin 256, Cert.Gat.lin (fun i d => (val_main_v54 (F := Ideal) x0 x1 x2 x3 x4 x5 x6 x7) (ix3 b i d)) (fun e d => x2 (ix3 (1 : Fin 4) e d)) (fun e => x3 (ix2 (1 : Fin 4) e)) i d * (val_main_v54 (F := Ideal) x0 x1 x2 x3 x4 x5 x6 x7) (ix3 b j d) := by
  rw [val_main_v63_apply]
  refine Finset.sum_congr rfl fun k _ => ?_
  have hl : lidx_main_v63 (ix3 b i j) k = ix3 b i k := funext fun a => by match a with | ⟨0, _⟩ => rfl | ⟨1, _⟩ => rfl | ⟨2, _⟩ => rfl
  have hr : ridx_main_v63 (ix3 b i j) k = ix3 b j k := funext fun a => by match a with | ⟨0, _⟩ => rfl | ⟨1, _⟩ => rfl | ⟨2, _⟩ => rfl
  rw [hl, hr, q_at]

/-- The squashed scores: negate, exponential, add the word of one, divide the word of one by it. -/
theorem sig_at (b : Fin 64) (i j : Fin 512) :
    val_main_v69 (F := Ideal) x0 x1 x2 x3 x4 x5 x6 x7 (ix3 b i j) = Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e)) i j := by
  rw [val_main_v69_apply, val_main_v68_apply, val_main_cst_6_apply, val_main_v67_apply, val_main_v66_apply, val_main_cst_5_apply, val_main_v65_apply, val_main_v64_apply, s_at] <;> rfl

/-- The diagonal constant times the identity matrix, broadcast over the batch. -/
theorem eps_at (b : Fin 64) (i j : Fin 512) :
    val_main_v73 (F := Ideal) (ix3 b i j) = Cert.Gat.wE * (if i = j then (1 : EReal) else 0) := by
  rw [val_main_v73_apply, val_main_v72_apply, val_main_v71_apply, val_main_v70_apply, val_main_cst_7_apply]
  have hidx : idx_main_v72 (idx_main_v73 (ix3 b i j)) = ix2 i j := funext fun a => by match a with | ⟨0, _⟩ => rfl | ⟨1, _⟩ => rfl
  rw [hidx, Cert.Gat.Ref.eye_at] <;> rfl

/-- The masked scores. -/
theorem mask_at (b : Fin 64) (i j : Fin 512) :
    val_main_v75 (F := Ideal) x0 x1 x2 x3 x4 x5 x6 x7 (ix3 b i j) = (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) i j := by
  rw [val_main_v75_apply, val_main_v74_apply, sig_at, eps_at, Cert.Gat.Ref.adj_at] <;> rfl

/-- The row sums of the masked scores, taken from the zero word. -/
theorem rowsum_at (b : Fin 64) (i : Fin 512) :
    val_main_v76 (F := Ideal) x0 x1 x2 x3 x4 x5 x6 x7 (ix2 b i) = Cert.Gat.w0 + ∑ k : Fin 512, (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) i k := by
  rw [val_main_v76_apply, val_main_cst_8_apply]
  refine congrArg (Cert.Gat.w0 + ·) (Finset.sum_congr rfl fun k _ => ?_)
  have hidx : idx_main_v76 (ix2 b i) k = ix3 b i k := funext fun a => by match a with | ⟨0, _⟩ => rfl | ⟨1, _⟩ => rfl | ⟨2, _⟩ => rfl
  rw [hidx, mask_at]

/-- The normalised scores: each masked score divided by its row's sum. -/
theorem norm_at (b : Fin 64) (i j : Fin 512) :
    val_main_v79 (F := Ideal) x0 x1 x2 x3 x4 x5 x6 x7 (ix3 b i j) = Ideal.div ((Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) i j) (Cert.Gat.w0 + ∑ k : Fin 512, (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) i k) := by
  rw [val_main_v79_apply, val_main_v78_apply, val_main_v77_apply, mask_at]
  have hidx : idx_main_v77 (idx_main_v78 (ix3 b i j)) = ix2 b i := funext fun a => by match a with | ⟨0, _⟩ => rfl | ⟨1, _⟩ => rfl
  rw [hidx, rowsum_at] <;> rfl

/-- The aggregate: the normalised scores times the feature rows. -/
theorem agg_at (b : Fin 64) (i : Fin 512) (d : Fin 256) :
    val_main_v80 (F := Ideal) x0 x1 x2 x3 x4 x5 x6 x7 (ix3 b i d) = (Cert.Gat.aggR (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) (fun i d => (val_main_v54 (F := Ideal) x0 x1 x2 x3 x4 x5 x6 x7) (ix3 b i d))) i d := by
  rw [val_main_v80_apply]
  unfold Cert.Gat.aggR
  refine Finset.sum_congr rfl fun k _ => ?_
  have hl : lidx_main_v80 (ix3 b i d) k = ix3 b i k := funext fun a => by match a with | ⟨0, _⟩ => rfl | ⟨1, _⟩ => rfl | ⟨2, _⟩ => rfl
  have hr : ridx_main_v80 (ix3 b i d) k = ix3 b k d := funext fun a => by match a with | ⟨0, _⟩ => rfl | ⟨1, _⟩ => rfl | ⟨2, _⟩ => rfl
  rw [hl, hr, norm_at]

/-- The layer's slice of a weight array, reshaped to a matrix, read at an index. -/
theorem w0_at (e d : Fin 256) : val_main_v82 (F := Ideal) x4 (ix2 e d) = x4 (ix3 (1 : Fin 4) e d) := by
  rw [val_main_v82_apply, val_main_v81_apply]
  refine congrArg x4 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b0_at (b : Fin 64) (i : Fin 512) (e : Fin 256) : val_main_v87 (F := Ideal) x5 (ix3 b i e) = x5 (ix2 (1 : Fin 4) e) := by
  rw [val_main_v87_apply, val_main_v86_apply, val_main_v85_apply, val_main_v84_apply]
  refine congrArg x5 (funext fun a => Fin.ext ?_)
  have he := e.isLt
  match a with
  | ⟨0, _⟩ => rfl
  | ⟨1, _⟩ => show e.val % 256 = e.val; omega

/-- The first affine map of the layer's tail, on the aggregate. -/
theorem z0_at (b : Fin 64) (i : Fin 512) (e : Fin 256) :
    val_main_v88 (F := Ideal) x0 x1 x2 x3 x4 x5 x6 x7 (ix3 b i e) = Cert.Gat.lin (Cert.Gat.aggR (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) (fun i d => (val_main_v54 (F := Ideal) x0 x1 x2 x3 x4 x5 x6 x7) (ix3 b i d))) (fun e d => x4 (ix3 (1 : Fin 4) e d)) (fun e => x5 (ix2 (1 : Fin 4) e)) i e := by
  rw [val_main_v88_apply, val_main_v83_apply, b0_at, Ideal.addf_def]
  unfold Cert.Gat.lin
  refine congrArg (· + _) (Finset.sum_congr rfl fun k _ => ?_)
  have hl : lidx_main_v83 (ix3 b i e) k = ix3 b i k := funext fun a => by match a with | ⟨0, _⟩ => rfl | ⟨1, _⟩ => rfl | ⟨2, _⟩ => rfl
  have hr : ridx_main_v83 (ix3 b i e) k = ix2 e k := funext fun a => by match a with | ⟨0, _⟩ => rfl | ⟨1, _⟩ => rfl
  rw [hl, hr, w0_at, agg_at] <;> rfl

/-- The first rectifier. -/
theorem h0_at (b : Fin 64) (i : Fin 512) (e : Fin 256) :
    val_main_v89 (F := Ideal) x0 x1 x2 x3 x4 x5 x6 x7 (ix3 b i e) = Cert.Gat.relu (Cert.Gat.lin (Cert.Gat.aggR (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) (fun i d => (val_main_v54 (F := Ideal) x0 x1 x2 x3 x4 x5 x6 x7) (ix3 b i d))) (fun e d => x4 (ix3 (1 : Fin 4) e d)) (fun e => x5 (ix2 (1 : Fin 4) e)) i e) := by
  rw [val_main_v89_apply, val_main_call3_v0_apply, val_main_call3_cst_apply, z0_at, Ideal.maximumf_def, Ideal.ofBits_def] <;> rfl

/-- The layer's slice of a weight array, reshaped to a matrix, read at an index. -/
theorem w1_at (e d : Fin 256) : val_main_v91 (F := Ideal) x6 (ix2 e d) = x6 (ix3 (1 : Fin 4) e d) := by
  rw [val_main_v91_apply, val_main_v90_apply]
  refine congrArg x6 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b1_at (b : Fin 64) (i : Fin 512) (e : Fin 256) : val_main_v96 (F := Ideal) x7 (ix3 b i e) = x7 (ix2 (1 : Fin 4) e) := by
  rw [val_main_v96_apply, val_main_v95_apply, val_main_v94_apply, val_main_v93_apply]
  refine congrArg x7 (funext fun a => Fin.ext ?_)
  have he := e.isLt
  match a with
  | ⟨0, _⟩ => rfl
  | ⟨1, _⟩ => show e.val % 256 = e.val; omega

/-- The second affine map of the layer's tail. -/
theorem z1_at (b : Fin 64) (i : Fin 512) (e : Fin 256) :
    val_main_v97 (F := Ideal) x0 x1 x2 x3 x4 x5 x6 x7 (ix3 b i e) = Cert.Gat.lin (fun i e => Cert.Gat.relu (Cert.Gat.lin (Cert.Gat.aggR (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) (fun i d => (val_main_v54 (F := Ideal) x0 x1 x2 x3 x4 x5 x6 x7) (ix3 b i d))) (fun e d => x4 (ix3 (1 : Fin 4) e d)) (fun e => x5 (ix2 (1 : Fin 4) e)) i e)) (fun e d => x6 (ix3 (1 : Fin 4) e d)) (fun e => x7 (ix2 (1 : Fin 4) e)) i e := by
  rw [val_main_v97_apply, val_main_v92_apply, b1_at, Ideal.addf_def]
  unfold Cert.Gat.lin
  refine congrArg (· + _) (Finset.sum_congr rfl fun k _ => ?_)
  have hl : lidx_main_v92 (ix3 b i e) k = ix3 b i k := funext fun a => by match a with | ⟨0, _⟩ => rfl | ⟨1, _⟩ => rfl | ⟨2, _⟩ => rfl
  have hr : ridx_main_v92 (ix3 b i e) k = ix2 e k := funext fun a => by match a with | ⟨0, _⟩ => rfl | ⟨1, _⟩ => rfl
  rw [hl, hr, w1_at, h0_at] <;> rfl

/-- The second rectifier. -/
theorem h1_at (b : Fin 64) (i : Fin 512) (e : Fin 256) :
    val_main_v98 (F := Ideal) x0 x1 x2 x3 x4 x5 x6 x7 (ix3 b i e) = Cert.Gat.relu (Cert.Gat.lin (fun i e => Cert.Gat.relu (Cert.Gat.lin (Cert.Gat.aggR (Cert.Gat.maskR (Cert.Gat.score Cert.Gat.sigW (fun i d => (val_main_v54 (F := Ideal) x0 x1 x2 x3 x4 x5 x6 x7) (ix3 b i d)) (fun e d => x2 (ix3 (1 : Fin 4) e d)) (fun e => x3 (ix2 (1 : Fin 4) e))) (fun i j => x1 (ix3 b i j))) (fun i d => (val_main_v54 (F := Ideal) x0 x1 x2 x3 x4 x5 x6 x7) (ix3 b i d))) (fun e d => x4 (ix3 (1 : Fin 4) e d)) (fun e => x5 (ix2 (1 : Fin 4) e)) i e)) (fun e d => x6 (ix3 (1 : Fin 4) e d)) (fun e => x7 (ix2 (1 : Fin 4) e)) i e) := by
  rw [val_main_v98_apply, val_main_call4_v0_apply, val_main_call4_cst_apply, z1_at, Ideal.maximumf_def, Ideal.ofBits_def] <;> rfl

/-- THE LAYER: its value at an index is the second spelling of a layer of its input. -/
theorem layer_at (b : Fin 64) (i : Fin 512) (e : Fin 256) :
    val_main_v99 (F := Ideal) x0 x1 x2 x3 x4 x5 x6 x7 (ix3 b i e) = Cert.Gat.layerR (fun i d => (val_main_v54 (F := Ideal) x0 x1 x2 x3 x4 x5 x6 x7) (ix3 b i d)) (fun i j => x1 (ix3 b i j)) (fun e d => x2 (ix3 (1 : Fin 4) e d)) (fun e => x3 (ix2 (1 : Fin 4) e)) (fun e d => x4 (ix3 (1 : Fin 4) e d)) (fun e => x5 (ix2 (1 : Fin 4) e)) (fun e d => x6 (ix3 (1 : Fin 4) e d)) (fun e => x7 (ix2 (1 : Fin 4) e)) i e := by
  rw [val_main_v99_apply, h1_at, Ideal.addf_def] <;> rfl

end Cert.Gat.Ref.L1

end
-- ==== Proof.RefLayer2.lean ====
/-
  Layer 2 of the reference (operations %100 to %144) read at an index, stage by stage, and its value as the second
  spelling of a layer (`Cert.Gat.layerR`) of the previous layer's value.
-/
import proofs.«156558_j6545530159683_2_alg».proof.Proof.ReadP
import proofs.«156558_j6545530159683_2_alg».proof.Proof.GatSpec
import proofs.«156558_j6545530159683_2_alg».proof.Proof.RefCommon
import Idealize.ShloMosaic.Lib.ValueIdx
import Idealize.ShloMosaic.PureOps.Ideal.Laws

noncomputable section

namespace Cert.Gat.Ref.L2

open Idealize.ShloMosaic Idealize.ShloMosaic.ValueIdx Cert.ReferenceIdeal Cert.ReferenceIdeal.ReadP

variable (x0 : (⟨S64x512x256, .f32⟩ : BufTy).Contents (Elt Ideal)) (x1 : (⟨S64x512x512, .f32⟩ : BufTy).Contents (Elt Ideal)) (x2 : (⟨S4x256x256, .f32⟩ : BufTy).Contents (Elt Ideal)) (x3 : (⟨S4x256, .f32⟩ : BufTy).Contents (Elt Ideal)) (x4 : (⟨S4x256x256, .f32⟩ : BufTy).Contents (Elt Ideal)) (x5 : (⟨S4x256, .f32⟩ : BufTy).Contents (Elt Ideal)) (x6 : (⟨S4x256x256, .f32⟩ : BufTy).Contents (Elt Ideal)) (x7 : (⟨S4x256, .f32⟩ : BufTy).Contents (Elt Ideal))

/-- The layer's slice of a weight array, reshaped to a matrix, read at an index. -/
theorem wa_at (e d : Fin 256) : val_main_v101 (F := Ideal) x2 (ix2 e d) = x2 (ix3 (2 : Fin 4) e d) := by
  rw [val_main_v101_apply, val_main_v100_apply]
  refine congrArg x2 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem ba_at (b : Fin 64) (i : Fin 512) (e : Fin 256) : val_main_v106 (F := Ideal) x3 (ix3 b i e) = x3 (ix2 (2 : Fin 4) e) := by
  rw [val_main_v106_apply, val_main_v105_apply, val_main_v104_apply, val_main_v103_apply]
  refine congrArg x3 (funext fun a => Fin.ext ?_)
  have he := e.isLt
  match a with
  | ⟨0, _⟩ => rfl
  | ⟨1, _⟩ => show e.val % 256 = e.val; omega

/-- The queries: the affine map of the layer's input. -/
theorem q_at (b : Fin 64) (i : Fin 512) (e : Fin 256) :
    val_main_v107 (F := Ideal) x0 x1 x2 x3 x4 x5 x6 x7 (ix3 b i e) = Cert.Gat.lin (fun i d => (val_main_v99 (F := Ideal) x0 x1 x2 x3 x4 x5 x6 x7) (ix3 b i d)) (fun e d => x2 (ix3 (2 : Fin 4) e d)) (fun e => x3 (ix2 (2 : Fin 4) e)) i e := by
  rw [val_main_v107_apply, val_main_v102_apply, ba_at, Ideal.addf_def]
  unfold Cert.Gat.lin
  refine congrArg (· + _) (Finset.sum_congr rfl fun k _ => ?_)
  have hl : lidx_main_v102 (ix3 b i e) k = ix3 b i k := funext fun a => by match a with | ⟨0, _⟩ => rfl | ⟨1, _⟩ => rfl | ⟨2, _⟩ => rfl
  have hr : ridx_main_v102 (ix3 b i e) k = ix2 e k := funext fun a => by match a with | ⟨0, _⟩ => rfl | ⟨1, _⟩ => rfl
  rw [hl, hr, wa_at] <;> rfl

/-- The pair scores before squashing: the inner product of a query row with a feature row. -/
theorem s_at (b : Fin 64) (i j : Fin 512) :
    val_main_v108 (F := Ideal) x0 x1 x2 x3 x4 x5 x6 x7 (ix3 b i j) = ∑ d : Fin 256, Cert.Gat.lin (fun i d => (val_main_v99 (F := Ideal) x0 x1 x2 x3 x4 x5 x6 x7) (ix3 b i d)) (fun e d => x2 (ix3 (2 : Fin 4) e d)) (fun e => x3 (ix2 (2 : Fin 4) e)) i d * (val_main_v99 (F := Ideal) x0 x1 x2 x3 x4 x5 x6 x7) (ix3 b j d) := by
  rw [val_main_v108_apply]
  refine Finset.sum_congr rfl fun k _ => ?_
  have hl : lidx_main_v108 (ix3 b i j) k = ix3 b i k := funext fun a => by match a with | ⟨0, _⟩ => rfl | ⟨1, _⟩ => rfl | ⟨2, _⟩ => rfl
  have hr : ridx_main_v108 (ix3 b i j) k = ix3 b j k := funext fun a => by match a with | ⟨0, _⟩ => rfl | ⟨1, _⟩ => rfl | ⟨2, _⟩ => rfl
  rw [hl, hr, q_at]

/-- The squashed scores: negate, exponential, add the word of one, divide the word of one by it. -/
theorem sig_at (b : Fin 64) (i j : Fin 512) :
    val_main_v114 (F := Ideal) x0 x1 x2 x3 x4 x5 x6 x7 (ix3 b i j) = Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e)) i j := by
  rw [val_main_v114_apply, val_main_v113_apply, val_main_cst_10_apply, val_main_v112_apply, val_main_v111_apply, val_main_cst_9_apply, val_main_v110_apply, val_main_v109_apply, s_at] <;> rfl

/-- The diagonal constant times the identity matrix, broadcast over the batch. -/
theorem eps_at (b : Fin 64) (i j : Fin 512) :
    val_main_v118 (F := Ideal) (ix3 b i j) = Cert.Gat.wE * (if i = j then (1 : EReal) else 0) := by
  rw [val_main_v118_apply, val_main_v117_apply, val_main_v116_apply, val_main_v115_apply, val_main_cst_11_apply]
  have hidx : idx_main_v117 (idx_main_v118 (ix3 b i j)) = ix2 i j := funext fun a => by match a with | ⟨0, _⟩ => rfl | ⟨1, _⟩ => rfl
  rw [hidx, Cert.Gat.Ref.eye_at] <;> rfl

/-- The masked scores. -/
theorem mask_at (b : Fin 64) (i j : Fin 512) :
    val_main_v120 (F := Ideal) x0 x1 x2 x3 x4 x5 x6 x7 (ix3 b i j) = (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) i j := by
  rw [val_main_v120_apply, val_main_v119_apply, sig_at, eps_at, Cert.Gat.Ref.adj_at] <;> rfl

/-- The row sums of the masked scores, taken from the zero word. -/
theorem rowsum_at (b : Fin 64) (i : Fin 512) :
    val_main_v121 (F := Ideal) x0 x1 x2 x3 x4 x5 x6 x7 (ix2 b i) = Cert.Gat.w0 + ∑ k : Fin 512, (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) i k := by
  rw [val_main_v121_apply, val_main_cst_12_apply]
  refine congrArg (Cert.Gat.w0 + ·) (Finset.sum_congr rfl fun k _ => ?_)
  have hidx : idx_main_v121 (ix2 b i) k = ix3 b i k := funext fun a => by match a with | ⟨0, _⟩ => rfl | ⟨1, _⟩ => rfl | ⟨2, _⟩ => rfl
  rw [hidx, mask_at]

/-- The normalised scores: each masked score divided by its row's sum. -/
theorem norm_at (b : Fin 64) (i j : Fin 512) :
    val_main_v124 (F := Ideal) x0 x1 x2 x3 x4 x5 x6 x7 (ix3 b i j) = Ideal.div ((Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) i j) (Cert.Gat.w0 + ∑ k : Fin 512, (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) i k) := by
  rw [val_main_v124_apply, val_main_v123_apply, val_main_v122_apply, mask_at]
  have hidx : idx_main_v122 (idx_main_v123 (ix3 b i j)) = ix2 b i := funext fun a => by match a with | ⟨0, _⟩ => rfl | ⟨1, _⟩ => rfl
  rw [hidx, rowsum_at] <;> rfl

/-- The aggregate: the normalised scores times the feature rows. -/
theorem agg_at (b : Fin 64) (i : Fin 512) (d : Fin 256) :
    val_main_v125 (F := Ideal) x0 x1 x2 x3 x4 x5 x6 x7 (ix3 b i d) = (Cert.Gat.aggR (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) (fun i d => (val_main_v99 (F := Ideal) x0 x1 x2 x3 x4 x5 x6 x7) (ix3 b i d))) i d := by
  rw [val_main_v125_apply]
  unfold Cert.Gat.aggR
  refine Finset.sum_congr rfl fun k _ => ?_
  have hl : lidx_main_v125 (ix3 b i d) k = ix3 b i k := funext fun a => by match a with | ⟨0, _⟩ => rfl | ⟨1, _⟩ => rfl | ⟨2, _⟩ => rfl
  have hr : ridx_main_v125 (ix3 b i d) k = ix3 b k d := funext fun a => by match a with | ⟨0, _⟩ => rfl | ⟨1, _⟩ => rfl | ⟨2, _⟩ => rfl
  rw [hl, hr, norm_at]

/-- The layer's slice of a weight array, reshaped to a matrix, read at an index. -/
theorem w0_at (e d : Fin 256) : val_main_v127 (F := Ideal) x4 (ix2 e d) = x4 (ix3 (2 : Fin 4) e d) := by
  rw [val_main_v127_apply, val_main_v126_apply]
  refine congrArg x4 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b0_at (b : Fin 64) (i : Fin 512) (e : Fin 256) : val_main_v132 (F := Ideal) x5 (ix3 b i e) = x5 (ix2 (2 : Fin 4) e) := by
  rw [val_main_v132_apply, val_main_v131_apply, val_main_v130_apply, val_main_v129_apply]
  refine congrArg x5 (funext fun a => Fin.ext ?_)
  have he := e.isLt
  match a with
  | ⟨0, _⟩ => rfl
  | ⟨1, _⟩ => show e.val % 256 = e.val; omega

/-- The first affine map of the layer's tail, on the aggregate. -/
theorem z0_at (b : Fin 64) (i : Fin 512) (e : Fin 256) :
    val_main_v133 (F := Ideal) x0 x1 x2 x3 x4 x5 x6 x7 (ix3 b i e) = Cert.Gat.lin (Cert.Gat.aggR (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) (fun i d => (val_main_v99 (F := Ideal) x0 x1 x2 x3 x4 x5 x6 x7) (ix3 b i d))) (fun e d => x4 (ix3 (2 : Fin 4) e d)) (fun e => x5 (ix2 (2 : Fin 4) e)) i e := by
  rw [val_main_v133_apply, val_main_v128_apply, b0_at, Ideal.addf_def]
  unfold Cert.Gat.lin
  refine congrArg (· + _) (Finset.sum_congr rfl fun k _ => ?_)
  have hl : lidx_main_v128 (ix3 b i e) k = ix3 b i k := funext fun a => by match a with | ⟨0, _⟩ => rfl | ⟨1, _⟩ => rfl | ⟨2, _⟩ => rfl
  have hr : ridx_main_v128 (ix3 b i e) k = ix2 e k := funext fun a => by match a with | ⟨0, _⟩ => rfl | ⟨1, _⟩ => rfl
  rw [hl, hr, w0_at, agg_at] <;> rfl

/-- The first rectifier. -/
theorem h0_at (b : Fin 64) (i : Fin 512) (e : Fin 256) :
    val_main_v134 (F := Ideal) x0 x1 x2 x3 x4 x5 x6 x7 (ix3 b i e) = Cert.Gat.relu (Cert.Gat.lin (Cert.Gat.aggR (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) (fun i d => (val_main_v99 (F := Ideal) x0 x1 x2 x3 x4 x5 x6 x7) (ix3 b i d))) (fun e d => x4 (ix3 (2 : Fin 4) e d)) (fun e => x5 (ix2 (2 : Fin 4) e)) i e) := by
  rw [val_main_v134_apply, val_main_call5_v0_apply, val_main_call5_cst_apply, z0_at, Ideal.maximumf_def, Ideal.ofBits_def] <;> rfl

/-- The layer's slice of a weight array, reshaped to a matrix, read at an index. -/
theorem w1_at (e d : Fin 256) : val_main_v136 (F := Ideal) x6 (ix2 e d) = x6 (ix3 (2 : Fin 4) e d) := by
  rw [val_main_v136_apply, val_main_v135_apply]
  refine congrArg x6 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b1_at (b : Fin 64) (i : Fin 512) (e : Fin 256) : val_main_v141 (F := Ideal) x7 (ix3 b i e) = x7 (ix2 (2 : Fin 4) e) := by
  rw [val_main_v141_apply, val_main_v140_apply, val_main_v139_apply, val_main_v138_apply]
  refine congrArg x7 (funext fun a => Fin.ext ?_)
  have he := e.isLt
  match a with
  | ⟨0, _⟩ => rfl
  | ⟨1, _⟩ => show e.val % 256 = e.val; omega

/-- The second affine map of the layer's tail. -/
theorem z1_at (b : Fin 64) (i : Fin 512) (e : Fin 256) :
    val_main_v142 (F := Ideal) x0 x1 x2 x3 x4 x5 x6 x7 (ix3 b i e) = Cert.Gat.lin (fun i e => Cert.Gat.relu (Cert.Gat.lin (Cert.Gat.aggR (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) (fun i d => (val_main_v99 (F := Ideal) x0 x1 x2 x3 x4 x5 x6 x7) (ix3 b i d))) (fun e d => x4 (ix3 (2 : Fin 4) e d)) (fun e => x5 (ix2 (2 : Fin 4) e)) i e)) (fun e d => x6 (ix3 (2 : Fin 4) e d)) (fun e => x7 (ix2 (2 : Fin 4) e)) i e := by
  rw [val_main_v142_apply, val_main_v137_apply, b1_at, Ideal.addf_def]
  unfold Cert.Gat.lin
  refine congrArg (· + _) (Finset.sum_congr rfl fun k _ => ?_)
  have hl : lidx_main_v137 (ix3 b i e) k = ix3 b i k := funext fun a => by match a with | ⟨0, _⟩ => rfl | ⟨1, _⟩ => rfl | ⟨2, _⟩ => rfl
  have hr : ridx_main_v137 (ix3 b i e) k = ix2 e k := funext fun a => by match a with | ⟨0, _⟩ => rfl | ⟨1, _⟩ => rfl
  rw [hl, hr, w1_at, h0_at] <;> rfl

/-- The second rectifier. -/
theorem h1_at (b : Fin 64) (i : Fin 512) (e : Fin 256) :
    val_main_v143 (F := Ideal) x0 x1 x2 x3 x4 x5 x6 x7 (ix3 b i e) = Cert.Gat.relu (Cert.Gat.lin (fun i e => Cert.Gat.relu (Cert.Gat.lin (Cert.Gat.aggR (Cert.Gat.maskR (Cert.Gat.score Cert.Gat.sigW (fun i d => (val_main_v99 (F := Ideal) x0 x1 x2 x3 x4 x5 x6 x7) (ix3 b i d)) (fun e d => x2 (ix3 (2 : Fin 4) e d)) (fun e => x3 (ix2 (2 : Fin 4) e))) (fun i j => x1 (ix3 b i j))) (fun i d => (val_main_v99 (F := Ideal) x0 x1 x2 x3 x4 x5 x6 x7) (ix3 b i d))) (fun e d => x4 (ix3 (2 : Fin 4) e d)) (fun e => x5 (ix2 (2 : Fin 4) e)) i e)) (fun e d => x6 (ix3 (2 : Fin 4) e d)) (fun e => x7 (ix2 (2 : Fin 4) e)) i e) := by
  rw [val_main_v143_apply, val_main_call6_v0_apply, val_main_call6_cst_apply, z1_at, Ideal.maximumf_def, Ideal.ofBits_def] <;> rfl

/-- THE LAYER: its value at an index is the second spelling of a layer of its input. -/
theorem layer_at (b : Fin 64) (i : Fin 512) (e : Fin 256) :
    val_main_v144 (F := Ideal) x0 x1 x2 x3 x4 x5 x6 x7 (ix3 b i e) = Cert.Gat.layerR (fun i d => (val_main_v99 (F := Ideal) x0 x1 x2 x3 x4 x5 x6 x7) (ix3 b i d)) (fun i j => x1 (ix3 b i j)) (fun e d => x2 (ix3 (2 : Fin 4) e d)) (fun e => x3 (ix2 (2 : Fin 4) e)) (fun e d => x4 (ix3 (2 : Fin 4) e d)) (fun e => x5 (ix2 (2 : Fin 4) e)) (fun e d => x6 (ix3 (2 : Fin 4) e d)) (fun e => x7 (ix2 (2 : Fin 4) e)) i e := by
  rw [val_main_v144_apply, h1_at, Ideal.addf_def] <;> rfl

end Cert.Gat.Ref.L2

end
-- ==== Proof.RefLayer3.lean ====
/-
  Layer 3 of the reference (operations %145 to %189) read at an index, stage by stage, and its value as the second
  spelling of a layer (`Cert.Gat.layerR`) of the previous layer's value.
-/
import proofs.«156558_j6545530159683_2_alg».proof.Proof.ReadP
import proofs.«156558_j6545530159683_2_alg».proof.Proof.GatSpec
import proofs.«156558_j6545530159683_2_alg».proof.Proof.RefCommon
import Idealize.ShloMosaic.Lib.ValueIdx
import Idealize.ShloMosaic.PureOps.Ideal.Laws

noncomputable section

namespace Cert.Gat.Ref.L3

open Idealize.ShloMosaic Idealize.ShloMosaic.ValueIdx Cert.ReferenceIdeal Cert.ReferenceIdeal.ReadP

variable (x0 : (⟨S64x512x256, .f32⟩ : BufTy).Contents (Elt Ideal)) (x1 : (⟨S64x512x512, .f32⟩ : BufTy).Contents (Elt Ideal)) (x2 : (⟨S4x256x256, .f32⟩ : BufTy).Contents (Elt Ideal)) (x3 : (⟨S4x256, .f32⟩ : BufTy).Contents (Elt Ideal)) (x4 : (⟨S4x256x256, .f32⟩ : BufTy).Contents (Elt Ideal)) (x5 : (⟨S4x256, .f32⟩ : BufTy).Contents (Elt Ideal)) (x6 : (⟨S4x256x256, .f32⟩ : BufTy).Contents (Elt Ideal)) (x7 : (⟨S4x256, .f32⟩ : BufTy).Contents (Elt Ideal))

/-- The layer's slice of a weight array, reshaped to a matrix, read at an index. -/
theorem wa_at (e d : Fin 256) : val_main_v146 (F := Ideal) x2 (ix2 e d) = x2 (ix3 (3 : Fin 4) e d) := by
  rw [val_main_v146_apply, val_main_v145_apply]
  refine congrArg x2 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem ba_at (b : Fin 64) (i : Fin 512) (e : Fin 256) : val_main_v151 (F := Ideal) x3 (ix3 b i e) = x3 (ix2 (3 : Fin 4) e) := by
  rw [val_main_v151_apply, val_main_v150_apply, val_main_v149_apply, val_main_v148_apply]
  refine congrArg x3 (funext fun a => Fin.ext ?_)
  have he := e.isLt
  match a with
  | ⟨0, _⟩ => rfl
  | ⟨1, _⟩ => show e.val % 256 = e.val; omega

/-- The queries: the affine map of the layer's input. -/
theorem q_at (b : Fin 64) (i : Fin 512) (e : Fin 256) :
    val_main_v152 (F := Ideal) x0 x1 x2 x3 x4 x5 x6 x7 (ix3 b i e) = Cert.Gat.lin (fun i d => (val_main_v144 (F := Ideal) x0 x1 x2 x3 x4 x5 x6 x7) (ix3 b i d)) (fun e d => x2 (ix3 (3 : Fin 4) e d)) (fun e => x3 (ix2 (3 : Fin 4) e)) i e := by
  rw [val_main_v152_apply, val_main_v147_apply, ba_at, Ideal.addf_def]
  unfold Cert.Gat.lin
  refine congrArg (· + _) (Finset.sum_congr rfl fun k _ => ?_)
  have hl : lidx_main_v147 (ix3 b i e) k = ix3 b i k := funext fun a => by match a with | ⟨0, _⟩ => rfl | ⟨1, _⟩ => rfl | ⟨2, _⟩ => rfl
  have hr : ridx_main_v147 (ix3 b i e) k = ix2 e k := funext fun a => by match a with | ⟨0, _⟩ => rfl | ⟨1, _⟩ => rfl
  rw [hl, hr, wa_at] <;> rfl

/-- The pair scores before squashing: the inner product of a query row with a feature row. -/
theorem s_at (b : Fin 64) (i j : Fin 512) :
    val_main_v153 (F := Ideal) x0 x1 x2 x3 x4 x5 x6 x7 (ix3 b i j) = ∑ d : Fin 256, Cert.Gat.lin (fun i d => (val_main_v144 (F := Ideal) x0 x1 x2 x3 x4 x5 x6 x7) (ix3 b i d)) (fun e d => x2 (ix3 (3 : Fin 4) e d)) (fun e => x3 (ix2 (3 : Fin 4) e)) i d * (val_main_v144 (F := Ideal) x0 x1 x2 x3 x4 x5 x6 x7) (ix3 b j d) := by
  rw [val_main_v153_apply]
  refine Finset.sum_congr rfl fun k _ => ?_
  have hl : lidx_main_v153 (ix3 b i j) k = ix3 b i k := funext fun a => by match a with | ⟨0, _⟩ => rfl | ⟨1, _⟩ => rfl | ⟨2, _⟩ => rfl
  have hr : ridx_main_v153 (ix3 b i j) k = ix3 b j k := funext fun a => by match a with | ⟨0, _⟩ => rfl | ⟨1, _⟩ => rfl | ⟨2, _⟩ => rfl
  rw [hl, hr, q_at]

/-- The squashed scores: negate, exponential, add the word of one, divide the word of one by it. -/
theorem sig_at (b : Fin 64) (i j : Fin 512) :
    val_main_v159 (F := Ideal) x0 x1 x2 x3 x4 x5 x6 x7 (ix3 b i j) = Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e)) i j := by
  rw [val_main_v159_apply, val_main_v158_apply, val_main_cst_14_apply, val_main_v157_apply, val_main_v156_apply, val_main_cst_13_apply, val_main_v155_apply, val_main_v154_apply, s_at] <;> rfl

/-- The diagonal constant times the identity matrix, broadcast over the batch. -/
theorem eps_at (b : Fin 64) (i j : Fin 512) :
    val_main_v163 (F := Ideal) (ix3 b i j) = Cert.Gat.wE * (if i = j then (1 : EReal) else 0) := by
  rw [val_main_v163_apply, val_main_v162_apply, val_main_v161_apply, val_main_v160_apply, val_main_cst_15_apply]
  have hidx : idx_main_v162 (idx_main_v163 (ix3 b i j)) = ix2 i j := funext fun a => by match a with | ⟨0, _⟩ => rfl | ⟨1, _⟩ => rfl
  rw [hidx, Cert.Gat.Ref.eye_at] <;> rfl

/-- The masked scores. -/
theorem mask_at (b : Fin 64) (i j : Fin 512) :
    val_main_v165 (F := Ideal) x0 x1 x2 x3 x4 x5 x6 x7 (ix3 b i j) = (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) i j := by
  rw [val_main_v165_apply, val_main_v164_apply, sig_at, eps_at, Cert.Gat.Ref.adj_at] <;> rfl

/-- The row sums of the masked scores, taken from the zero word. -/
theorem rowsum_at (b : Fin 64) (i : Fin 512) :
    val_main_v166 (F := Ideal) x0 x1 x2 x3 x4 x5 x6 x7 (ix2 b i) = Cert.Gat.w0 + ∑ k : Fin 512, (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) i k := by
  rw [val_main_v166_apply, val_main_cst_16_apply]
  refine congrArg (Cert.Gat.w0 + ·) (Finset.sum_congr rfl fun k _ => ?_)
  have hidx : idx_main_v166 (ix2 b i) k = ix3 b i k := funext fun a => by match a with | ⟨0, _⟩ => rfl | ⟨1, _⟩ => rfl | ⟨2, _⟩ => rfl
  rw [hidx, mask_at]

/-- The normalised scores: each masked score divided by its row's sum. -/
theorem norm_at (b : Fin 64) (i j : Fin 512) :
    val_main_v169 (F := Ideal) x0 x1 x2 x3 x4 x5 x6 x7 (ix3 b i j) = Ideal.div ((Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) i j) (Cert.Gat.w0 + ∑ k : Fin 512, (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) i k) := by
  rw [val_main_v169_apply, val_main_v168_apply, val_main_v167_apply, mask_at]
  have hidx : idx_main_v167 (idx_main_v168 (ix3 b i j)) = ix2 b i := funext fun a => by match a with | ⟨0, _⟩ => rfl | ⟨1, _⟩ => rfl
  rw [hidx, rowsum_at] <;> rfl

/-- The aggregate: the normalised scores times the feature rows. -/
theorem agg_at (b : Fin 64) (i : Fin 512) (d : Fin 256) :
    val_main_v170 (F := Ideal) x0 x1 x2 x3 x4 x5 x6 x7 (ix3 b i d) = (Cert.Gat.aggR (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) (fun i d => (val_main_v144 (F := Ideal) x0 x1 x2 x3 x4 x5 x6 x7) (ix3 b i d))) i d := by
  rw [val_main_v170_apply]
  unfold Cert.Gat.aggR
  refine Finset.sum_congr rfl fun k _ => ?_
  have hl : lidx_main_v170 (ix3 b i d) k = ix3 b i k := funext fun a => by match a with | ⟨0, _⟩ => rfl | ⟨1, _⟩ => rfl | ⟨2, _⟩ => rfl
  have hr : ridx_main_v170 (ix3 b i d) k = ix3 b k d := funext fun a => by match a with | ⟨0, _⟩ => rfl | ⟨1, _⟩ => rfl | ⟨2, _⟩ => rfl
  rw [hl, hr, norm_at]

/-- The layer's slice of a weight array, reshaped to a matrix, read at an index. -/
theorem w0_at (e d : Fin 256) : val_main_v172 (F := Ideal) x4 (ix2 e d) = x4 (ix3 (3 : Fin 4) e d) := by
  rw [val_main_v172_apply, val_main_v171_apply]
  refine congrArg x4 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b0_at (b : Fin 64) (i : Fin 512) (e : Fin 256) : val_main_v177 (F := Ideal) x5 (ix3 b i e) = x5 (ix2 (3 : Fin 4) e) := by
  rw [val_main_v177_apply, val_main_v176_apply, val_main_v175_apply, val_main_v174_apply]
  refine congrArg x5 (funext fun a => Fin.ext ?_)
  have he := e.isLt
  match a with
  | ⟨0, _⟩ => rfl
  | ⟨1, _⟩ => show e.val % 256 = e.val; omega

/-- The first affine map of the layer's tail, on the aggregate. -/
theorem z0_at (b : Fin 64) (i : Fin 512) (e : Fin 256) :
    val_main_v178 (F := Ideal) x0 x1 x2 x3 x4 x5 x6 x7 (ix3 b i e) = Cert.Gat.lin (Cert.Gat.aggR (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) (fun i d => (val_main_v144 (F := Ideal) x0 x1 x2 x3 x4 x5 x6 x7) (ix3 b i d))) (fun e d => x4 (ix3 (3 : Fin 4) e d)) (fun e => x5 (ix2 (3 : Fin 4) e)) i e := by
  rw [val_main_v178_apply, val_main_v173_apply, b0_at, Ideal.addf_def]
  unfold Cert.Gat.lin
  refine congrArg (· + _) (Finset.sum_congr rfl fun k _ => ?_)
  have hl : lidx_main_v173 (ix3 b i e) k = ix3 b i k := funext fun a => by match a with | ⟨0, _⟩ => rfl | ⟨1, _⟩ => rfl | ⟨2, _⟩ => rfl
  have hr : ridx_main_v173 (ix3 b i e) k = ix2 e k := funext fun a => by match a with | ⟨0, _⟩ => rfl | ⟨1, _⟩ => rfl
  rw [hl, hr, w0_at, agg_at] <;> rfl

/-- The first rectifier. -/
theorem h0_at (b : Fin 64) (i : Fin 512) (e : Fin 256) :
    val_main_v179 (F := Ideal) x0 x1 x2 x3 x4 x5 x6 x7 (ix3 b i e) = Cert.Gat.relu (Cert.Gat.lin (Cert.Gat.aggR (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) (fun i d => (val_main_v144 (F := Ideal) x0 x1 x2 x3 x4 x5 x6 x7) (ix3 b i d))) (fun e d => x4 (ix3 (3 : Fin 4) e d)) (fun e => x5 (ix2 (3 : Fin 4) e)) i e) := by
  rw [val_main_v179_apply, val_main_call7_v0_apply, val_main_call7_cst_apply, z0_at, Ideal.maximumf_def, Ideal.ofBits_def] <;> rfl

/-- The layer's slice of a weight array, reshaped to a matrix, read at an index. -/
theorem w1_at (e d : Fin 256) : val_main_v181 (F := Ideal) x6 (ix2 e d) = x6 (ix3 (3 : Fin 4) e d) := by
  rw [val_main_v181_apply, val_main_v180_apply]
  refine congrArg x6 (funext fun a => Fin.ext ?_)
  have he := e.isLt
  have hd := d.isLt
  match a with
  | ⟨0, _⟩ => rfl
  | ⟨1, _⟩ => show (e.val * 256 + d.val) / 256 % 256 = e.val; omega
  | ⟨2, _⟩ => show (e.val * 256 + d.val) % 256 = d.val; omega

/-- The layer's slice of a bias array, broadcast over batch and rows, read at an index. -/
theorem b1_at (b : Fin 64) (i : Fin 512) (e : Fin 256) : val_main_v186 (F := Ideal) x7 (ix3 b i e) = x7 (ix2 (3 : Fin 4) e) := by
  rw [val_main_v186_apply, val_main_v185_apply, val_main_v184_apply, val_main_v183_apply]
  refine congrArg x7 (funext fun a => Fin.ext ?_)
  have he := e.isLt
  match a with
  | ⟨0, _⟩ => rfl
  | ⟨1, _⟩ => show e.val % 256 = e.val; omega

/-- The second affine map of the layer's tail. -/
theorem z1_at (b : Fin 64) (i : Fin 512) (e : Fin 256) :
    val_main_v187 (F := Ideal) x0 x1 x2 x3 x4 x5 x6 x7 (ix3 b i e) = Cert.Gat.lin (fun i e => Cert.Gat.relu (Cert.Gat.lin (Cert.Gat.aggR (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) (fun i d => (val_main_v144 (F := Ideal) x0 x1 x2 x3 x4 x5 x6 x7) (ix3 b i d))) (fun e d => x4 (ix3 (3 : Fin 4) e d)) (fun e => x5 (ix2 (3 : Fin 4) e)) i e)) (fun e d => x6 (ix3 (3 : Fin 4) e d)) (fun e => x7 (ix2 (3 : Fin 4) e)) i e := by
  rw [val_main_v187_apply, val_main_v182_apply, b1_at, Ideal.addf_def]
  unfold Cert.Gat.lin
  refine congrArg (· + _) (Finset.sum_congr rfl fun k _ => ?_)
  have hl : lidx_main_v182 (ix3 b i e) k = ix3 b i k := funext fun a => by match a with | ⟨0, _⟩ => rfl | ⟨1, _⟩ => rfl | ⟨2, _⟩ => rfl
  have hr : ridx_main_v182 (ix3 b i e) k = ix2 e k := funext fun a => by match a with | ⟨0, _⟩ => rfl | ⟨1, _⟩ => rfl
  rw [hl, hr, w1_at, h0_at] <;> rfl

/-- The second rectifier. -/
theorem h1_at (b : Fin 64) (i : Fin 512) (e : Fin 256) :
    val_main_v188 (F := Ideal) x0 x1 x2 x3 x4 x5 x6 x7 (ix3 b i e) = Cert.Gat.relu (Cert.Gat.lin (fun i e => Cert.Gat.relu (Cert.Gat.lin (Cert.Gat.aggR (Cert.Gat.maskR (Cert.Gat.score Cert.Gat.sigW (fun i d => (val_main_v144 (F := Ideal) x0 x1 x2 x3 x4 x5 x6 x7) (ix3 b i d)) (fun e d => x2 (ix3 (3 : Fin 4) e d)) (fun e => x3 (ix2 (3 : Fin 4) e))) (fun i j => x1 (ix3 b i j))) (fun i d => (val_main_v144 (F := Ideal) x0 x1 x2 x3 x4 x5 x6 x7) (ix3 b i d))) (fun e d => x4 (ix3 (3 : Fin 4) e d)) (fun e => x5 (ix2 (3 : Fin 4) e)) i e)) (fun e d => x6 (ix3 (3 : Fin 4) e d)) (fun e => x7 (ix2 (3 : Fin 4) e)) i e) := by
  rw [val_main_v188_apply, val_main_call8_v0_apply, val_main_call8_cst_apply, z1_at, Ideal.maximumf_def, Ideal.ofBits_def] <;> rfl

/-- THE LAYER: its value at an index is the second spelling of a layer of its input. -/
theorem layer_at (b : Fin 64) (i : Fin 512) (e : Fin 256) :
    val_main_v189 (F := Ideal) x0 x1 x2 x3 x4 x5 x6 x7 (ix3 b i e) = Cert.Gat.layerR (fun i d => (val_main_v144 (F := Ideal) x0 x1 x2 x3 x4 x5 x6 x7) (ix3 b i d)) (fun i j => x1 (ix3 b i j)) (fun e d => x2 (ix3 (3 : Fin 4) e d)) (fun e => x3 (ix2 (3 : Fin 4) e)) (fun e d => x4 (ix3 (3 : Fin 4) e d)) (fun e => x5 (ix2 (3 : Fin 4) e)) (fun e d => x6 (ix3 (3 : Fin 4) e d)) (fun e => x7 (ix2 (3 : Fin 4) e)) i e := by
  rw [val_main_v189_apply, h1_at, Ideal.addf_def] <;> rfl

end Cert.Gat.Ref.L3

end
-- ==== Proof.RefValue.lean ====
/-
  The reference's value: four layers, each the second spelling of a layer of the previous one, then the final affine
  map (operations %190 to %193), read at an index.
-/
import proofs.«156558_j6545530159683_2_alg».proof.Proof.ReadP
import proofs.«156558_j6545530159683_2_alg».proof.Proof.GatSpec
import proofs.«156558_j6545530159683_2_alg».proof.Proof.RefLayer0
import proofs.«156558_j6545530159683_2_alg».proof.Proof.RefLayer1
import proofs.«156558_j6545530159683_2_alg».proof.Proof.RefLayer2
import proofs.«156558_j6545530159683_2_alg».proof.Proof.RefLayer3
import Idealize.ShloMosaic.Lib.ValueIdx
import Idealize.ShloMosaic.PureOps.Ideal.Laws

noncomputable section

namespace Cert.Gat.Ref

open Idealize.ShloMosaic Idealize.ShloMosaic.ValueIdx Cert.ReferenceIdeal Cert.ReferenceIdeal.ReadP

/-- The value after each layer, as a matrix of one batch element, is the layers of the spec stacked. -/
theorem layers_at (x0 : (⟨S64x512x256, .f32⟩ : BufTy).Contents (Elt Ideal)) (x1 : (⟨S64x512x512, .f32⟩ : BufTy).Contents (Elt Ideal)) (x2 : (⟨S4x256x256, .f32⟩ : BufTy).Contents (Elt Ideal)) (x3 : (⟨S4x256, .f32⟩ : BufTy).Contents (Elt Ideal)) (x4 : (⟨S4x256x256, .f32⟩ : BufTy).Contents (Elt Ideal)) (x5 : (⟨S4x256, .f32⟩ : BufTy).Contents (Elt Ideal)) (x6 : (⟨S4x256x256, .f32⟩ : BufTy).Contents (Elt Ideal)) (x7 : (⟨S4x256, .f32⟩ : BufTy).Contents (Elt Ideal)) (b : Fin 64) :
    (fun i d => val_main_v189 (F := Ideal) x0 x1 x2 x3 x4 x5 x6 x7 (ix3 b i d)) = (Cert.Gat.layerR (Cert.Gat.layerR (Cert.Gat.layerR (Cert.Gat.layerR (fun i d => x0 (ix3 b i d)) (fun i j => x1 (ix3 b i j)) (fun e d => x2 (ix3 (0 : Fin 4) e d)) (fun e => x3 (ix2 (0 : Fin 4) e)) (fun e d => x4 (ix3 (0 : Fin 4) e d)) (fun e => x5 (ix2 (0 : Fin 4) e)) (fun e d => x6 (ix3 (0 : Fin 4) e d)) (fun e => x7 (ix2 (0 : Fin 4) e))) (fun i j => x1 (ix3 b i j)) (fun e d => x2 (ix3 (1 : Fin 4) e d)) (fun e => x3 (ix2 (1 : Fin 4) e)) (fun e d => x4 (ix3 (1 : Fin 4) e d)) (fun e => x5 (ix2 (1 : Fin 4) e)) (fun e d => x6 (ix3 (1 : Fin 4) e d)) (fun e => x7 (ix2 (1 : Fin 4) e))) (fun i j => x1 (ix3 b i j)) (fun e d => x2 (ix3 (2 : Fin 4) e d)) (fun e => x3 (ix2 (2 : Fin 4) e)) (fun e d => x4 (ix3 (2 : Fin 4) e d)) (fun e => x5 (ix2 (2 : Fin 4) e)) (fun e d => x6 (ix3 (2 : Fin 4) e d)) (fun e => x7 (ix2 (2 : Fin 4) e))) (fun i j => x1 (ix3 b i j)) (fun e d => x2 (ix3 (3 : Fin 4) e d)) (fun e => x3 (ix2 (3 : Fin 4) e)) (fun e d => x4 (ix3 (3 : Fin 4) e d)) (fun e => x5 (ix2 (3 : Fin 4) e)) (fun e d => x6 (ix3 (3 : Fin 4) e d)) (fun e => x7 (ix2 (3 : Fin 4) e))) := by
  have h0 : (fun i d => val_main_v54 (F := Ideal) x0 x1 x2 x3 x4 x5 x6 x7 (ix3 b i d)) = (Cert.Gat.layerR (fun i d => x0 (ix3 b i d)) (fun i j => x1 (ix3 b i j)) (fun e d => x2 (ix3 (0 : Fin 4) e d)) (fun e => x3 (ix2 (0 : Fin 4) e)) (fun e d => x4 (ix3 (0 : Fin 4) e d)) (fun e => x5 (ix2 (0 : Fin 4) e)) (fun e d => x6 (ix3 (0 : Fin 4) e d)) (fun e => x7 (ix2 (0 : Fin 4) e))) :=
    funext fun i => funext fun d => L0.layer_at x0 x1 x2 x3 x4 x5 x6 x7 b i d
  have h1 : (fun i d => val_main_v99 (F := Ideal) x0 x1 x2 x3 x4 x5 x6 x7 (ix3 b i d)) = (Cert.Gat.layerR (Cert.Gat.layerR (fun i d => x0 (ix3 b i d)) (fun i j => x1 (ix3 b i j)) (fun e d => x2 (ix3 (0 : Fin 4) e d)) (fun e => x3 (ix2 (0 : Fin 4) e)) (fun e d => x4 (ix3 (0 : Fin 4) e d)) (fun e => x5 (ix2 (0 : Fin 4) e)) (fun e d => x6 (ix3 (0 : Fin 4) e d)) (fun e => x7 (ix2 (0 : Fin 4) e))) (fun i j => x1 (ix3 b i j)) (fun e d => x2 (ix3 (1 : Fin 4) e d)) (fun e => x3 (ix2 (1 : Fin 4) e)) (fun e d => x4 (ix3 (1 : Fin 4) e d)) (fun e => x5 (ix2 (1 : Fin 4) e)) (fun e d => x6 (ix3 (1 : Fin 4) e d)) (fun e => x7 (ix2 (1 : Fin 4) e))) := by
    funext i d
    rw [L1.layer_at, h0]
  have h2 : (fun i d => val_main_v144 (F := Ideal) x0 x1 x2 x3 x4 x5 x6 x7 (ix3 b i d)) = (Cert.Gat.layerR (Cert.Gat.layerR (Cert.Gat.layerR (fun i d => x0 (ix3 b i d)) (fun i j => x1 (ix3 b i j)) (fun e d => x2 (ix3 (0 : Fin 4) e d)) (fun e => x3 (ix2 (0 : Fin 4) e)) (fun e d => x4 (ix3 (0 : Fin 4) e d)) (fun e => x5 (ix2 (0 : Fin 4) e)) (fun e d => x6 (ix3 (0 : Fin 4) e d)) (fun e => x7 (ix2 (0 : Fin 4) e))) (fun i j => x1 (ix3 b i j)) (fun e d => x2 (ix3 (1 : Fin 4) e d)) (fun e => x3 (ix2 (1 : Fin 4) e)) (fun e d => x4 (ix3 (1 : Fin 4) e d)) (fun e => x5 (ix2 (1 : Fin 4) e)) (fun e d => x6 (ix3 (1 : Fin 4) e d)) (fun e => x7 (ix2 (1 : Fin 4) e))) (fun i j => x1 (ix3 b i j)) (fun e d => x2 (ix3 (2 : Fin 4) e d)) (fun e => x3 (ix2 (2 : Fin 4) e)) (fun e d => x4 (ix3 (2 : Fin 4) e d)) (fun e => x5 (ix2 (2 : Fin 4) e)) (fun e d => x6 (ix3 (2 : Fin 4) e d)) (fun e => x7 (ix2 (2 : Fin 4) e))) := by
    funext i d
    rw [L2.layer_at, h1]
  funext i d
  rw [L3.layer_at, h2]

/-- THE REFERENCE'S VALUE at an index: the final affine map of the four stacked layers, the second spelling of the
    network (`Cert.Gat.netR`) on the batch element's features, adjacency and the weight arrays' slices. -/
theorem ref_value
    (x0 : (⟨S64x512x256, .f32⟩ : BufTy).Contents (Elt Ideal)) (x1 : (⟨S64x512x512, .f32⟩ : BufTy).Contents (Elt Ideal))
    (x2 : (⟨S4x256x256, .f32⟩ : BufTy).Contents (Elt Ideal)) (x3 : (⟨S4x256, .f32⟩ : BufTy).Contents (Elt Ideal))
    (x4 : (⟨S4x256x256, .f32⟩ : BufTy).Contents (Elt Ideal)) (x5 : (⟨S4x256, .f32⟩ : BufTy).Contents (Elt Ideal))
    (x6 : (⟨S4x256x256, .f32⟩ : BufTy).Contents (Elt Ideal)) (x7 : (⟨S4x256, .f32⟩ : BufTy).Contents (Elt Ideal))
    (x8 : (⟨S256x256, .f32⟩ : BufTy).Contents (Elt Ideal)) (x9 : (⟨S256, .f32⟩ : BufTy).Contents (Elt Ideal))
    (b : Fin 64) (i : Fin 512) (e : Fin 256) :
    Cert.ReferenceIdeal.ReadP.val_main_v193 (F := Ideal) x0 x1 x2 x3 x4 x5 x6 x7 x8 x9 (ix3 b i e)
      = Cert.Gat.netR (fun i d => x0 (ix3 b i d)) (fun i j => x1 (ix3 b i j))
          (fun l e d => x2 (ix3 l e d)) (fun l e => x3 (ix2 l e))
          (fun l e d => x4 (ix3 l e d)) (fun l e => x5 (ix2 l e))
          (fun l e d => x6 (ix3 l e d)) (fun l e => x7 (ix2 l e))
          (fun e d => x8 (ix2 e d)) (fun e => x9 (ix1 e)) i e := by
  rw [val_main_v193_apply, val_main_v192_apply, val_main_v191_apply, val_main_v190_apply, Ideal.addf_def]
  have hb : idx_main_v191 (idx_main_v192 (ix3 b i e)) = ix1 e := funext fun a => by match a with | ⟨0, _⟩ => rfl
  rw [hb]
  have hsum : ∀ k : Fin 256, val_main_v189 (F := Ideal) x0 x1 x2 x3 x4 x5 x6 x7 (lidx_main_v190 (ix3 b i e) k) * x8 (ridx_main_v190 (ix3 b i e) k)
      = (Cert.Gat.layerR (Cert.Gat.layerR (Cert.Gat.layerR (Cert.Gat.layerR (fun i d => x0 (ix3 b i d)) (fun i j => x1 (ix3 b i j)) (fun e d => x2 (ix3 (0 : Fin 4) e d)) (fun e => x3 (ix2 (0 : Fin 4) e)) (fun e d => x4 (ix3 (0 : Fin 4) e d)) (fun e => x5 (ix2 (0 : Fin 4) e)) (fun e d => x6 (ix3 (0 : Fin 4) e d)) (fun e => x7 (ix2 (0 : Fin 4) e))) (fun i j => x1 (ix3 b i j)) (fun e d => x2 (ix3 (1 : Fin 4) e d)) (fun e => x3 (ix2 (1 : Fin 4) e)) (fun e d => x4 (ix3 (1 : Fin 4) e d)) (fun e => x5 (ix2 (1 : Fin 4) e)) (fun e d => x6 (ix3 (1 : Fin 4) e d)) (fun e => x7 (ix2 (1 : Fin 4) e))) (fun i j => x1 (ix3 b i j)) (fun e d => x2 (ix3 (2 : Fin 4) e d)) (fun e => x3 (ix2 (2 : Fin 4) e)) (fun e d => x4 (ix3 (2 : Fin 4) e d)) (fun e => x5 (ix2 (2 : Fin 4) e)) (fun e d => x6 (ix3 (2 : Fin 4) e d)) (fun e => x7 (ix2 (2 : Fin 4) e))) (fun i j => x1 (ix3 b i j)) (fun e d => x2 (ix3 (3 : Fin 4) e d)) (fun e => x3 (ix2 (3 : Fin 4) e)) (fun e d => x4 (ix3 (3 : Fin 4) e d)) (fun e => x5 (ix2 (3 : Fin 4) e)) (fun e d => x6 (ix3 (3 : Fin 4) e d)) (fun e => x7 (ix2 (3 : Fin 4) e))) i k * x8 (ix2 e k) := by
    intro k
    have hl : lidx_main_v190 (ix3 b i e) k = ix3 b i k := funext fun a => by match a with | ⟨0, _⟩ => rfl | ⟨1, _⟩ => rfl | ⟨2, _⟩ => rfl
    have hr : ridx_main_v190 (ix3 b i e) k = ix2 e k := funext fun a => by match a with | ⟨0, _⟩ => rfl | ⟨1, _⟩ => rfl
    rw [hl, hr]
    exact congrArg (· * x8 (ix2 e k)) (congrFun (congrFun (layers_at x0 x1 x2 x3 x4 x5 x6 x7 b) i) k)
  rw [Finset.sum_congr rfl fun k _ => hsum k]
  rfl

end Cert.Gat.Ref

end
-- ==== Proof.LibIdealReal.lean ====
/-
  Laws of the exact extended-real arithmetic used when two programs compute one real-valued formula in different
  arrangements: a product with a reciprocal against a quotient, a quotient of a product by a nonzero real constant
  against the product with that constant's reciprocal, the square against the power with exponent two, a sum of
  negated terms against the negated sum, and a quotient of a sum against the sum of the quotients.

  The extended reals are not a field: `0 / 0` and `0 * (1 / 0)` differ, opposite infinities do not cancel, and
  negation does not distribute over `⊤ + ⊥`. Each law below therefore names what it needs: a nonzero divisor, or that
  the terms are real numbers. The predicate `IsReal` says that an extended real is (the image of) a real number, and
  is closed under the operations met here, so that the needed facts propagate through a long formula step by step.
-/
import Idealize.ShloMosaic.PureOps.Ideal

noncomputable section

namespace Cert.LibIdealReal

open Idealize.ShloMosaic
open scoped BigOperators

variable {ι : Type*}

/-! ## Quotients -/

/-- `x * (1 / y) = x / y` for a divisor other than zero (an infinite divisor included: both sides are `x * 0`). At
    `y = 0` the law fails for `x = 0`: the quotient is the junk value `⊥`, the product `0 * ⊤ = 0`. -/
theorem mul_recip (x y : EReal) (hy : y ≠ 0) : x * Ideal.div 1 y = Ideal.div x y := by
  unfold Ideal.div; rw [if_neg hy, if_neg hy, one_mul]

/-- The quotient of two real numbers, the divisor nonzero, is the real quotient. -/
theorem div_coe_coe (x : ℝ) {y : ℝ} (hy : y ≠ 0) : Ideal.div (x : EReal) (y : EReal) = ((x / y : ℝ) : EReal) := by
  rw [Ideal.div_coe hy, ← EReal.coe_mul, _root_.mul_one_div]

/-- `(a * b) / D = a * (b * (1 / D))` for a nonzero real constant `D`, whatever `a` and `b` are: multiplication of
    extended reals is associative. -/
theorem div_mul_assoc {D : ℝ} (hD : D ≠ 0) (a b : EReal) :
    Ideal.div (a * b) (D : EReal) = a * (b * ((1 / D : ℝ) : EReal)) := by
  rw [Ideal.div_coe hD, mul_assoc]

/-- The power with exponent two of a real number is its square. -/
theorem pow_two (r : ℝ) : Ideal.pow (r : EReal) ((2 : ℝ) : EReal) = (r : EReal) * (r : EReal) := by
  show ((Real.rpow r 2 : ℝ) : EReal) = _
  rw [← EReal.coe_mul]; congr 1
  show r ^ (2 : ℝ) = r * r
  rw [Real.rpow_two, sq]

/-! ## Finite sums of real numbers -/

/-- The inclusion of the reals commutes with finite sums. -/
theorem coe_sum (A : Finset ι) (f : ι → ℝ) : ((∑ j ∈ A, f j : ℝ) : EReal) = ∑ j ∈ A, (f j : EReal) := by
  induction A using Finset.cons_induction with
  | empty => rw [Finset.sum_empty, Finset.sum_empty, EReal.coe_zero]
  | cons a A ha ih => rw [Finset.sum_cons, Finset.sum_cons, EReal.coe_add, ih]

/-- `0 - x` is `-x`. -/
theorem zero_sub_coe (x : ℝ) : (0 : EReal) - (x : EReal) = ((-x : ℝ) : EReal) := by
  rw [← EReal.coe_zero, ← EReal.coe_sub, zero_sub]

/-- Summing `0 - x j` over real terms gives the negated sum. -/
theorem sum_zero_sub (A : Finset ι) (x : ι → ℝ) :
    ∑ j ∈ A, ((0 : EReal) - (x j : EReal)) = -(∑ j ∈ A, (x j : EReal)) := by
  rw [← coe_sum, ← EReal.coe_neg, ← Finset.sum_neg_distrib, coe_sum]
  exact Finset.sum_congr rfl fun j _ => zero_sub_coe (x j)

/-- A sum of real numbers divided by a nonzero real is the sum of the quotients. -/
theorem div_sum (A : Finset ι) (L : ι → ℝ) {n : ℝ} (hn : n ≠ 0) :
    Ideal.div (∑ j ∈ A, (L j : EReal)) (n : EReal) = ∑ j ∈ A, Ideal.div (L j : EReal) (n : EReal) := by
  rw [← coe_sum, div_coe_coe _ hn, Finset.sum_div, coe_sum]
  exact Finset.sum_congr rfl fun j _ => (div_coe_coe _ hn).symm

/-! ## Being a real number -/

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, EReal.coe_zero.symm⟩
theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A quotient of real numbers, the divisor nonzero, is a real number. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

theorem IsReal.exp {x : EReal} (hx : IsReal x) : IsReal (Ideal.exp x) := by
  obtain ⟨a, rfl⟩ := hx; exact ⟨Real.exp a, rfl⟩

/-- The logarithm of a positive real number is a real number. -/
theorem IsReal.log {x : EReal} (hx : IsReal x) (hpos : 0 < x) : IsReal (Ideal.log x) := by
  obtain ⟨a, rfl⟩ := hx
  have ha : 0 < a := by exact_mod_cast hpos
  exact ⟨Real.log a, by rw [Ideal.log_coe, if_neg (not_le.mpr ha)]⟩

theorem IsReal.sum (A : Finset ι) (f : ι → EReal) (h : ∀ j ∈ A, IsReal (f j)) : IsReal (∑ j ∈ A, f j) := by
  induction A using Finset.cons_induction with
  | empty => rw [Finset.sum_empty]; exact IsReal.zero
  | cons a A ha ih =>
    rw [Finset.sum_cons]
    exact (h a (Finset.mem_cons_self a A)).add (ih fun j hj => h j (Finset.mem_cons_of_mem hj))

theorem IsReal.ne_bot {x : EReal} (hx : IsReal x) : x ≠ ⊥ := by
  obtain ⟨a, rfl⟩ := hx; exact EReal.coe_ne_bot a

theorem IsReal.ne_top {x : EReal} (hx : IsReal x) : x ≠ ⊤ := by
  obtain ⟨a, rfl⟩ := hx; exact EReal.coe_ne_top a

/-- The square of a real number read on the extended reals is the power with exponent two. -/
theorem IsReal.pow_two {x : EReal} (hx : IsReal x) : Ideal.pow x ((2 : ℝ) : EReal) = x * x := by
  obtain ⟨a, rfl⟩ := hx; exact Cert.LibIdealReal.pow_two a

end Cert.LibIdealReal

end
-- ==== Proof.GatAlgebra.lean ====
/-
  The two spellings of the network agree on real inputs whose adjacency entries are not negative.

  Every quantity of the network is then a real number, so each spelling is the image of ONE real-valued network under
  the inclusion of the reals into the extended reals.  The two places where the spellings differ are identities of real
  arithmetic:
  * on the diagonal the adjacency entry is one, so `s · 1 + ε = (s + ε · 1) · 1`; off the diagonal the added constant
    is zero, so `s · a + 0 = (s + ε · 0) · a`;
  * `(∑ j, p j · x j) / D = ∑ j, (p j / D) · x j`.
  The one point that needs care is the divisor `D`, a row sum of masked scores: the exact quotient of the extended reals
  is the real quotient only for a divisor other than zero.  Each masked score is a logistic value (positive) times an
  adjacency entry (not negative), plus zero or the small positive constant; the diagonal term is therefore at least that
  constant, and the row sum is positive.
-/
import proofs.«156558_j6545530159683_2_alg».proof.Proof.GatSpec
import proofs.«156558_j6545530159683_2_alg».proof.Proof.LibIdealReal
import Idealize.ShloMosaic.PureOps.Ideal.Laws

noncomputable section

namespace Cert.Gat

open Idealize.ShloMosaic Cert.LibIdealReal
open scoped BigOperators

/-! ## What the three literals denote -/

theorem w0_eq : w0 = 0 := Ideal.ofBits_zero_f32

theorem w1_eq : w1 = 1 := by
  simp [Ideal.ofBits, Ideal.ieee, -EReal.coe_mul]; norm_num

/-- The small diagonal constant is a positive real number. -/
theorem wE_pos : ∃ ε : ℝ, 0 < ε ∧ wE = (ε : EReal) := by
  simp [Ideal.ofBits, Ideal.ieee, -EReal.coe_mul]

/-! ## The real-valued network and the inclusion -/

/-- An `a × b` family of real numbers. -/
abbrev RMat (a b : ℕ) := Fin a → Fin b → ℝ

/-- A real family as a family of extended reals. -/
def up {a b : ℕ} (x : RMat a b) : Mat a b := fun i j => ((x i j : ℝ) : EReal)

/-- A real vector as a vector of extended reals. -/
def upv (v : Fin 256 → ℝ) : Fin 256 → EReal := fun e => ((v e : ℝ) : EReal)

def linR {n : ℕ} (x : RMat n 256) (W : RMat 256 256) (b : Fin 256 → ℝ) : RMat n 256 :=
  fun i e => (∑ d : Fin 256, x i d * W e d) + b e

theorem lin_up {n : ℕ} (x : RMat n 256) (W : RMat 256 256) (b : Fin 256 → ℝ) :
    lin (up x) (up W) (upv b) = up (linR x W b) := by
  funext i e
  show (∑ d : Fin 256, ((x i d : ℝ) : EReal) * ((W e d : ℝ) : EReal)) + ((b e : ℝ) : EReal)
    = (((∑ d : Fin 256, x i d * W e d) + b e : ℝ) : EReal)
  rw [EReal.coe_add, coe_sum]
  simp only [EReal.coe_mul]

/-- The logistic function on the reals. -/
def sR (r : ℝ) : ℝ := (1 + Real.exp (-r))⁻¹

theorem sR_pos (r : ℝ) : 0 < sR r := inv_pos.mpr (by positivity)

theorem logistic_up (r : ℝ) : Ideal.logistic (r : EReal) = ((sR r : ℝ) : EReal) := Ideal.logistic_coe r

theorem sigW_up (r : ℝ) : sigW (r : EReal) = ((sR r : ℝ) : EReal) := by
  unfold sigW
  rw [w1_eq]
  exact Ideal.logistic_coe r

def scR (x : RMat 512 256) (Wa : RMat 256 256) (ba : Fin 256 → ℝ) : RMat 512 512 :=
  fun i j => sR (∑ d : Fin 256, linR x Wa ba i d * x j d)

theorem score_up (sg : EReal → EReal) (hsg : ∀ r : ℝ, sg (r : EReal) = ((sR r : ℝ) : EReal))
    (x : RMat 512 256) (Wa : RMat 256 256) (ba : Fin 256 → ℝ) :
    score sg (up x) (up Wa) (upv ba) = up (scR x Wa ba) := by
  funext i j
  unfold score
  rw [lin_up]
  show sg (∑ d : Fin 256, ((linR x Wa ba i d : ℝ) : EReal) * ((x j d : ℝ) : EReal)) = _
  simp only [← EReal.coe_mul]
  rw [← coe_sum]
  exact hsg _

/-- The real adjacency matrix with ones on the diagonal. -/
def aD (a : RMat 512 512) : RMat 512 512 := fun i j => if i = j then 1 else a i j

theorem diag1_up (a : RMat 512 512) : diag1 (up a) = up (aD a) := by
  funext i j
  by_cases h : i = j
  · show (if i = j then w1 else up a i j) = (((if i = j then 1 else a i j : ℝ)) : EReal)
    rw [if_pos h, if_pos h, w1_eq, EReal.coe_one]
  · show (if i = j then w1 else up a i j) = (((if i = j then 1 else a i j : ℝ)) : EReal)
    rw [if_neg h, if_neg h]; rfl

/-- The real masked scores. -/
def mR (ε : ℝ) (s a : RMat 512 512) : RMat 512 512 :=
  fun i j => s i j * aD a i j + (if i = j then ε else 0)

theorem maskK_up {ε : ℝ} (hε : wE = (ε : EReal)) (s a : RMat 512 512) :
    maskK (up s) (up a) = up (mR ε s a) := by
  funext i j
  unfold maskK
  rw [diag1_up]
  by_cases h : i = j
  · show ((s i j : ℝ) : EReal) * ((aD a i j : ℝ) : EReal) + (if i = j then wE else w0)
      = ((s i j * aD a i j + (if i = j then ε else 0) : ℝ) : EReal)
    rw [if_pos h, if_pos h, hε, EReal.coe_add, EReal.coe_mul]
  · show ((s i j : ℝ) : EReal) * ((aD a i j : ℝ) : EReal) + (if i = j then wE else w0)
      = ((s i j * aD a i j + (if i = j then ε else 0) : ℝ) : EReal)
    rw [if_neg h, if_neg h, w0_eq, EReal.coe_add, EReal.coe_mul, EReal.coe_zero]

theorem maskR_up {ε : ℝ} (hε : wE = (ε : EReal)) (s a : RMat 512 512) :
    maskR (up s) (up a) = up (mR ε s a) := by
  funext i j
  unfold maskR
  rw [diag1_up]
  by_cases h : i = j
  · show (((s i j : ℝ) : EReal) + wE * (if i = j then (1 : EReal) else 0)) * (((if i = j then 1 else a i j : ℝ)) : EReal)
      = ((s i j * (if i = j then 1 else a i j) + (if i = j then ε else 0) : ℝ) : EReal)
    simp only [if_pos h]
    rw [hε, EReal.coe_one]
    simp only [mul_one]
    rw [EReal.coe_add]
  · show (((s i j : ℝ) : EReal) + wE * (if i = j then (1 : EReal) else 0)) * (((if i = j then 1 else a i j : ℝ)) : EReal)
      = ((s i j * (if i = j then 1 else a i j) + (if i = j then ε else 0) : ℝ) : EReal)
    simp only [if_neg h, mul_zero, add_zero]
    rw [EReal.coe_mul]

theorem mR_nonneg {ε : ℝ} (hε : 0 < ε) (s a : RMat 512 512) (hs : ∀ i j, 0 < s i j) (ha : ∀ i j, 0 ≤ a i j)
    (i j : Fin 512) : 0 ≤ mR ε s a i j := by
  unfold mR aD
  have h1 : 0 ≤ s i j * (if i = j then 1 else a i j) := by
    refine mul_nonneg (hs i j).le ?_
    split_ifs
    · exact zero_le_one
    · exact ha i j
  have h2 : (0 : ℝ) ≤ (if i = j then ε else 0) := by
    split_ifs
    · exact hε.le
    · exact le_refl 0
  exact add_nonneg h1 h2

/-- Every row sum of the masked scores is positive: its diagonal term is at least the small constant. -/
theorem rowsum_pos {ε : ℝ} (hε : 0 < ε) (s a : RMat 512 512) (hs : ∀ i j, 0 < s i j) (ha : ∀ i j, 0 ≤ a i j)
    (i : Fin 512) : 0 < ∑ j : Fin 512, mR ε s a i j := by
  have hd : 0 < mR ε s a i i := by
    unfold mR aD
    rw [if_pos rfl, if_pos rfl, mul_one]
    exact add_pos (hs i i) hε
  exact lt_of_lt_of_le hd
    (Finset.single_le_sum (f := fun j => mR ε s a i j) (fun j _ => mR_nonneg hε s a hs ha i j) (Finset.mem_univ i))

/-- The real aggregation. -/
def gR (p : RMat 512 512) (x : RMat 512 256) : RMat 512 256 :=
  fun i d => (∑ j : Fin 512, p i j * x j d) / (∑ j : Fin 512, p i j)

theorem aggK_up (p : RMat 512 512) (x : RMat 512 256) (hD : ∀ i, (∑ j : Fin 512, p i j) ≠ 0) :
    aggK (up p) (up x) = up (gR p x) := by
  funext i d
  show Ideal.div (∑ j : Fin 512, ((p i j : ℝ) : EReal) * ((x j d : ℝ) : EReal)) (∑ j : Fin 512, ((p i j : ℝ) : EReal))
    = (((∑ j : Fin 512, p i j * x j d) / (∑ j : Fin 512, p i j) : ℝ) : EReal)
  simp only [← EReal.coe_mul]
  rw [← coe_sum, ← coe_sum, div_coe_coe _ (hD i)]

theorem aggR_up (p : RMat 512 512) (x : RMat 512 256) (hD : ∀ i, (∑ j : Fin 512, p i j) ≠ 0) :
    aggR (up p) (up x) = up (gR p x) := by
  funext i d
  show (∑ j : Fin 512, Ideal.div ((p i j : ℝ) : EReal) (w0 + ∑ j' : Fin 512, ((p i j' : ℝ) : EReal)) * ((x j d : ℝ) : EReal))
    = (((∑ j : Fin 512, p i j * x j d) / (∑ j : Fin 512, p i j) : ℝ) : EReal)
  rw [w0_eq, zero_add, ← coe_sum]
  simp only [div_coe_coe _ (hD i), ← EReal.coe_mul]
  rw [← coe_sum, Finset.sum_div]
  exact congrArg _ (Finset.sum_congr rfl fun j _ => div_mul_eq_mul_div _ _ _)

theorem relu_up (r : ℝ) : relu (r : EReal) = ((max r 0 : ℝ) : EReal) := by
  unfold relu
  rw [w0_eq, ← EReal.coe_zero]
  exact (EReal.coe_strictMono.monotone.map_max).symm

/-- The real tail of a layer. -/
def tR (g x : RMat 512 256) (W0 : RMat 256 256) (b0 : Fin 256 → ℝ) (W1 : RMat 256 256) (b1 : Fin 256 → ℝ) : RMat 512 256 :=
  fun i e => max (linR (fun i e => max (linR g W0 b0 i e) 0) W1 b1 i e) 0 + x i e

theorem tail_up (g x : RMat 512 256) (W0 : RMat 256 256) (b0 : Fin 256 → ℝ) (W1 : RMat 256 256) (b1 : Fin 256 → ℝ) :
    tail (up g) (up x) (up W0) (upv b0) (up W1) (upv b1) = up (tR g x W0 b0 W1 b1) := by
  have h1 : (fun i e => relu (lin (up g) (up W0) (upv b0) i e)) = up (fun i e => max (linR g W0 b0 i e) 0) := by
    funext i e
    rw [lin_up]
    exact relu_up _
  funext i e
  show relu (lin (fun i e => relu (lin (up g) (up W0) (upv b0) i e)) (up W1) (upv b1) i e) + up x i e = _
  rw [h1, lin_up]
  show relu ((linR (fun i e => max (linR g W0 b0 i e) 0) W1 b1 i e : ℝ) : EReal) + ((x i e : ℝ) : EReal) = _
  rw [relu_up, ← EReal.coe_add]
  rfl

/-- One real layer. -/
def lR (ε : ℝ) (x : RMat 512 256) (a : RMat 512 512) (Wa : RMat 256 256) (ba : Fin 256 → ℝ)
    (W0 : RMat 256 256) (b0 : Fin 256 → ℝ) (W1 : RMat 256 256) (b1 : Fin 256 → ℝ) : RMat 512 256 :=
  tR (gR (mR ε (scR x Wa ba) a) x) x W0 b0 W1 b1

section
variable {ε : ℝ} (hpos : 0 < ε) (hε : wE = (ε : EReal))
variable (x : RMat 512 256) (a : RMat 512 512) (ha : ∀ i j, 0 ≤ a i j)
variable (Wa : RMat 256 256) (ba : Fin 256 → ℝ) (W0 : RMat 256 256) (b0 : Fin 256 → ℝ) (W1 : RMat 256 256) (b1 : Fin 256 → ℝ)

include hpos hε ha

theorem layerK_up : layerK (up x) (up a) (up Wa) (upv ba) (up W0) (upv b0) (up W1) (upv b1)
    = up (lR ε x a Wa ba W0 b0 W1 b1) := by
  have hD : ∀ i, (∑ j : Fin 512, mR ε (scR x Wa ba) a i j) ≠ 0 := fun i =>
    (rowsum_pos hpos _ a (fun i j => sR_pos _) ha i).ne'
  unfold layerK
  rw [score_up _ logistic_up, maskK_up hε, aggK_up _ _ hD, tail_up]
  rfl

theorem layerR_up : layerR (up x) (up a) (up Wa) (upv ba) (up W0) (upv b0) (up W1) (upv b1)
    = up (lR ε x a Wa ba W0 b0 W1 b1) := by
  have hD : ∀ i, (∑ j : Fin 512, mR ε (scR x Wa ba) a i j) ≠ 0 := fun i =>
    (rowsum_pos hpos _ a (fun i j => sR_pos _) ha i).ne'
  unfold layerR
  rw [score_up _ sigW_up, maskR_up hε, aggR_up _ _ hD, tail_up]
  rfl

end

/-- On real features and weights and an adjacency matrix without negative entries, the two spellings of the network
    are the same family of extended reals. -/
theorem net_up_eq (x : RMat 512 256) (a : RMat 512 512) (ha : ∀ i j, 0 ≤ a i j)
    (Wa : Fin 4 → RMat 256 256) (ba : Fin 4 → Fin 256 → ℝ) (W0 : Fin 4 → RMat 256 256) (b0 : Fin 4 → Fin 256 → ℝ)
    (W1 : Fin 4 → RMat 256 256) (b1 : Fin 4 → Fin 256 → ℝ) (Wf : RMat 256 256) (bf : Fin 256 → ℝ) :
    netK (up x) (up a) (fun l => up (Wa l)) (fun l => upv (ba l)) (fun l => up (W0 l)) (fun l => upv (b0 l))
        (fun l => up (W1 l)) (fun l => upv (b1 l)) (up Wf) (upv bf)
      = netR (up x) (up a) (fun l => up (Wa l)) (fun l => upv (ba l)) (fun l => up (W0 l)) (fun l => upv (b0 l))
        (fun l => up (W1 l)) (fun l => upv (b1 l)) (up Wf) (upv bf) := by
  obtain ⟨ε, hpos, hε⟩ := wE_pos
  unfold netK netR
  simp only [layerK_up hpos hε _ a ha, layerR_up hpos hε _ a ha]

/-- The same for families of extended reals known to be real, the adjacency entries known to be zero or one. -/
theorem net_eq (X : Mat 512 256) (A : Mat 512 512)
    (Wa : Fin 4 → Mat 256 256) (ba : Fin 4 → Fin 256 → EReal) (W0 : Fin 4 → Mat 256 256) (b0 : Fin 4 → Fin 256 → EReal)
    (W1 : Fin 4 → Mat 256 256) (b1 : Fin 4 → Fin 256 → EReal) (Wf : Mat 256 256) (bf : Fin 256 → EReal)
    (hX : ∀ i d, IsReal (X i d)) (hA : ∀ i j, A i j = 0 ∨ A i j = 1)
    (hWa : ∀ l e d, IsReal (Wa l e d)) (hba : ∀ l e, IsReal (ba l e))
    (hW0 : ∀ l e d, IsReal (W0 l e d)) (hb0 : ∀ l e, IsReal (b0 l e))
    (hW1 : ∀ l e d, IsReal (W1 l e d)) (hb1 : ∀ l e, IsReal (b1 l e))
    (hWf : ∀ e d, IsReal (Wf e d)) (hbf : ∀ e, IsReal (bf e)) :
    netK X A Wa ba W0 b0 W1 b1 Wf bf = netR X A Wa ba W0 b0 W1 b1 Wf bf := by
  choose x hx using hX
  choose wa hwa using hWa
  choose vba hvba using hba
  choose w0' hw0 using hW0
  choose vb0 hvb0 using hb0
  choose w1' hw1 using hW1
  choose vb1 hvb1 using hb1
  choose wf hwf using hWf
  choose vbf hvbf using hbf
  have hA' : ∀ i j, ∃ r : ℝ, 0 ≤ r ∧ A i j = (r : EReal) := fun i j => by
    rcases hA i j with h | h
    · exact ⟨0, le_refl 0, by rw [h, EReal.coe_zero]⟩
    · exact ⟨1, zero_le_one, by rw [h, EReal.coe_one]⟩
  choose a ha0 haA using hA'
  have e1 : X = up x := funext fun i => funext fun d => hx i d
  have e2 : A = up a := funext fun i => funext fun j => haA i j
  have e3 : Wa = fun l => up (wa l) := funext fun l => funext fun e => funext fun d => hwa l e d
  have e4 : ba = fun l => upv (vba l) := funext fun l => funext fun e => hvba l e
  have e5 : W0 = fun l => up (w0' l) := funext fun l => funext fun e => funext fun d => hw0 l e d
  have e6 : b0 = fun l => upv (vb0 l) := funext fun l => funext fun e => hvb0 l e
  have e7 : W1 = fun l => up (w1' l) := funext fun l => funext fun e => funext fun d => hw1 l e d
  have e8 : b1 = fun l => upv (vb1 l) := funext fun l => funext fun e => hvb1 l e
  have e9 : Wf = up wf := funext fun e => funext fun d => hwf e d
  have e10 : bf = upv vbf := funext fun e => hvbf e
  rw [e1, e2, e3, e4, e5, e6, e7, e8, e9, e10]
  exact net_up_eq x a ha0 wa vba w0' vb0 w1' vb1 wf vbf

end Cert.Gat

end
-- ==== Proof.GatPre.lean ====
/-
  What the precondition says of the inputs.  The printed predicate is a conjunction of eleven "all entries satisfy …"
  tests: for each of the ten arrays that the magnitude of every entry is below plus infinity, and for the adjacency array
  that every entry equals the word of zero or the word of one.  An extended real whose magnitude `max x (-x)` is below
  plus infinity is neither infinity, hence a real number.
-/
import proofs.«156558_j6545530159683_2_alg».proof.Pre_finite_inputs
import Idealize.ShloMosaic.Lib.ReduceAll
import Idealize.ShloMosaic.PureOps.Ideal
import Idealize.ShloMosaic.PureOps.Ideal.Laws

noncomputable section

namespace Cert.Gat.Pre

open Idealize.ShloMosaic Cert.Pre_finite_inputs

instance : Subsingleton S_.Idx := ⟨fun _ _ => funext fun d => d.elim0⟩

variable [Cert.Pre_finite_inputs.Facts]

/-- A one-bit word made from a truth value is the word one exactly when the value is true. -/
theorem ofBool_one (b : Bool) : BitVec.ofBool b = 1#1 ↔ b = true := by cases b <;> decide

/-- The word of plus infinity. -/
theorem ofBits_inf : Ideal.ofBits .f32 0x7F800000#32 = ⊤ := by
  simp [Ideal.ofBits, Ideal.ieee]

/-- An entry whose magnitude compares below plus infinity is a real number. -/
theorem real_of_lt_inf (x : EReal)
    (h : FloatOps.cmpf (F := Ideal) (φ := .f32) .olt (FloatOps.hostAbsf (F := Ideal) (φ := .f32) x) (FloatOps.ofBits .f32 0x7F800000#32) = 1#1) :
    ∃ r : ℝ, x = (r : EReal) := by
  change BitVec.ofBool (decide (max x (-x) < Ideal.ofBits .f32 0x7F800000#32)) = 1#1 at h
  rw [ofBits_inf] at h
  have h' : max x (-x) < ⊤ := of_decide_eq_true ((ofBool_one _).1 h)
  induction x using EReal.rec with
  | bot => simp at h'
  | coe r => exact ⟨r, rfl⟩
  | top => simp at h'

/-- Two entries that compare equal are equal. -/
theorem eq_of_oeq (x y : EReal) (h : FloatOps.cmpf (F := Ideal) (φ := .f32) .oeq x y = 1#1) : x = y := by
  change BitVec.ofBool (decide (x = y)) = 1#1 at h
  exact of_decide_eq_true ((ofBool_one _).1 h)

/-- The precondition, read entry by entry. -/
theorem decode (a0 : FVec Ideal S64x512x256 .f32) (a1 : FVec Ideal S64x512x512 .f32) (a2 : FVec Ideal S4x256x256 .f32)
    (a3 : FVec Ideal S4x256 .f32) (a4 : FVec Ideal S4x256x256 .f32) (a5 : FVec Ideal S4x256 .f32)
    (a6 : FVec Ideal S4x256x256 .f32) (a7 : FVec Ideal S4x256 .f32) (a8 : FVec Ideal S256x256 .f32) (a9 : FVec Ideal S256 .f32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal))
    ∧ (∀ i, a1 i = Ideal.ofBits .f32 0x00000000#32 ∨ a1 i = Ideal.ofBits .f32 0x3F800000#32) := by
  have e := congrFun h (fun a => Fin.elim0 a)
  simp only [fn, fn_part1, fn_part2, fn_part3, andi, IntOp.andi_eq_one] at e
  obtain ⟨⟨⟨⟨⟨⟨⟨⟨⟨⟨h0, h1⟩, h2⟩, h3⟩, h4⟩, h5⟩, h6⟩, h7⟩, h8⟩, h9⟩, h10⟩ := e
  refine ⟨fun i => real_of_lt_inf _ (Host.reduce_andi_all _ _ _ _ _ h0 i), fun i => real_of_lt_inf _ (Host.reduce_andi_all _ _ _ _ _ h1 i),
    fun i => real_of_lt_inf _ (Host.reduce_andi_all _ _ _ _ _ h2 i), fun i => real_of_lt_inf _ (Host.reduce_andi_all _ _ _ _ _ h3 i),
    fun i => real_of_lt_inf _ (Host.reduce_andi_all _ _ _ _ _ h4 i), fun i => real_of_lt_inf _ (Host.reduce_andi_all _ _ _ _ _ h5 i),
    fun i => real_of_lt_inf _ (Host.reduce_andi_all _ _ _ _ _ h6 i), fun i => real_of_lt_inf _ (Host.reduce_andi_all _ _ _ _ _ h7 i),
    fun i => real_of_lt_inf _ (Host.reduce_andi_all _ _ _ _ _ h8 i), fun i => real_of_lt_inf _ (Host.reduce_andi_all _ _ _ _ _ h9 i),
    fun i => ?_⟩
  rcases IntOp.ori_eq_one.1 (Host.reduce_andi_all _ _ _ _ _ h10 i) with hz | ho
  · exact Or.inl (eq_of_oeq _ _ hz)
  · exact Or.inr (eq_of_oeq _ _ ho)

end Cert.Gat.Pre

end
-- ==== Proof.GatBridge.lean ====
/-
  The two result arrays are one function of the arguments.

  The kernel's run leaves, at `(b, p, e)`, the first spelling of the network on batch element `b`; the reference's result
  term is, at the same index, the second spelling on the same batch element.  Under the precondition every input entry is
  a real number and every adjacency entry is zero or one, and there the two spellings agree.
-/
import proofs.«156558_j6545530159683_2_alg».proof.Proof.GatKernelRun
import proofs.«156558_j6545530159683_2_alg».proof.Proof.RefValue
import proofs.«156558_j6545530159683_2_alg».proof.Proof.GatAlgebra
import proofs.«156558_j6545530159683_2_alg».proof.Proof.GatPre

noncomputable section

namespace Cert.Gat.Bridge

open Idealize.ShloMosaic Idealize.ShloMosaic.ValueIdx Cert.Gat

variable [Cert.Pre_finite_inputs.Facts]

/-- Under the precondition, the reference's result term is the array the kernel's run leaves. -/
theorem value_eq (a0 : Cert.KernelIdeal.S64x512x256.Idx → EReal) (a1 : Cert.KernelIdeal.S64x512x512.Idx → EReal)
    (a2 : Cert.KernelIdeal.S4x256x256.Idx → EReal) (a3 : Cert.KernelIdeal.S4x256.Idx → EReal)
    (a4 : Cert.KernelIdeal.S4x256x256.Idx → EReal) (a5 : Cert.KernelIdeal.S4x256.Idx → EReal)
    (a6 : Cert.KernelIdeal.S4x256x256.Idx → EReal) (a7 : Cert.KernelIdeal.S4x256.Idx → EReal)
    (a8 : Cert.KernelIdeal.S256x256.Idx → EReal) (a9 : Cert.KernelIdeal.S256.Idx → EReal)
    (h : Cert.Pre_finite_inputs.fn (F := Ideal) a0 a1 a2 a3 a4 a5 a6 a7 a8 a9 = fun _ => 1#1) :
    Cert.ReferenceIdeal.ReadP.val_main_v193 (F := Ideal) a0 a1 a2 a3 a4 a5 a6 a7 a8 a9
      = Cert.Gat.KRun.GA a0 a1 a2 a3 a4 a5 a6 a7 a8 a9 := by
  obtain ⟨h0, h1, h2, h3, h4, h5, h6, h7, h8, h9, hA⟩ := Cert.Gat.Pre.decode a0 a1 a2 a3 a4 a5 a6 a7 a8 a9 h
  funext i
  obtain ⟨b, p, e, rfl⟩ : ∃ (b : Fin 64) (p : Fin 512) (e : Fin 256), i = ix3 b p e := ⟨i 0, i 1, i 2, eq_ix3 i⟩
  rw [Cert.Gat.Ref.ref_value]
  show _ = Cert.Gat.KRun.G a0 a1 a2 a3 a4 a5 a6 a7 a8 a9 b p e
  unfold Cert.Gat.KRun.G
  have hnet := net_eq (fun i d => a0 (ix3 b i d)) (fun i j => a1 (ix3 b i j))
    (fun l e d => a2 (ix3 l e d)) (fun l e => a3 (ix2 l e)) (fun l e d => a4 (ix3 l e d)) (fun l e => a5 (ix2 l e))
    (fun l e d => a6 (ix3 l e d)) (fun l e => a7 (ix2 l e)) (fun e d => a8 (ix2 e d)) (fun e => a9 (ix1 e))
    (fun i d => h0 (ix3 b i d))
    (fun i j => (hA (ix3 b i j)).imp (fun e0 => e0.trans w0_eq) (fun e1 => e1.trans w1_eq))
    (fun l e d => h2 (ix3 l e d)) (fun l e => h3 (ix2 l e)) (fun l e d => h4 (ix3 l e d)) (fun l e => h5 (ix2 l e))
    (fun l e d => h6 (ix3 l e d)) (fun l e => h7 (ix2 l e)) (fun e d => h8 (ix2 e d)) (fun e => h9 (ix1 e))
  exact (congrFun (congrFun hnet p) e).symm

end Cert.Gat.Bridge

end
-- ==== Proof.lean ====
/-
  The certificate of the dense graph-attention kernel against its reference, over the extended reals.

  Both programs compute, for each of 64 batch elements, four graph-attention layers and a final affine map on a
  512 × 256 feature matrix under a 512 × 512 adjacency matrix (Proof/GatSpec.lean writes the network once, in the two
  spellings the programs use).  The kernel handles one batch element per grid point and normalises the aggregated
  features by the row sums of the masked attention scores AFTER the aggregation product; the reference normalises the
  scores BEFORE it.  On real inputs with adjacency entries in {0, 1} the row sums are positive real numbers and the two
  orders agree (Proof/GatAlgebra.lean); the precondition supplies exactly that (Proof/GatPre.lean).  With a zero row
  sum the exact quotient of the extended reals is an infinity and the two orders differ, which is why the adjacency
  entries are required to be zero or one.

  The kernel's result array is read off its frame run block by block (Proof/GatKernelRun.lean over Proof/KerValue.lean);
  the reference's run is walked layer by layer (Proof/RefRun.lean) and its result term read one operation at a time
  (Proof/RefValue.lean); Proof/GatBridge.lean joins the two sides.
-/
import proofs.«156558_j6545530159683_2_alg».proof.Defs
import proofs.«156558_j6545530159683_2_alg».proof.Proof.Gen.Kernel
import proofs.«156558_j6545530159683_2_alg».proof.Proof.Gen.Kernel.Skeleton
import proofs.«156558_j6545530159683_2_alg».proof.Proof.Gen.Kernel.Launch
import proofs.«156558_j6545530159683_2_alg».proof.Proof.Gen.Kernel.Points
import proofs.«156558_j6545530159683_2_alg».proof.Proof.Gen.Kernel.Frame
import proofs.«156558_j6545530159683_2_alg».proof.Proof.Gen.KernelIdeal
import proofs.«156558_j6545530159683_2_alg».proof.Proof.Gen.KernelIdeal.Skeleton
import proofs.«156558_j6545530159683_2_alg».proof.Proof.Gen.KernelIdeal.Launch
import proofs.«156558_j6545530159683_2_alg».proof.Proof.Gen.KernelIdeal.Points
import proofs.«156558_j6545530159683_2_alg».proof.Proof.Gen.KernelIdeal.Frame
import proofs.«156558_j6545530159683_2_alg».proof.Proof.Gen.ReferenceIdeal
import proofs.«156558_j6545530159683_2_alg».proof.Proof.Gen.Pre_finite_inputs
import proofs.«156558_j6545530159683_2_alg».proof.Proof.Gen.KernelIdeal.Value
import proofs.«156558_j6545530159683_2_alg».proof.Proof.RefRun
import proofs.«156558_j6545530159683_2_alg».proof.Proof.GatBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.Gat.RefRun.run m ρ)

/-- From memories that agree on the ten arguments and satisfy the precondition, both programs end with the same
    result array: the network of every batch element. -/
theorem algebraic : Cert.algebraic_KernelIdeal_ReferenceIdeal := by
  intro m ρ m' ρ' hpre hagree
  refine ⟨fun c => Cert.Gat.KRun.GV m c, Cert.Gat.KRun.run m ρ, ?_⟩
  refine (θ_run Cert.ReferenceIdeal.defs _ _).mono (fun _ h c => ⟨(h c).1.trans ?_, (h c).2⟩)
    (Cert.Gat.RefRun.run m' ρ')
  obtain ⟨g0, g1, g2, g3, g4, g5, g6, g7, g8, g9⟩ := hagree c
  rw [g0, g1, g2, g3, g4, g5, g6, g7, g8, g9]
  exact Cert.Gat.Bridge.value_eq _ _ _ _ _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
